-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16x2048x1024 : Shape := ⟨3, ![16, 2048, 1024]⟩
abbrev S16 : Shape := ⟨1, ![16]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16x2048x1024 .f32) (main_arg1 : IVec S16 32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_c_0 : IVec S_ 32 := constantI S_ 32 0#32
  let main_v4 : IVec S16 32 := broadcastInDim S16 ![] bcast_S_S16 main_c_0
  let main_v5 : IVec S16 1 := cmpi .sge main_arg1 main_v4
  let main_c_1 : IVec S_ 32 := constantI S_ 32 2047#32
  let main_v6 : IVec S16 32 := broadcastInDim S16 ![] bcast_S_S16 main_c_1
  let main_v7 : IVec S16 1 := cmpi .sle main_arg1 main_v6
  let main_v8 : IVec S16 1 := andi main_v5 main_v7
  let main_c_2 : IVec S_ 1 := constantI S_ 1 1#1
  let main_v9 : IVec S_ 1 := (fun x v => Host.reduce IntOp.andi x v reducesTo_S16_S_d0 h_S_) main_v8 main_c_2
  let main_v10 : IVec S_ 1 := andi main_v3 main_v9
  main_v10
-- ==== Kernel.lean ====
abbrev S16x2048x1024 : Shape := ⟨3, ![16, 2048, 1024]⟩
abbrev S16 : Shape := ⟨1, ![16]⟩
abbrev S32768x1024 : Shape := ⟨2, ![32768, 1024]⟩
abbrev S16x1024 : Shape := ⟨2, ![16, 1024]⟩
abbrev S_ : Shape := ⟨0, ![]⟩
abbrev S1 : Shape := ⟨1, ![1]⟩
abbrev S1x1024 : Shape := ⟨2, ![1, 1024]⟩
abbrev S1024 : Shape := ⟨1, ![1024]⟩

abbrev nBuf : Table → Nat
  | .hbm => 4
  | .local .scScalar .smem => 1
  | _ => 0

abbrev bufTy : (tb : Table) → Fin (nBuf tb) → BufTy
  | .hbm, ⟨0, _⟩ => ⟨S16x2048x1024, .f32⟩
  | .hbm, ⟨1, _⟩ => ⟨S16, .i32⟩
  | .hbm, ⟨2, _⟩ => ⟨S32768x1024, .f32⟩
  | .hbm, ⟨3, _⟩ => ⟨S16x1024, .f32⟩
  | .local .scScalar .smem, ⟨0, _⟩ => ⟨S16, .i32⟩
  | _, _ => ⟨S16x2048x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scs : Ref sig .scScalar := ⟨.hbm, 2, rfl⟩
abbrev main_arg1_scs : Ref sig .scScalar := ⟨.hbm, 1, rfl⟩
abbrev main_v1_scs : Ref sig .scScalar := ⟨.hbm, 3, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v4 : BitVec 32) : Fin 2 → Nat :=
  let c0_i32_2 : BitVec 32 := 0#32
  let c1_i32 : BitVec 32 := 1#32
  let v5 : BitVec 32 := Scalar.subi v4 c1_i32
  let c2047_i32 : BitVec 32 := 2047#32
  let v6 : BitVec 32 := Scalar.andi v5 c2047_i32
  let v7 : BitVec 32 := Scalar.addi c0_i32_2 v6
  let c0_i32_6 : BitVec 32 := 0#32
  ![v7.toNat, 0]

def k0_off2 (v15 : BitVec 32) : Fin 2 → Nat :=
  let c2048_i32 : BitVec 32 := 2048#32
  let c1_i32_8 : BitVec 32 := 1#32
  let v16 : BitVec 32 := Scalar.subi v15 c1_i32_8
  let c2047_i32_9 : BitVec 32 := 2047#32
  let v17 : BitVec 32 := Scalar.andi v16 c2047_i32_9
  let v18 : BitVec 32 := Scalar.addi c2048_i32 v17
  let c0_i32_13 : BitVec 32 := 0#32
  ![v18.toNat, 0]

def k0_off3 (v26 : BitVec 32) : Fin 2 → Nat :=
  let c4096_i32 : BitVec 32 := 4096#32
  let c1_i32_14 : BitVec 32 := 1#32
  let v27 : BitVec 32 := Scalar.subi v26 c1_i32_14
  let c2047_i32_15 : BitVec 32 := 2047#32
  let v28 : BitVec 32 := Scalar.andi v27 c2047_i32_15
  let v29 : BitVec 32 := Scalar.addi c4096_i32 v28
  let c0_i32_19 : BitVec 32 := 0#32
  ![v29.toNat, 0]

def k0_off4 (v37 : BitVec 32) : Fin 2 → Nat :=
  let c6144_i32 : BitVec 32 := 6144#32
  let c1_i32_20 : BitVec 32 := 1#32
  let v38 : BitVec 32 := Scalar.subi v37 c1_i32_20
  let c2047_i32_21 : BitVec 32 := 2047#32
  let v39 : BitVec 32 := Scalar.andi v38 c2047_i32_21
  let v40 : BitVec 32 := Scalar.addi c6144_i32 v39
  let c0_i32_25 : BitVec 32 := 0#32
  ![v40.toNat, 0]

def k0_off5 (v48 : BitVec 32) : Fin 2 → Nat :=
  let c8192_i32 : BitVec 32 := 8192#32
  let c1_i32_26 : BitVec 32 := 1#32
  let v49 : BitVec 32 := Scalar.subi v48 c1_i32_26
  let c2047_i32_27 : BitVec 32 := 2047#32
  let v50 : BitVec 32 := Scalar.andi v49 c2047_i32_27
  let v51 : BitVec 32 := Scalar.addi c8192_i32 v50
  let c0_i32_31 : BitVec 32 := 0#32
  ![v51.toNat, 0]

def k0_off6 (v59 : BitVec 32) : Fin 2 → Nat :=
  let c10240_i32 : BitVec 32 := 10240#32
  let c1_i32_32 : BitVec 32 := 1#32
  let v60 : BitVec 32 := Scalar.subi v59 c1_i32_32
  let c2047_i32_33 : BitVec 32 := 2047#32
  let v61 : BitVec 32 := Scalar.andi v60 c2047_i32_33
  let v62 : BitVec 32 := Scalar.addi c10240_i32 v61
  let c0_i32_37 : BitVec 32 := 0#32
  ![v62.toNat, 0]

def k0_off7 (v70 : BitVec 32) : Fin 2 → Nat :=
  let c12288_i32 : BitVec 32 := 12288#32
  let c1_i32_38 : BitVec 32 := 1#32
  let v71 : BitVec 32 := Scalar.subi v70 c1_i32_38
  let c2047_i32_39 : BitVec 32 := 2047#32
  let v72 : BitVec 32 := Scalar.andi v71 c2047_i32_39
  let v73 : BitVec 32 := Scalar.addi c12288_i32 v72
  let c0_i32_43 : BitVec 32 := 0#32
  ![v73.toNat, 0]

def k0_off8 (v81 : BitVec 32) : Fin 2 → Nat :=
  let c14336_i32 : BitVec 32 := 14336#32
  let c1_i32_44 : BitVec 32 := 1#32
  let v82 : BitVec 32 := Scalar.subi v81 c1_i32_44
  let c2047_i32_45 : BitVec 32 := 2047#32
  let v83 : BitVec 32 := Scalar.andi v82 c2047_i32_45
  let v84 : BitVec 32 := Scalar.addi c14336_i32 v83
  let c0_i32_49 : BitVec 32 := 0#32
  ![v84.toNat, 0]

def k0_off9 (v92 : BitVec 32) : Fin 2 → Nat :=
  let c16384_i32 : BitVec 32 := 16384#32
  let c1_i32_50 : BitVec 32 := 1#32
  let v93 : BitVec 32 := Scalar.subi v92 c1_i32_50
  let c2047_i32_51 : BitVec 32 := 2047#32
  let v94 : BitVec 32 := Scalar.andi v93 c2047_i32_51
  let v95 : BitVec 32 := Scalar.addi c16384_i32 v94
  let c0_i32_55 : BitVec 32 := 0#32
  ![v95.toNat, 0]

def k0_off10 (v103 : BitVec 32) : Fin 2 → Nat :=
  let c18432_i32 : BitVec 32 := 18432#32
  let c1_i32_56 : BitVec 32 := 1#32
  let v104 : BitVec 32 := Scalar.subi v103 c1_i32_56
  let c2047_i32_57 : BitVec 32 := 2047#32
  let v105 : BitVec 32 := Scalar.andi v104 c2047_i32_57
  let v106 : BitVec 32 := Scalar.addi c18432_i32 v105
  let c0_i32_61 : BitVec 32 := 0#32
  ![v106.toNat, 0]

def k0_off11 (v114 : BitVec 32) : Fin 2 → Nat :=
  let c20480_i32 : BitVec 32 := 20480#32
  let c1_i32_62 : BitVec 32 := 1#32
  let v115 : BitVec 32 := Scalar.subi v114 c1_i32_62
  let c2047_i32_63 : BitVec 32 := 2047#32
  let v116 : BitVec 32 := Scalar.andi v115 c2047_i32_63
  let v117 : BitVec 32 := Scalar.addi c20480_i32 v116
  let c0_i32_67 : BitVec 32 := 0#32
  ![v117.toNat, 0]

def k0_off12 (v125 : BitVec 32) : Fin 2 → Nat :=
  let c22528_i32 : BitVec 32 := 22528#32
  let c1_i32_68 : BitVec 32 := 1#32
  let v126 : BitVec 32 := Scalar.subi v125 c1_i32_68
  let c2047_i32_69 : BitVec 32 := 2047#32
  let v127 : BitVec 32 := Scalar.andi v126 c2047_i32_69
  let v128 : BitVec 32 := Scalar.addi c22528_i32 v127
  let c0_i32_73 : BitVec 32 := 0#32
  ![v128.toNat, 0]

def k0_off13 (v136 : BitVec 32) : Fin 2 → Nat :=
  let c24576_i32 : BitVec 32 := 24576#32
  let c1_i32_74 : BitVec 32 := 1#32
  let v137 : BitVec 32 := Scalar.subi v136 c1_i32_74
  let c2047_i32_75 : BitVec 32 := 2047#32
  let v138 : BitVec 32 := Scalar.andi v137 c2047_i32_75
  let v139 : BitVec 32 := Scalar.addi c24576_i32 v138
  let c0_i32_79 : BitVec 32 := 0#32
  ![v139.toNat, 0]

def k0_off14 (v147 : BitVec 32) : Fin 2 → Nat :=
  let c26624_i32 : BitVec 32 := 26624#32
  let c1_i32_80 : BitVec 32 := 1#32
  let v148 : BitVec 32 := Scalar.subi v147 c1_i32_80
  let c2047_i32_81 : BitVec 32 := 2047#32
  let v149 : BitVec 32 := Scalar.andi v148 c2047_i32_81
  let v150 : BitVec 32 := Scalar.addi c26624_i32 v149
  let c0_i32_85 : BitVec 32 := 0#32
  ![v150.toNat, 0]

def k0_off15 (v158 : BitVec 32) : Fin 2 → Nat :=
  let c28672_i32 : BitVec 32 := 28672#32
  let c1_i32_86 : BitVec 32 := 1#32
  let v159 : BitVec 32 := Scalar.subi v158 c1_i32_86
  let c2047_i32_87 : BitVec 32 := 2047#32
  let v160 : BitVec 32 := Scalar.andi v159 c2047_i32_87
  let v161 : BitVec 32 := Scalar.addi c28672_i32 v160
  let c0_i32_91 : BitVec 32 := 0#32
  ![v161.toNat, 0]

def k0_off16 (v169 : BitVec 32) : Fin 2 → Nat :=
  let c30720_i32 : BitVec 32 := 30720#32
  let c1_i32_92 : BitVec 32 := 1#32
  let v170 : BitVec 32 := Scalar.subi v169 c1_i32_92
  let c2047_i32_93 : BitVec 32 := 2047#32
  let v171 : BitVec 32 := Scalar.andi v170 c2047_i32_93
  let v172 : BitVec 32 := Scalar.addi c30720_i32 v171
  let c0_i32_97 : BitVec 32 := 0#32
  ![v172.toNat, 0]

def k0_chk16 (i : grid0.Coords) (v169 : BitVec 32) : Prop :=
  (∀ (k0_h1 : k0_cond1 i = 1#1), ∀ a, (k0_off16 v169) a + S1x1024.size a ≤ S32768x1024.size a)
instance k0_chk16.dec : ∀ (i : grid0.Coords) (v169 : BitVec 32), Decidable (k0_chk16 i v169) := fun i v169 => decidable_of_iff' _ (Iff.of_eq (k0_chk16.eq_1 i v169))
theorem k0_off16_inb : ∀ (i : grid0.Coords) (v169 : BitVec 32) (k0_hw16 : k0_chk16 i v169), ∀ (k0_h1 : k0_cond1 i = 1#1), ∀ a, (k0_off16 v169) a + S1x1024.size a ≤ S32768x1024.size a := fun i v169 k0_hw16 k0_h1 => k0_hw16 k0_h1

def k0_off17 (v4 : BitVec 32) : Fin 2 → Nat :=
  let c0_i32_2 : BitVec 32 := 0#32
  let c1_i32 : BitVec 32 := 1#32
  let v5 : BitVec 32 := Scalar.subi v4 c1_i32
  let c2047_i32 : BitVec 32 := 2047#32
  let v6 : BitVec 32 := Scalar.andi v5 c2047_i32
  let v7 : BitVec 32 := Scalar.addi c0_i32_2 v6
  let c0_i32_101 : BitVec 32 := 0#32
  ![v7.toNat, 0]

def k0_chk1 (i : grid0.Coords) (v4 : BitVec 32) : Prop :=
  (∀ (k0_h1 : k0_cond1 i = 1#1), ∀ a, (k0_off1 v4) a + S1x1024.size a ≤ S32768x1024.size a) ∧
  (∀ (k0_h1 : k0_cond1 i = 1#1), ∀ a, (k0_off17 v4) a + S1x1024.size a ≤ S32768x1024.size a)
instance k0_chk1.dec : ∀ (i : grid0.Coords) (v4 : BitVec 32), Decidable (k0_chk1 i v4) := fun i v4 => decidable_of_iff' _ (Iff.of_eq (k0_chk1.eq_1 i v4))
theorem k0_off1_inb : ∀ (i : grid0.Coords) (v4 : BitVec 32) (k0_hw1 : k0_chk1 i v4), ∀ (k0_h1 : k0_cond1 i = 1#1), ∀ a, (k0_off1 v4) a + S1x1024.size a ≤ S32768x1024.size a := fun i v4 k0_hw1 k0_h1 => k0_hw1.1 k0_h1
theorem k0_off17_inb : ∀ (i : grid0.Coords) (v4 : BitVec 32) (k0_hw1 : k0_chk1 i v4), ∀ (k0_h1 : k0_cond1 i = 1#1), ∀ a, (k0_off17 v4) a + S1x1024.size a ≤ S32768x1024.size a := fun i v4 k0_hw1 k0_h1 => k0_hw1.2 k0_h1

def k0_off18 (v15 : BitVec 32) : Fin 2 → Nat :=
  let c2048_i32 : BitVec 32 := 2048#32
  let c1_i32_8 : BitVec 32 := 1#32
  let v16 : BitVec 32 := Scalar.subi v15 c1_i32_8
  let c2047_i32_9 : BitVec 32 := 2047#32
  let v17 : BitVec 32 := Scalar.andi v16 c2047_i32_9
  let v18 : BitVec 32 := Scalar.addi c2048_i32 v17
  let c0_i32_105 : BitVec 32 := 0#32
  ![v18.toNat, 0]

def k0_chk2 (i : grid0.Coords) (v15 : BitVec 32) : Prop :=
  (∀ (k0_h1 : k0_cond1 i = 1#1), ∀ a, (k0_off2 v15) a + S1x1024.size a ≤ S32768x1024.size a) ∧
  (∀ (k0_h1 : k0_cond1 i = 1#1), ∀ a, (k0_off18 v15) a + S1x1024.size a ≤ S32768x1024.size a)
instance k0_chk2.dec : ∀ (i : grid0.Coords) (v15 : BitVec 32), Decidable (k0_chk2 i v15) := fun i v15 => decidable_of_iff' _ (Iff.of_eq (k0_chk2.eq_1 i v15))
theorem k0_off2_inb : ∀ (i : grid0.Coords) (v15 : BitVec 32) (k0_hw2 : k0_chk2 i v15), ∀ (k0_h1 : k0_cond1 i = 1#1), ∀ a, (k0_off2 v15) a + S1x1024.size a ≤ S32768x1024.size a := fun i v15 k0_hw2 k0_h1 => k0_hw2.1 k0_h1
theorem k0_off18_inb : ∀ (i : grid0.Coords) (v15 : BitVec 32) (k0_hw2 : k0_chk2 i v15), ∀ (k0_h1 : k0_cond1 i = 1#1), ∀ a, (k0_off18 v15) a + S1x1024.size a ≤ S32768x1024.size a := fun i v15 k0_hw2 k0_h1 => k0_hw2.2 k0_h1

def k0_off19 (v26 : BitVec 32) : Fin 2 → Nat :=
  let c4096_i32 : BitVec 32 := 4096#32
  let c1_i32_14 : BitVec 32 := 1#32
  let v27 : BitVec 32 := Scalar.subi v26 c1_i32_14
  let c2047_i32_15 : BitVec 32 := 2047#32
  let v28 : BitVec 32 := Scalar.andi v27 c2047_i32_15
  let v29 : BitVec 32 := Scalar.addi c4096_i32 v28
  let c0_i32_109 : BitVec 32 := 0#32
  ![v29.toNat, 0]

def k0_chk3 (i : grid0.Coords) (v26 : BitVec 32) : Prop :=
  (∀ (k0_h1 : k0_cond1 i = 1#1), ∀ a, (k0_off3 v26) a + S1x1024.size a ≤ S32768x1024.size a) ∧
  (∀ (k0_h1 : k0_cond1 i = 1#1), ∀ a, (k0_off19 v26) a + S1x1024.size a ≤ S32768x1024.size a)
instance k0_chk3.dec : ∀ (i : grid0.Coords) (v26 : BitVec 32), Decidable (k0_chk3 i v26) := fun i v26 => decidable_of_iff' _ (Iff.of_eq (k0_chk3.eq_1 i v26))
theorem k0_off3_inb : ∀ (i : grid0.Coords) (v26 : BitVec 32) (k0_hw3 : k0_chk3 i v26), ∀ (k0_h1 : k0_cond1 i = 1#1), ∀ a, (k0_off3 v26) a + S1x1024.size a ≤ S32768x1024.size a := fun i v26 k0_hw3 k0_h1 => k0_hw3.1 k0_h1
theorem k0_off19_inb : ∀ (i : grid0.Coords) (v26 : BitVec 32) (k0_hw3 : k0_chk3 i v26), ∀ (k0_h1 : k0_cond1 i = 1#1), ∀ a, (k0_off19 v26) a + S1x1024.size a ≤ S32768x1024.size a := fun i v26 k0_hw3 k0_h1 => k0_hw3.2 k0_h1

def k0_off20 (v37 : BitVec 32) : Fin 2 → Nat :=
  let c6144_i32 : BitVec 32 := 6144#32
  let c1_i32_20 : BitVec 32 := 1#32
  let v38 : BitVec 32 := Scalar.subi v37 c1_i32_20
  let c2047_i32_21 : BitVec 32 := 2047#32
  let v39 : BitVec 32 := Scalar.andi v38 c2047_i32_21
  let v40 : BitVec 32 := Scalar.addi c6144_i32 v39
  let c0_i32_113 : BitVec 32 := 0#32
  ![v40.toNat, 0]

def k0_chk4 (i : grid0.Coords) (v37 : BitVec 32) : Prop :=
  (∀ (k0_h1 : k0_cond1 i = 1#1), ∀ a, (k0_off4 v37) a + S1x1024.size a ≤ S32768x1024.size a) ∧
  (∀ (k0_h1 : k0_cond1 i = 1#1), ∀ a, (k0_off20 v37) a + S1x1024.size a ≤ S32768x1024.size a)
instance k0_chk4.dec : ∀ (i : grid0.Coords) (v37 : BitVec 32), Decidable (k0_chk4 i v37) := fun i v37 => decidable_of_iff' _ (Iff.of_eq (k0_chk4.eq_1 i v37))
theorem k0_off4_inb : ∀ (i : grid0.Coords) (v37 : BitVec 32) (k0_hw4 : k0_chk4 i v37), ∀ (k0_h1 : k0_cond1 i = 1#1), ∀ a, (k0_off4 v37) a + S1x1024.size a ≤ S32768x1024.size a := fun i v37 k0_hw4 k0_h1 => k0_hw4.1 k0_h1
theorem k0_off20_inb : ∀ (i : grid0.Coords) (v37 : BitVec 32) (k0_hw4 : k0_chk4 i v37), ∀ (k0_h1 : k0_cond1 i = 1#1), ∀ a, (k0_off20 v37) a + S1x1024.size a ≤ S32768x1024.size a := fun i v37 k0_hw4 k0_h1 => k0_hw4.2 k0_h1

def k0_off21 (v48 : BitVec 32) : Fin 2 → Nat :=
  let c8192_i32 : BitVec 32 := 8192#32
  let c1_i32_26 : BitVec 32 := 1#32
  let v49 : BitVec 32 := Scalar.subi v48 c1_i32_26
  let c2047_i32_27 : BitVec 32 := 2047#32
  let v50 : BitVec 32 := Scalar.andi v49 c2047_i32_27
  let v51 : BitVec 32 := Scalar.addi c8192_i32 v50
  let c0_i32_117 : BitVec 32 := 0#32
  ![v51.toNat, 0]

def k0_chk5 (i : grid0.Coords) (v48 : BitVec 32) : Prop :=
  (∀ (k0_h1 : k0_cond1 i = 1#1), ∀ a, (k0_off5 v48) a + S1x1024.size a ≤ S32768x1024.size a) ∧
  (∀ (k0_h1 : k0_cond1 i = 1#1), ∀ a, (k0_off21 v48) a + S1x1024.size a ≤ S32768x1024.size a)
instance k0_chk5.dec : ∀ (i : grid0.Coords) (v48 : BitVec 32), Decidable (k0_chk5 i v48) := fun i v48 => decidable_of_iff' _ (Iff.of_eq (k0_chk5.eq_1 i v48))
theorem k0_off5_inb : ∀ (i : grid0.Coords) (v48 : BitVec 32) (k0_hw5 : k0_chk5 i v48), ∀ (k0_h1 : k0_cond1 i = 1#1), ∀ a, (k0_off5 v48) a + S1x1024.size a ≤ S32768x1024.size a := fun i v48 k0_hw5 k0_h1 => k0_hw5.1 k0_h1
theorem k0_off21_inb : ∀ (i : grid0.Coords) (v48 : BitVec 32) (k0_hw5 : k0_chk5 i v48), ∀ (k0_h1 : k0_cond1 i = 1#1), ∀ a, (k0_off21 v48) a + S1x1024.size a ≤ S32768x1024.size a := fun i v48 k0_hw5 k0_h1 => k0_hw5.2 k0_h1

def k0_off22 (v59 : BitVec 32) : Fin 2 → Nat :=
  let c10240_i32 : BitVec 32 := 10240#32
  let c1_i32_32 : BitVec 32 := 1#32
  let v60 : BitVec 32 := Scalar.subi v59 c1_i32_32
  let c2047_i32_33 : BitVec 32 := 2047#32
  let v61 : BitVec 32 := Scalar.andi v60 c2047_i32_33
  let v62 : BitVec 32 := Scalar.addi c10240_i32 v61
  let c0_i32_121 : BitVec 32 := 0#32
  ![v62.toNat, 0]

def k0_chk6 (i : grid0.Coords) (v59 : BitVec 32) : Prop :=
  (∀ (k0_h1 : k0_cond1 i = 1#1), ∀ a, (k0_off6 v59) a + S1x1024.size a ≤ S32768x1024.size a) ∧
  (∀ (k0_h1 : k0_cond1 i = 1#1), ∀ a, (k0_off22 v59) a + S1x1024.size a ≤ S32768x1024.size a)
instance k0_chk6.dec : ∀ (i : grid0.Coords) (v59 : BitVec 32), Decidable (k0_chk6 i v59) := fun i v59 => decidable_of_iff' _ (Iff.of_eq (k0_chk6.eq_1 i v59))
theorem k0_off6_inb : ∀ (i : grid0.Coords) (v59 : BitVec 32) (k0_hw6 : k0_chk6 i v59), ∀ (k0_h1 : k0_cond1 i = 1#1), ∀ a, (k0_off6 v59) a + S1x1024.size a ≤ S32768x1024.size a := fun i v59 k0_hw6 k0_h1 => k0_hw6.1 k0_h1
theorem k0_off22_inb : ∀ (i : grid0.Coords) (v59 : BitVec 32) (k0_hw6 : k0_chk6 i v59), ∀ (k0_h1 : k0_cond1 i = 1#1), ∀ a, (k0_off22 v59) a + S1x1024.size a ≤ S32768x1024.size a := fun i v59 k0_hw6 k0_h1 => k0_hw6.2 k0_h1

def k0_off23 (v70 : BitVec 32) : Fin 2 → Nat :=
  let c12288_i32 : BitVec 32 := 12288#32
  let c1_i32_38 : BitVec 32 := 1#32
  let v71 : BitVec 32 := Scalar.subi v70 c1_i32_38
  let c2047_i32_39 : BitVec 32 := 2047#32
  let v72 : BitVec 32 := Scalar.andi v71 c2047_i32_39
  let v73 : BitVec 32 := Scalar.addi c12288_i32 v72
  let c0_i32_125 : BitVec 32 := 0#32
  ![v73.toNat, 0]

def k0_chk7 (i : grid0.Coords) (v70 : BitVec 32) : Prop :=
  (∀ (k0_h1 : k0_cond1 i = 1#1), ∀ a, (k0_off7 v70) a + S1x1024.size a ≤ S32768x1024.size a) ∧
  (∀ (k0_h1 : k0_cond1 i = 1#1), ∀ a, (k0_off23 v70) a + S1x1024.size a ≤ S32768x1024.size a)
instance k0_chk7.dec : ∀ (i : grid0.Coords) (v70 : BitVec 32), Decidable (k0_chk7 i v70) := fun i v70 => decidable_of_iff' _ (Iff.of_eq (k0_chk7.eq_1 i v70))
theorem k0_off7_inb : ∀ (i : grid0.Coords) (v70 : BitVec 32) (k0_hw7 : k0_chk7 i v70), ∀ (k0_h1 : k0_cond1 i = 1#1), ∀ a, (k0_off7 v70) a + S1x1024.size a ≤ S32768x1024.size a := fun i v70 k0_hw7 k0_h1 => k0_hw7.1 k0_h1
theorem k0_off23_inb : ∀ (i : grid0.Coords) (v70 : BitVec 32) (k0_hw7 : k0_chk7 i v70), ∀ (k0_h1 : k0_cond1 i = 1#1), ∀ a, (k0_off23 v70) a + S1x1024.size a ≤ S32768x1024.size a := fun i v70 k0_hw7 k0_h1 => k0_hw7.2 k0_h1

def k0_off24 (v81 : BitVec 32) : Fin 2 → Nat :=
  let c14336_i32 : BitVec 32 := 14336#32
  let c1_i32_44 : BitVec 32 := 1#32
  let v82 : BitVec 32 := Scalar.subi v81 c1_i32_44
  let c2047_i32_45 : BitVec 32 := 2047#32
  let v83 : BitVec 32 := Scalar.andi v82 c2047_i32_45
  let v84 : BitVec 32 := Scalar.addi c14336_i32 v83
  let c0_i32_129 : BitVec 32 := 0#32
  ![v84.toNat, 0]

def k0_chk8 (i : grid0.Coords) (v81 : BitVec 32) : Prop :=
  (∀ (k0_h1 : k0_cond1 i = 1#1), ∀ a, (k0_off8 v81) a + S1x1024.size a ≤ S32768x1024.size a) ∧
  (∀ (k0_h1 : k0_cond1 i = 1#1), ∀ a, (k0_off24 v81) a + S1x1024.size a ≤ S32768x1024.size a)
instance k0_chk8.dec : ∀ (i : grid0.Coords) (v81 : BitVec 32), Decidable (k0_chk8 i v81) := fun i v81 => decidable_of_iff' _ (Iff.of_eq (k0_chk8.eq_1 i v81))
theorem k0_off8_inb : ∀ (i : grid0.Coords) (v81 : BitVec 32) (k0_hw8 : k0_chk8 i v81), ∀ (k0_h1 : k0_cond1 i = 1#1), ∀ a, (k0_off8 v81) a + S1x1024.size a ≤ S32768x1024.size a := fun i v81 k0_hw8 k0_h1 => k0_hw8.1 k0_h1
theorem k0_off24_inb : ∀ (i : grid0.Coords) (v81 : BitVec 32) (k0_hw8 : k0_chk8 i v81), ∀ (k0_h1 : k0_cond1 i = 1#1), ∀ a, (k0_off24 v81) a + S1x1024.size a ≤ S32768x1024.size a := fun i v81 k0_hw8 k0_h1 => k0_hw8.2 k0_h1

def k0_off25 (v92 : BitVec 32) : Fin 2 → Nat :=
  let c16384_i32 : BitVec 32 := 16384#32
  let c1_i32_50 : BitVec 32 := 1#32
  let v93 : BitVec 32 := Scalar.subi v92 c1_i32_50
  let c2047_i32_51 : BitVec 32 := 2047#32
  let v94 : BitVec 32 := Scalar.andi v93 c2047_i32_51
  let v95 : BitVec 32 := Scalar.addi c16384_i32 v94
  let c0_i32_133 : BitVec 32 := 0#32
  ![v95.toNat, 0]

def k0_chk9 (i : grid0.Coords) (v92 : BitVec 32) : Prop :=
  (∀ (k0_h1 : k0_cond1 i = 1#1), ∀ a, (k0_off9 v92) a + S1x1024.size a ≤ S32768x1024.size a) ∧
  (∀ (k0_h1 : k0_cond1 i = 1#1), ∀ a, (k0_off25 v92) a + S1x1024.size a ≤ S32768x1024.size a)
instance k0_chk9.dec : ∀ (i : grid0.Coords) (v92 : BitVec 32), Decidable (k0_chk9 i v92) := fun i v92 => decidable_of_iff' _ (Iff.of_eq (k0_chk9.eq_1 i v92))
theorem k0_off9_inb : ∀ (i : grid0.Coords) (v92 : BitVec 32) (k0_hw9 : k0_chk9 i v92), ∀ (k0_h1 : k0_cond1 i = 1#1), ∀ a, (k0_off9 v92) a + S1x1024.size a ≤ S32768x1024.size a := fun i v92 k0_hw9 k0_h1 => k0_hw9.1 k0_h1
theorem k0_off25_inb : ∀ (i : grid0.Coords) (v92 : BitVec 32) (k0_hw9 : k0_chk9 i v92), ∀ (k0_h1 : k0_cond1 i = 1#1), ∀ a, (k0_off25 v92) a + S1x1024.size a ≤ S32768x1024.size a := fun i v92 k0_hw9 k0_h1 => k0_hw9.2 k0_h1

def k0_off26 (v103 : BitVec 32) : Fin 2 → Nat :=
  let c18432_i32 : BitVec 32 := 18432#32
  let c1_i32_56 : BitVec 32 := 1#32
  let v104 : BitVec 32 := Scalar.subi v103 c1_i32_56
  let c2047_i32_57 : BitVec 32 := 2047#32
  let v105 : BitVec 32 := Scalar.andi v104 c2047_i32_57
  let v106 : BitVec 32 := Scalar.addi c18432_i32 v105
  let c0_i32_137 : BitVec 32 := 0#32
  ![v106.toNat, 0]

def k0_chk10 (i : grid0.Coords) (v103 : BitVec 32) : Prop :=
  (∀ (k0_h1 : k0_cond1 i = 1#1), ∀ a, (k0_off10 v103) a + S1x1024.size a ≤ S32768x1024.size a) ∧
  (∀ (k0_h1 : k0_cond1 i = 1#1), ∀ a, (k0_off26 v103) a + S1x1024.size a ≤ S32768x1024.size a)
instance k0_chk10.dec : ∀ (i : grid0.Coords) (v103 : BitVec 32), Decidable (k0_chk10 i v103) := fun i v103 => decidable_of_iff' _ (Iff.of_eq (k0_chk10.eq_1 i v103))
theorem k0_off10_inb : ∀ (i : grid0.Coords) (v103 : BitVec 32) (k0_hw10 : k0_chk10 i v103), ∀ (k0_h1 : k0_cond1 i = 1#1), ∀ a, (k0_off10 v103) a + S1x1024.size a ≤ S32768x1024.size a := fun i v103 k0_hw10 k0_h1 => k0_hw10.1 k0_h1
theorem k0_off26_inb : ∀ (i : grid0.Coords) (v103 : BitVec 32) (k0_hw10 : k0_chk10 i v103), ∀ (k0_h1 : k0_cond1 i = 1#1), ∀ a, (k0_off26 v103) a + S1x1024.size a ≤ S32768x1024.size a := fun i v103 k0_hw10 k0_h1 => k0_hw10.2 k0_h1

def k0_off27 (v114 : BitVec 32) : Fin 2 → Nat :=
  let c20480_i32 : BitVec 32 := 20480#32
  let c1_i32_62 : BitVec 32 := 1#32
  let v115 : BitVec 32 := Scalar.subi v114 c1_i32_62
  let c2047_i32_63 : BitVec 32 := 2047#32
  let v116 : BitVec 32 := Scalar.andi v115 c2047_i32_63
  let v117 : BitVec 32 := Scalar.addi c20480_i32 v116
  let c0_i32_141 : BitVec 32 := 0#32
  ![v117.toNat, 0]

def k0_chk11 (i : grid0.Coords) (v114 : BitVec 32) : Prop :=
  (∀ (k0_h1 : k0_cond1 i = 1#1), ∀ a, (k0_off11 v114) a + S1x1024.size a ≤ S32768x1024.size a) ∧
  (∀ (k0_h1 : k0_cond1 i = 1#1), ∀ a, (k0_off27 v114) a + S1x1024.size a ≤ S32768x1024.size a)
instance k0_chk11.dec : ∀ (i : grid0.Coords) (v114 : BitVec 32), Decidable (k0_chk11 i v114) := fun i v114 => decidable_of_iff' _ (Iff.of_eq (k0_chk11.eq_1 i v114))
theorem k0_off11_inb : ∀ (i : grid0.Coords) (v114 : BitVec 32) (k0_hw11 : k0_chk11 i v114), ∀ (k0_h1 : k0_cond1 i = 1#1), ∀ a, (k0_off11 v114) a + S1x1024.size a ≤ S32768x1024.size a := fun i v114 k0_hw11 k0_h1 => k0_hw11.1 k0_h1
theorem k0_off27_inb : ∀ (i : grid0.Coords) (v114 : BitVec 32) (k0_hw11 : k0_chk11 i v114), ∀ (k0_h1 : k0_cond1 i = 1#1), ∀ a, (k0_off27 v114) a + S1x1024.size a ≤ S32768x1024.size a := fun i v114 k0_hw11 k0_h1 => k0_hw11.2 k0_h1

def k0_off28 (v125 : BitVec 32) : Fin 2 → Nat :=
  let c22528_i32 : BitVec 32 := 22528#32
  let c1_i32_68 : BitVec 32 := 1#32
  let v126 : BitVec 32 := Scalar.subi v125 c1_i32_68
  let c2047_i32_69 : BitVec 32 := 2047#32
  let v127 : BitVec 32 := Scalar.andi v126 c2047_i32_69
  let v128 : BitVec 32 := Scalar.addi c22528_i32 v127
  let c0_i32_145 : BitVec 32 := 0#32
  ![v128.toNat, 0]

def k0_chk12 (i : grid0.Coords) (v125 : BitVec 32) : Prop :=
  (∀ (k0_h1 : k0_cond1 i = 1#1), ∀ a, (k0_off12 v125) a + S1x1024.size a ≤ S32768x1024.size a) ∧
  (∀ (k0_h1 : k0_cond1 i = 1#1), ∀ a, (k0_off28 v125) a + S1x1024.size a ≤ S32768x1024.size a)
instance k0_chk12.dec : ∀ (i : grid0.Coords) (v125 : BitVec 32), Decidable (k0_chk12 i v125) := fun i v125 => decidable_of_iff' _ (Iff.of_eq (k0_chk12.eq_1 i v125))
theorem k0_off12_inb : ∀ (i : grid0.Coords) (v125 : BitVec 32) (k0_hw12 : k0_chk12 i v125), ∀ (k0_h1 : k0_cond1 i = 1#1), ∀ a, (k0_off12 v125) a + S1x1024.size a ≤ S32768x1024.size a := fun i v125 k0_hw12 k0_h1 => k0_hw12.1 k0_h1
theorem k0_off28_inb : ∀ (i : grid0.Coords) (v125 : BitVec 32) (k0_hw12 : k0_chk12 i v125), ∀ (k0_h1 : k0_cond1 i = 1#1), ∀ a, (k0_off28 v125) a + S1x1024.size a ≤ S32768x1024.size a := fun i v125 k0_hw12 k0_h1 => k0_hw12.2 k0_h1

def k0_off29 (v136 : BitVec 32) : Fin 2 → Nat :=
  let c24576_i32 : BitVec 32 := 24576#32
  let c1_i32_74 : BitVec 32 := 1#32
  let v137 : BitVec 32 := Scalar.subi v136 c1_i32_74
  let c2047_i32_75 : BitVec 32 := 2047#32
  let v138 : BitVec 32 := Scalar.andi v137 c2047_i32_75
  let v139 : BitVec 32 := Scalar.addi c24576_i32 v138
  let c0_i32_149 : BitVec 32 := 0#32
  ![v139.toNat, 0]

def k0_chk13 (i : grid0.Coords) (v136 : BitVec 32) : Prop :=
  (∀ (k0_h1 : k0_cond1 i = 1#1), ∀ a, (k0_off13 v136) a + S1x1024.size a ≤ S32768x1024.size a) ∧
  (∀ (k0_h1 : k0_cond1 i = 1#1), ∀ a, (k0_off29 v136) a + S1x1024.size a ≤ S32768x1024.size a)
instance k0_chk13.dec : ∀ (i : grid0.Coords) (v136 : BitVec 32), Decidable (k0_chk13 i v136) := fun i v136 => decidable_of_iff' _ (Iff.of_eq (k0_chk13.eq_1 i v136))
theorem k0_off13_inb : ∀ (i : grid0.Coords) (v136 : BitVec 32) (k0_hw13 : k0_chk13 i v136), ∀ (k0_h1 : k0_cond1 i = 1#1), ∀ a, (k0_off13 v136) a + S1x1024.size a ≤ S32768x1024.size a := fun i v136 k0_hw13 k0_h1 => k0_hw13.1 k0_h1
theorem k0_off29_inb : ∀ (i : grid0.Coords) (v136 : BitVec 32) (k0_hw13 : k0_chk13 i v136), ∀ (k0_h1 : k0_cond1 i = 1#1), ∀ a, (k0_off29 v136) a + S1x1024.size a ≤ S32768x1024.size a := fun i v136 k0_hw13 k0_h1 => k0_hw13.2 k0_h1

def k0_off30 (v147 : BitVec 32) : Fin 2 → Nat :=
  let c26624_i32 : BitVec 32 := 26624#32
  let c1_i32_80 : BitVec 32 := 1#32
  let v148 : BitVec 32 := Scalar.subi v147 c1_i32_80
  let c2047_i32_81 : BitVec 32 := 2047#32
  let v149 : BitVec 32 := Scalar.andi v148 c2047_i32_81
  let v150 : BitVec 32 := Scalar.addi c26624_i32 v149
  let c0_i32_153 : BitVec 32 := 0#32
  ![v150.toNat, 0]

def k0_chk14 (i : grid0.Coords) (v147 : BitVec 32) : Prop :=
  (∀ (k0_h1 : k0_cond1 i = 1#1), ∀ a, (k0_off14 v147) a + S1x1024.size a ≤ S32768x1024.size a) ∧
  (∀ (k0_h1 : k0_cond1 i = 1#1), ∀ a, (k0_off30 v147) a + S1x1024.size a ≤ S32768x1024.size a)
instance k0_chk14.dec : ∀ (i : grid0.Coords) (v147 : BitVec 32), Decidable (k0_chk14 i v147) := fun i v147 => decidable_of_iff' _ (Iff.of_eq (k0_chk14.eq_1 i v147))
theorem k0_off14_inb : ∀ (i : grid0.Coords) (v147 : BitVec 32) (k0_hw14 : k0_chk14 i v147), ∀ (k0_h1 : k0_cond1 i = 1#1), ∀ a, (k0_off14 v147) a + S1x1024.size a ≤ S32768x1024.size a := fun i v147 k0_hw14 k0_h1 => k0_hw14.1 k0_h1
theorem k0_off30_inb : ∀ (i : grid0.Coords) (v147 : BitVec 32) (k0_hw14 : k0_chk14 i v147), ∀ (k0_h1 : k0_cond1 i = 1#1), ∀ a, (k0_off30 v147) a + S1x1024.size a ≤ S32768x1024.size a := fun i v147 k0_hw14 k0_h1 => k0_hw14.2 k0_h1

def k0_off31 (v158 : BitVec 32) : Fin 2 → Nat :=
  let c28672_i32 : BitVec 32 := 28672#32
  let c1_i32_86 : BitVec 32 := 1#32
  let v159 : BitVec 32 := Scalar.subi v158 c1_i32_86
  let c2047_i32_87 : BitVec 32 := 2047#32
  let v160 : BitVec 32 := Scalar.andi v159 c2047_i32_87
  let v161 : BitVec 32 := Scalar.addi c28672_i32 v160
  let c0_i32_157 : BitVec 32 := 0#32
  ![v161.toNat, 0]

def k0_chk15 (i : grid0.Coords) (v158 : BitVec 32) : Prop :=
  (∀ (k0_h1 : k0_cond1 i = 1#1), ∀ a, (k0_off15 v158) a + S1x1024.size a ≤ S32768x1024.size a) ∧
  (∀ (k0_h1 : k0_cond1 i = 1#1), ∀ a, (k0_off31 v158) a + S1x1024.size a ≤ S32768x1024.size a)
instance k0_chk15.dec : ∀ (i : grid0.Coords) (v158 : BitVec 32), Decidable (k0_chk15 i v158) := fun i v158 => decidable_of_iff' _ (Iff.of_eq (k0_chk15.eq_1 i v158))
theorem k0_off15_inb : ∀ (i : grid0.Coords) (v158 : BitVec 32) (k0_hw15 : k0_chk15 i v158), ∀ (k0_h1 : k0_cond1 i = 1#1), ∀ a, (k0_off15 v158) a + S1x1024.size a ≤ S32768x1024.size a := fun i v158 k0_hw15 k0_h1 => k0_hw15.1 k0_h1
theorem k0_off31_inb : ∀ (i : grid0.Coords) (v158 : BitVec 32) (k0_hw15 : k0_chk15 i v158), ∀ (k0_h1 : k0_cond1 i = 1#1), ∀ a, (k0_off31 v158) a + S1x1024.size a ≤ S32768x1024.size a := fun i v158 k0_hw15 k0_h1 => k0_hw15.2 k0_h1

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))

class Facts₀ : Prop where
  shapeCasts_S16x2048x1024_S32768x1024 : S16x2048x1024.ShapeCasts S32768x1024
  inb_S16_S1_0 : ∀ a, (![0] : Fin 1 → Nat) a + S1.size a ≤ S16.size a
  numel1_S1 : S1.numel = 1
  squeezes_S1_S_ : S1.Squeezes S_
  inb_S16x1024_S1x1024_0_0 : ∀ a, (![0, 0] : Fin 2 → Nat) a + S1x1024.size a ≤ S16x1024.size a
  squeezes_S1x1024_S1024 : S1x1024.Squeezes S1024
  inb_S16_S1_1 : ∀ a, (![1] : Fin 1 → Nat) a + S1.size a ≤ S16.size a
  inb_S16x1024_S1x1024_1_0 : ∀ a, (![1, 0] : Fin 2 → Nat) a + S1x1024.size a ≤ S16x1024.size a
  inb_S16_S1_2 : ∀ a, (![2] : Fin 1 → Nat) a + S1.size a ≤ S16.size a
  inb_S16x1024_S1x1024_2_0 : ∀ a, (![2, 0] : Fin 2 → Nat) a + S1x1024.size a ≤ S16x1024.size a
  inb_S16_S1_3 : ∀ a, (![3] : Fin 1 → Nat) a + S1.size a ≤ S16.size a
  inb_S16x1024_S1x1024_3_0 : ∀ a, (![3, 0] : Fin 2 → Nat) a + S1x1024.size a ≤ S16x1024.size a
  inb_S16_S1_4 : ∀ a, (![4] : Fin 1 → Nat) a + S1.size a ≤ S16.size a
  inb_S16x1024_S1x1024_4_0 : ∀ a, (![4, 0] : Fin 2 → Nat) a + S1x1024.size a ≤ S16x1024.size a
  inb_S16_S1_5 : ∀ a, (![5] : Fin 1 → Nat) a + S1.size a ≤ S16.size a
  inb_S16x1024_S1x1024_5_0 : ∀ a, (![5, 0] : Fin 2 → Nat) a + S1x1024.size a ≤ S16x1024.size a
  inb_S16_S1_6 : ∀ a, (![6] : Fin 1 → Nat) a + S1.size a ≤ S16.size a
  inb_S16x1024_S1x1024_6_0 : ∀ a, (![6, 0] : Fin 2 → Nat) a + S1x1024.size a ≤ S16x1024.size a
  inb_S16_S1_7 : ∀ a, (![7] : Fin 1 → Nat) a + S1.size a ≤ S16.size a
  inb_S16x1024_S1x1024_7_0 : ∀ a, (![7, 0] : Fin 2 → Nat) a + S1x1024.size a ≤ S16x1024.size a
  inb_S16_S1_8 : ∀ a, (![8] : Fin 1 → Nat) a + S1.size a ≤ S16.size a
  inb_S16x1024_S1x1024_8_0 : ∀ a, (![8, 0] : Fin 2 → Nat) a + S1x1024.size a ≤ S16x1024.size a
  inb_S16_S1_9 : ∀ a, (![9] : Fin 1 → Nat) a + S1.size a ≤ S16.size a
  inb_S16x1024_S1x1024_9_0 : ∀ a, (![9, 0] : Fin 2 → Nat) a + S1x1024.size a ≤ S16x1024.size a
  inb_S16_S1_10 : ∀ a, (![10] : Fin 1 → Nat) a + S1.size a ≤ S16.size a
  inb_S16x1024_S1x1024_10_0 : ∀ a, (![10, 0] : Fin 2 → Nat) a + S1x1024.size a ≤ S16x1024.size a
  inb_S16_S1_11 : ∀ a, (![11] : Fin 1 → Nat) a + S1.size a ≤ S16.size a
  inb_S16x1024_S1x1024_11_0 : ∀ a, (![11, 0] : Fin 2 → Nat) a + S1x1024.size a ≤ S16x1024.size a
  inb_S16_S1_12 : ∀ a, (![12] : Fin 1 → Nat) a + S1.size a ≤ S16.size a
  inb_S16x1024_S1x1024_12_0 : ∀ a, (![12, 0] : Fin 2 → Nat) a + S1x1024.size a ≤ S16x1024.size a
  inb_S16_S1_13 : ∀ a, (![13] : Fin 1 → Nat) a + S1.size a ≤ S16.size a
  inb_S16x1024_S1x1024_13_0 : ∀ a, (![13, 0] : Fin 2 → Nat) a + S1x1024.size a ≤ S16x1024.size a
  inb_S16_S1_14 : ∀ a, (![14] : Fin 1 → Nat) a + S1.size a ≤ S16.size a
  inb_S16x1024_S1x1024_14_0 : ∀ a, (![14, 0] : Fin 2 → Nat) a + S1x1024.size a ≤ S16x1024.size a
  inb_S16_S1_15 : ∀ a, (![15] : Fin 1 → Nat) a + S1.size a ≤ S16.size a
  inb_S16x1024_S1x1024_15_0 : ∀ a, (![15, 0] : Fin 2 → Nat) a + S1x1024.size a ≤ S16x1024.size a
  hcc0_scratch1 : 0 + S16.numel ≤ 17
  hcc0_scoped0 : 16 + S_.numel ≤ 17
  hscKind : ∀ q, scKind q ≠ .tc
  hscCore : ∀ q, scNCore q ≤ τ.nSC
  hscSub : ∀ q, scNSub q ≤ τ.nSub
  hcore0 : grid0.bound 0 ≤ τ.nSC

variable [Facts₀]

abbrev cc0_scratch1 : DmaSems sig S16 := SemArray.consecutive 0 S16 hcc0_scratch1
abbrev cc0_scoped0 : DmaSems sig S_ := SemArray.consecutive 16 S_ hcc0_scoped0

class Facts : Prop extends Facts₀ where

variable [Facts]
-- ==== ReferenceIdeal.lean ====
abbrev S16x2048x1024 : Shape := ⟨3, ![16, 2048, 1024]⟩
abbrev S16 : Shape := ⟨1, ![16]⟩
abbrev S_ : Shape := ⟨0, ![]⟩
abbrev S16x1 : Shape := ⟨2, ![16, 1]⟩
abbrev S16x2 : Shape := ⟨2, ![16, 2]⟩
abbrev S16x1024 : Shape := ⟨2, ![16, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16, .i32⟩
  | .hbm, ⟨2, _⟩ => ⟨S_, .i32⟩
  | .hbm, ⟨3, _⟩ => ⟨S16, .i32⟩
  | .hbm, ⟨4, _⟩ => ⟨S16, .i32⟩
  | .hbm, ⟨5, _⟩ => ⟨S16, .i32⟩
  | .hbm, ⟨6, _⟩ => ⟨S_, .i32⟩
  | .hbm, ⟨7, _⟩ => ⟨S16, .i32⟩
  | .hbm, ⟨8, _⟩ => ⟨S16, .i1⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S16, .i32⟩
  | .hbm, ⟨13, _⟩ => ⟨S_, .i32⟩
  | .hbm, ⟨14, _⟩ => ⟨S16, .i32⟩
  | .hbm, ⟨15, _⟩ => ⟨S16, .i1⟩
  | .hbm, ⟨16, _⟩ => ⟨S_, .i32⟩
  | .hbm, ⟨17, _⟩ => ⟨S16, .i32⟩
  | .hbm, ⟨18, _⟩ => ⟨S16, .i32⟩
  | .hbm, ⟨19, _⟩ => ⟨S16, .i32⟩
  | .hbm, ⟨20, _⟩ => ⟨S16x1, .i32⟩
  | .hbm, ⟨21, _⟩ => ⟨S16x1, .i32⟩
  | .hbm, ⟨22, _⟩ => ⟨S16x2, .i32⟩
  | .hbm, ⟨23, _⟩ => ⟨S16x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  concatenates_S16x1_S16x1_S16x2_d1 : Shape.Concatenates [S16x1, S16x1] S16x2 1
  gather_S16x2048x1024_S16x2_S16x1024_1_01_n_n_01_1_111024_wf : GatherDims.WF S16x2048x1024 S16x2 S16x1024 [1] [0, 1] [] [0, 1] [] 1 ![1, 1, 1024]

variable [Facts₀]

def gather_S16x2048x1024_S16x2_S16x1024_1_01_n_n_01_1_111024 : GatherDims S16x2048x1024 S16x2 S16x1024 where
  offsetDims := [1]
  collapsedSliceDims := [0, 1]
  operandBatchingDims := []
  startIndicesBatchingDims := []
  startIndexMap := [0, 1]
  indexVectorDim := 1
  sliceSizes := ![1, 1, 1024]
  wf := gather_S16x2048x1024_S16x2_S16x1024_1_01_n_n_01_1_111024_wf

class Facts : Prop extends Facts₀ where

variable [Facts]
-- ==== Proof.Spec.lean ====
/-
  The function both programs compute. The input is a batch of 16 sequences of 2048 rows of 1024 numbers and one
  length word per sequence. The result keeps, for each sequence `b`, one row: the row numbered `(len b - 1)` taken
  modulo 2048 (as a 32-bit word: subtract one, keep the low eleven bits). For a length between 1 and 2047 that is the
  last valid row `len b - 1`; for length 0 the subtraction wraps to all ones and the mask gives row 2047, the last row
  of the sequence, which is also what a negative index `-1` means to an indexing that counts from the end.
-/
import Idealize.ShloMosaic.PureOps
import Idealize.ShloMosaic.Lib.ValueIdx

namespace Cert.LastStep

open Idealize.ShloMosaic Idealize.ShloMosaic.ValueIdx

/-- A word masked to its low eleven bits is below 2048. -/
theorem and_2047_lt (w : BitVec 32) : (w &&& 2047#32).toNat < 2048 := by
  rw [BitVec.toNat_and]
  exact Nat.lt_succ_of_le (Nat.and_le_right (n := w.toNat) (m := 2047))

/-- The row a length word selects: `(w - 1) mod 2048`. -/
def rowOf (w : BitVec 32) : Fin 2048 := ⟨((w - 1#32) &&& 2047#32).toNat, and_2047_lt _⟩

theorem rowOf_val (w : BitVec 32) : (rowOf w).val = ((w - 1#32) &&& 2047#32).toNat := rfl

/-- The result: entry `(b, j)` is entry `j` of row `rowOf (len b)` of sequence `b`. -/
def lastRows {α : Type} (x : (⟨3, ![16, 2048, 1024]⟩ : Shape).Idx → α) (len : (⟨1, ![16]⟩ : Shape).Idx → BitVec 32) :
    (⟨2, ![16, 1024]⟩ : Shape).Idx → α :=
  fun i => x (ix3 (i 0) (rowOf (len (ix1 (i 0)))) (i 1))

theorem lastRows_apply {α : Type} (x : (⟨3, ![16, 2048, 1024]⟩ : Shape).Idx → α) (len : (⟨1, ![16]⟩ : Shape).Idx → BitVec 32)
    (b : Fin 16) (j : Fin 1024) : lastRows x len (ix2 b j) = x (ix3 b (rowOf (len (ix1 b))) j) := rfl

/-- For a length word between 0 and 2047 (signed), the selected row is `len - 1` when `len ≥ 1`, and 2047 when `len = 0`. -/
theorem rowOf_of_range (w : BitVec 32) (h0 : 0 ≤ w.toInt) (h1 : w.toInt ≤ 2047) :
    ((rowOf w).val : Int) = if w.toInt - 1 < 0 then w.toInt - 1 + 2048 else w.toInt - 1 := by
  have hw : w.toNat ≤ 2047 := by
    have := BitVec.toInt_eq_toNat_cond w
    split at this <;> omega
  have hi : w.toInt = w.toNat := by
    have := BitVec.toInt_eq_toNat_cond w
    split at this <;> omega
  rw [rowOf_val, hi]
  by_cases hz : w.toNat = 0
  · have : w = 0#32 := BitVec.eq_of_toNat_eq (by simpa using hz)
    subst this; decide
  · have hsub : (w - 1#32).toNat = w.toNat - 1 := by
      rw [BitVec.toNat_sub]; simp; omega
    rw [BitVec.toNat_and, hsub]
    have : (w.toNat - 1) &&& 2047 = w.toNat - 1 := by
      have : w.toNat - 1 < 2 ^ 11 := by omega
      rw [show (2047 : Nat) = 2 ^ 11 - 1 by norm_num, Nat.and_two_pow_sub_one_eq_mod]
      exact Nat.mod_eq_of_lt this
    simp only [BitVec.toNat_ofNat, Nat.reducePow, Nat.reduceMod, this]
    split <;> omega

end Cert.LastStep
-- ==== Proof.RowWord.lean ====
/-
  Facts about the row a length word selects, as the kernel computes it: the kernel adds the masked word
  `(len - 1) &&& 2047` to the sequence's base row `2048 * b` in 32-bit arithmetic. Since the masked word is below 2048 and
  the base at most 30720, the sum never wraps and stays below 32768: the row exists whatever the length word is.
  And the flat `[32768, 1024]` view of the `[16, 2048, 1024]` batch has sequence `b`'s row `r` at flat row `2048 * b + r`.
-/
import Idealize.ShloMosaic.Lib.Pipeline.Value
import proofs.«219430_g10557029613708_week1_w2_468_10_alg».proof.Proof.Spec

namespace Cert.LastStep

open Idealize.ShloMosaic Idealize.ShloMosaic.ValueIdx

/-- Base row plus masked word, as a number: no wrap-around. -/
theorem rowWord_toNat (c v : BitVec 32) (hc : c.toNat ≤ 30720) :
    (Scalar.addi c (Scalar.andi (Scalar.subi v 1#32) 2047#32)).toNat = c.toNat + (rowOf v).val := by
  show (c + ((v - 1#32) &&& 2047#32)).toNat = _
  rw [BitVec.toNat_add, rowOf_val]
  have := and_2047_lt (v - 1#32)
  exact Nat.mod_eq_of_lt (by omega)

/-- The one-row rectangle at that row lies inside the flat `[32768, 1024]` array. -/
theorem row_inb (c v : BitVec 32) (hc : c.toNat ≤ 30720) :
    ∀ a : Fin 2, (![(Scalar.addi c (Scalar.andi (Scalar.subi v 1#32) 2047#32)).toNat, 0] : Fin 2 → Nat) a
      + (⟨2, ![1, 1024]⟩ : Shape).size a ≤ (⟨2, ![32768, 1024]⟩ : Shape).size a := by
  intro a
  match a with
  | ⟨0, _⟩ =>
    show (Scalar.addi c (Scalar.andi (Scalar.subi v 1#32) 2047#32)).toNat + 1 ≤ 32768
    rw [rowWord_toNat c v hc]; have := (rowOf v).isLt; omega
  | ⟨1, _⟩ => show 0 + 1024 ≤ 1024; omega

/-- The flat view read at row `2048 * b + r`, column `j`, is the batch at `(b, r, j)`. -/
theorem flat_apply {α : Type} (x : (⟨3, ![16, 2048, 1024]⟩ : Shape).Idx → α)
    (h : (⟨3, ![16, 2048, 1024]⟩ : Shape).ShapeCasts ⟨2, ![32768, 1024]⟩) (b : Fin 16) (r : Fin 2048) (j : Fin 1024)
    (p : Fin 32768) (hp : p.val = b.val * 2048 + r.val) :
    shapeCast ⟨2, ![32768, 1024]⟩ x h (ix2 p j) = x (ix3 b r j) :=
  shapeCast_apply x h _ _ (by
    rw [Shape.rowMajor_val_three, Shape.rowMajor_val_two]
    show (b.val * 2048 + r.val) * 1024 + j.val = p.val * 1024 + j.val
    rw [hp])

end Cert.LastStep
-- ==== Proof.LibFinSep.lean ====
/-
  A separating conjunction indexed by `Fin n`, written out as its `n` conjuncts in order, for the sizes 16 and 17: a family
  of sixteen (or seventeen) resources dealt as one big conjunction is the conjunction of its members, so each member can be
  named on its own and the family put back together afterwards.
-/
import Idealize.ShloMosaic.Lib.SparseCore.Launch

namespace Cert.LibFinSep

open Idealize.ShloMosaic Idealize.SL Idealize.SL.RA Idealize.SL.BI
open scoped Idealize.SL.BI
open Idealize.SL.BI.BIBase Idealize.SL.BI.Laws Idealize.SL.ProofMode Idealize.SL.Sem

variable {M : Type} [URA M]

/-- Sixteen members. -/
theorem bigSep_fin16 (Φ : Fin 16 → sProp M) :
    bigSep (Finset.univ : Finset (Fin 16)) Φ
      = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  repeat rw [SparseCore.bigSep_insert' (by decide)]
  rw [bigSep_singleton]

/-- Seventeen members. -/
theorem bigSep_fin17 (Φ : Fin 17 → sProp M) :
    bigSep (Finset.univ : Finset (Fin 17)) Φ
      = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) := by
  rw [show (Finset.univ : Finset (Fin 17)) = {0, 1, 2, 3, 4, 5, 6, 7, 8, 9, 10, 11, 12, 13, 14, 15, 16} by decide]
  repeat rw [SparseCore.bigSep_insert' (by decide)]
  rw [bigSep_singleton]

end Cert.LibFinSep
-- ==== Proof.KBSetup.lean ====
/-
  The kernel, as printed at the word level, on the SparseCore sequencer: what the sequencer's body does to memory.

  The body first copies the sixteen length words into the sequencer's scalar memory and waits for that copy. Then, for each
  sequence `b`, it reads the word `len b`, forms the flat row number `2048 * b + ((len b - 1) &&& 2047)`, and starts a copy of
  that row of the flat `[32768, 1024]` array into row `b` of the `[16, 1024]` result, each copy completing on a semaphore of
  its own. Only after all sixteen copies are started does it wait for them, one by one. No copy's source or destination is
  touched between its start and its wait: the sources are rows of an array nobody writes, the destinations are sixteen
  different rows of the result. So when the body ends, row `b` of the result holds the selected row of sequence `b`, the flat
  array and the lengths are as they were.

  Every row number is in range whatever the length word is (the mask keeps it below 2048), so the body needs nothing of the
  precondition to run.
-/
import Idealize.ShloMosaic.Lib.SparseCore.Launch
import Idealize.ShloMosaic.Lib.StableHlo.Run
import Idealize.ShloMosaic.Lib.Pipeline.Kit
import Idealize.ShloMosaic.Lib.Tactic
import proofs.«219430_g10557029613708_week1_w2_468_10_alg».proof.Kernel
import proofs.«219430_g10557029613708_week1_w2_468_10_alg».proof.Proof.Gen.Kernel
import proofs.«219430_g10557029613708_week1_w2_468_10_alg».proof.Proof.Gen.Kernel.Skeleton
import proofs.«219430_g10557029613708_week1_w2_468_10_alg».proof.Proof.RowWord
import proofs.«219430_g10557029613708_week1_w2_468_10_alg».proof.Proof.LibFinSep

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx
open Cert.LastStep

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

-- the kernel's memrefs, spelt as the body table passes them
local notation "vW" => (Memref.whole Cert.Kernel.main_v0_scs : Memref Cert.Kernel.sig Kind.scScalar Space.hbm Cert.Kernel.S32768x1024 EltTy.f32)
local notation "lW" => (Memref.whole Cert.Kernel.main_arg1_scs : Memref Cert.Kernel.sig Kind.scScalar Space.hbm Cert.Kernel.S16 EltTy.i32)
local notation "oW" => (Memref.whole Cert.Kernel.main_v1_scs : Memref Cert.Kernel.sig Kind.scScalar Space.hbm Cert.Kernel.S16x1024 EltTy.f32)
local notation "sW" => (Memref.whole Cert.Kernel.cc0_scratch0 : Memref Cert.Kernel.sig Kind.scScalar Space.smem Cert.Kernel.S16 EltTy.i32)

/-- The batch, the lengths, the flat view and the result, as the TensorCore names them. -/
abbrev xLoc (d : Dev nD) : Loc nD τ sig := (SparseCore.T d).loc main_arg0
abbrev lLoc (d : Dev nD) : Loc nD τ sig := (SparseCore.T d).loc main_arg1
abbrev vLoc (d : Dev nD) : Loc nD τ sig := (SparseCore.T d).loc main_v0
abbrev oLoc (d : Dev nD) : Loc nD τ sig := (SparseCore.T d).loc main_v1

/-- The flat `[32768, 1024]` view of the batch: what the host's reshape leaves in its result. -/
def flatOf (d : Dev nD) : Buf (Elt F) (vLoc d) :=
  shapeCast S32768x1024 (m (xLoc d)) Facts₀.shapeCasts_S16x2048x1024_S32768x1024

/-- The result: for each sequence the row its length word selects. -/
def outOf (d : Dev nD) : Buf (Elt F) (oLoc d) := lastRows (m (xLoc d)) (m (lLoc d))

variable [FloatOps F]

abbrev vPts (d : Dev nD) : sProp 𝕄 := vLoc d ↦{fullShare} flatOf m d
abbrev lPts (d : Dev nD) : sProp 𝕄 := lLoc d ↦{fullShare} m (lLoc d)
abbrev oPts (d : Dev nD) (f : Buf (Elt F) (oLoc d)) : sProp 𝕄 := oLoc d ↦{fullShare} f

/-- What the call hands the one SparseCore of its grid: the flat view and the lengths, and the result array at whatever it
    holds; and what it takes back: the same two, and the result at the selected rows. -/
def forCore (d : Dev nD) : sProp 𝕄 := iprop(vPts m d ∗ lPts m d ∗ ∃ f, oPts d f)
def fromCore (d : Dev nD) : sProp 𝕄 := iprop(vPts m d ∗ lPts m d ∗ oPts d (outOf m d))

instance forCore_storable (d : Dev nD) : BI.Storable (upEmb : UEmb _ 𝕄) (forCore m d) := by
  unfold forCore; infer_instance
instance fromCore_storable (d : Dev nD) : BI.Storable (upEmb : UEmb _ 𝕄) (fromCore m d) := by
  unfold fromCore; infer_instance

def P : (K (F := F)).Pay (nD := nD) (Val := Elt F) (Name := ℕ) (U := UU) where
  st := fun _ d _ => forCore m d
  dn := fun _ d _ => fromCore m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.Proof.KB

end
-- ==== Proof.LibRowView.lean ====
/-
  One row of a matrix, as a window. A window of one row and C columns of an R by C matrix, starting at row r0 and
  column c0, places its own index (0, j) at the matrix's (r0, c0 + j); dropping the window's axis of extent one
  re-indexes it by j alone, in row-major order, so index j of the squeezed window sits at (r0, c0 + j) too. A
  window of one entry of a vector, starting at k, places its one index at k.
-/
import Idealize.ShloMosaic.Shape
import Idealize.ShloMosaic.Lib.ValueIdx

namespace Cert.LibRowView

open Idealize.ShloMosaic Idealize.ShloMosaic.ValueIdx

/-- Re-indexing a vector of C entries as a 1 by C matrix, in row-major order, sends j to (0, j). -/
theorem reshape_row {C : Nat} (h : (⟨1, ![C]⟩ : Shape).numel = (⟨2, ![1, C]⟩ : Shape).numel) (j : Fin C) :
    Shape.reshapeEquiv h (ix1 j) = ix2 (0 : Fin 1) j := by
  refine Shape.reshapeEquiv_eq_of_rowMajor h ?_
  rw [Shape.rowMajor_val_two, Shape.rowMajor_val_one]
  show (0 : Nat) * C + j.val = j.val
  omega

/-- The same at any index of the vector. -/
theorem reshape_row' {C : Nat} (h : (⟨1, ![C]⟩ : Shape).numel = (⟨2, ![1, C]⟩ : Shape).numel) (y : (⟨1, ![C]⟩ : Shape).Idx) :
    Shape.reshapeEquiv h y = ix2 (0 : Fin 1) (y 0) := by
  conv_lhs => rw [eq_ix1 y]
  exact reshape_row h (y 0)

/-- A window of one row and C columns starting at (off 0, off 1) places its index (0, j) at (off 0, off 1 + j). -/
theorem unit_emb_row {R C : Nat} (off : Fin 2 → Nat)
    (hin : ∀ a, off a + (⟨2, ![1, C]⟩ : Shape).size a ≤ (⟨2, ![R, C]⟩ : Shape).size a) (j : Fin C)
    (h0 : off 0 < R) (h1 : off 1 + j.val < C) :
    (Rect.unit (s := ⟨2, ![R, C]⟩) off (⟨2, ![1, C]⟩ : Shape).size hin).emb (ix2 (0 : Fin 1) j)
      = ix2 (⟨off 0, h0⟩ : Fin R) (⟨off 1 + j.val, h1⟩ : Fin C) := by
  funext a
  refine Fin.ext ?_
  rw [Rect.emb_apply]
  match a with
  | ⟨0, _⟩ => show off 0 + 1 * 0 = off 0; omega
  | ⟨1, _⟩ => show off 1 + 1 * j.val = off 1 + j.val; omega

/-- A window of one entry of a vector of N entries starting at k places its one index at k. -/
theorem unit_idx_one {N : Nat} (k : Nat) (hin : ∀ a, (![k] : Fin 1 → Nat) a + (⟨1, ![1]⟩ : Shape).size a ≤ (⟨1, ![N]⟩ : Shape).size a)
    (hk : k < N) (x : (Rect.unit (s := ⟨1, ![N]⟩) ![k] (⟨1, ![1]⟩ : Shape).size hin).toLoadRect.shape.Idx) :
    (Rect.unit (s := ⟨1, ![N]⟩) ![k] (⟨1, ![1]⟩ : Shape).size hin).toLoadRect.idx x = ix1 (⟨k, hk⟩ : Fin N) := by
  funext a
  refine Fin.ext ?_
  rw [LoadRect.idx_apply]
  match a with
  | ⟨0, _⟩ =>
    have hx : (x 0).val = 0 := by have := (x 0).isLt; exact Nat.lt_one_iff.mp this
    show k + 1 * (x 0).val = k
    rw [hx]; omega

end Cert.LibRowView
-- ==== Proof.KBRows.lean ====
/-
  Where one row of a matrix sits, for the three places the sequencer's body touches memory through a window.
  The result's window number k is row k of the [16, 1024] result, as a vector of 1024 entries: writing a vector
  through it replaces row k and nothing else. A source window at (r, c) of the flat [32768, 1024] array, squeezed
  to a vector, reads entry j at (r, c + j). The scalar memory's one-word window at k, after the sixteen length words
  were copied in whole, reads length word k.
-/
import proofs.«219430_g10557029613708_week1_w2_468_10_alg».proof.Proof.KBSetup
import proofs.«219430_g10557029613708_week1_w2_468_10_alg».proof.Proof.LibRowView

noncomputable section

namespace Cert.Proof.KB

open Cert.Kernel Cert.Kernel.Gen Idealize.ShloMosaic Idealize.ShloMosaic.ValueIdx

variable {F : FTy → Type}

/-- Window k of the result places its entry j at row k, column j. -/
theorem out_row_emb (k : Nat) (hk : ∀ a, (![k, 0] : Fin 2 → Nat) a + S1x1024.size a ≤ S16x1024.size a)
    (hr : ∀ a, (Rect.unit (s := S16x1024) ![k, 0] S1x1024.size hk).stride a = 1) (hs : S1x1024.Squeezes S1024)
    (hk' : k < 16) (j : Fin 1024) :
    (((Memref.whole main_v1_scs : Memref sig .scScalar .hbm S16x1024 .f32).slice (Rect.unit (s := S16x1024) ![k, 0] S1x1024.size hk) hr).squeeze S1024 hs).view.emb (ix1 j) = ix2 (⟨k, hk'⟩ : Fin 16) j := by
  show (Rect.unit (s := S16x1024) ![k, 0] S1x1024.size hk).emb (Shape.reshapeEquiv hs.numel_eq (ix1 j)) = _
  refine (congrArg _ (Cert.LibRowView.reshape_row (C := 1024) hs.numel_eq j)).trans ?_
  refine (Cert.LibRowView.unit_emb_row (R := 16) (C := 1024) ![k, 0] hk j hk'
      (by show 0 + j.val < 1024; have := j.isLt; omega)).trans ?_
  exact congrArg (ix2 (⟨k, hk'⟩ : Fin 16)) (Fin.ext (Nat.zero_add _))

/-- Writing a vector p through window k of the result: row k becomes p, every other row is kept. -/
theorem row_write_apply (k : Nat) (hk : ∀ a, (![k, 0] : Fin 2 → Nat) a + S1x1024.size a ≤ S16x1024.size a)
    {hr : ∀ a, (Rect.unit (s := S16x1024) ![k, 0] S1x1024.size hk).stride a = 1} {hs : S1x1024.Squeezes S1024}
    (g : S16x1024.Idx → Elt F .f32) (p : S1024.Idx → Elt F .f32) (b : Fin 16) (j : Fin 1024) :
    View.write (Elt F) (((Memref.whole main_v1_scs : Memref sig .scScalar .hbm S16x1024 .f32).slice (Rect.unit (s := S16x1024) ![k, 0] S1x1024.size hk) hr).squeeze S1024 hs).view g p Finset.univ (ix2 b j) = if b.val = k then p (ix1 j) else g (ix2 b j) := by
  have hk' : k < 16 := by have := hk 0; exact this
  by_cases hb : b.val = k
  · rw [if_pos hb]
    have e : (ix2 b j : S16x1024.Idx) = (((Memref.whole main_v1_scs : Memref sig .scScalar .hbm S16x1024 .f32).slice (Rect.unit (s := S16x1024) ![k, 0] S1x1024.size hk) hr).squeeze S1024 hs).view.emb (ix1 j) := by
      rw [out_row_emb k hk hr hs hk']
      exact congrArg (fun t => ix2 t j) (Fin.ext hb)
    rw [e, View.write_emb_of_mem _ _ (Finset.mem_univ _)]
    exact cast_eq _ _
  · rw [if_neg hb]
    refine View.write_of_not_mem _ _ _ ?_
    intro hm
    obtain ⟨y, -, hy⟩ := Finset.mem_map.mp hm
    obtain ⟨j', rfl⟩ : ∃ j' : Fin 1024, y = ix1 j' := ⟨y 0, eq_ix1 y⟩
    rw [out_row_emb k hk hr hs hk'] at hy
    exact hb (congrArg (fun i : S16x1024.Idx => (i 0).val) hy).symm

/-- A source window at (off 0, off 1) of the flat array, squeezed to a vector, places its entry j at row off 0,
    column off 1 + j. -/
theorem src_row_emb (off : Fin 2 → Nat) (hin : ∀ a, off a + S1x1024.size a ≤ S32768x1024.size a)
    (hr : ∀ a, (Rect.unit (s := S32768x1024) off S1x1024.size hin).stride a = 1) (hs : S1x1024.Squeezes S1024)
    (j : Fin 1024) (h0 : off 0 < 32768) (h1 : off 1 + j.val < 1024) :
    (((Memref.whole main_v0_scs : Memref sig .scScalar .hbm S32768x1024 .f32).slice (Rect.unit (s := S32768x1024) off S1x1024.size hin) hr).squeeze S1024 hs).view.emb (ix1 j) = ix2 (⟨off 0, h0⟩ : Fin 32768) (⟨off 1 + j.val, h1⟩ : Fin 1024) := by
  show (Rect.unit (s := S32768x1024) off S1x1024.size hin).emb (Shape.reshapeEquiv hs.numel_eq (ix1 j)) = _
  refine (congrArg _ (Cert.LibRowView.reshape_row (C := 1024) hs.numel_eq j)).trans ?_
  exact Cert.LibRowView.unit_emb_row (R := 32768) (C := 1024) off hin j h0 h1

/-- What a transfer reads through such a source window: entry j is the flat array's at (off 0, off 1 + j). -/
theorem row_read_apply (off : Fin 2 → Nat) (hin : ∀ a, off a + S1x1024.size a ≤ S32768x1024.size a)
    {hr : ∀ a, (Rect.unit (s := S32768x1024) off S1x1024.size hin).stride a = 1} {hs : S1x1024.Squeezes S1024}
    (f : S32768x1024.Idx → Elt F .f32) (j : Fin 1024) :
    (ReadAs.same : ReadAs (Elt F) S1024 .f32 S1024 .f32).apply (View.read (Elt F) (((Memref.whole main_v0_scs : Memref sig .scScalar .hbm S32768x1024 .f32).slice (Rect.unit (s := S32768x1024) off S1x1024.size hin) hr).squeeze S1024 hs).view f) (ix1 j)
      = f (ix2 (⟨off 0, by have h : off 0 + 1 ≤ 32768 := hin 0; omega⟩ : Fin 32768)
            (⟨off 1 + j.val, by have h : off 1 + 1024 ≤ 1024 := hin 1; have := j.isLt; omega⟩ : Fin 1024)) := by
  show View.read (Elt F) (((Memref.whole main_v0_scs : Memref sig .scScalar .hbm S32768x1024 .f32).slice (Rect.unit (s := S32768x1024) off S1x1024.size hin) hr).squeeze S1024 hs).view f (ix1 j) = _
  rw [View.read_apply]
  refine (cast_eq _ _).trans ?_
  exact congrArg f (src_row_emb off hin hr hs j _ _)

/-- The scalar memory after the sixteen length words were copied in whole, read through its one-word window at k:
    length word k. -/
theorem scratch_word (k : Nat) (hk : ∀ a, (![k] : Fin 1 → Nat) a + S1.size a ≤ S16.size a)
    (fs : S16.Idx → Elt F .i32) (l : S16.Idx → Elt F .i32)
    (x : (Rect.unit (s := S16) ![k] S1.size hk).toLoadRect.shape.Idx) :
    View.readAt (Elt F) (Memref.whole cc0_scratch0 : Memref sig .scScalar .smem S16 .i32).view (Rect.unit (s := S16) ![k] S1.size hk).toLoadRect
        (View.write (Elt F) (Memref.whole cc0_scratch0 : Memref sig .scScalar .smem S16 .i32).view fs
          ((ReadAs.same : ReadAs (Elt F) S16 .i32 S16 .i32).apply (View.read (Elt F) (Memref.whole main_arg1_scs : Memref sig .scScalar .hbm S16 .i32).view l)) Finset.univ) x
      = l (ix1 (⟨k, by have h : k + 1 ≤ 16 := hk 0; omega⟩ : Fin 16)) := by
  rw [View.readAt_apply]
  show View.read (Elt F) (View.whole cc0_scratch0) (View.write (Elt F) (View.whole cc0_scratch0) fs l Finset.univ) _ = _
  rw [View.write_whole_univ]
  show l _ = _
  exact congrArg l (Cert.LibRowView.unit_idx_one (N := 16) k hk _ x)

end Cert.Proof.KB

end
-- ==== Proof.KBValue.lean ====
/-
  What the sixteen row copies leave in the result array. Copy `k` reads, from the flat view, the row numbered
  `2048 * k + ((len k - 1) &&& 2047)` — the word `len k` is what the sequencer's scalar memory holds at `k` after the lengths
  were copied in — and that row of the flat view is row `(len k - 1) mod 2048` of sequence `k`. The copies write the sixteen
  rows of the result, one each, so entry `(b, j)` of the result is what copy `b` wrote at `j`: the later copies' rows are other
  rows and leave it alone.
-/
import proofs.«219430_g10557029613708_week1_w2_468_10_alg».proof.Proof.KBRows

noncomputable section

namespace Cert.Proof.KB

open Cert.Kernel Cert.Kernel.Gen
open Idealize.ShloMosaic Idealize.ShloMosaic.ValueIdx
open Cert.LastStep

variable {F : FTy → Type}
variable (m : (ℓ : Loc nD τ sig) → Buf (Elt F) ℓ) (d : Dev nD)

/-- The flat view at row `p`, column `q`, when `p = 2048 * b + r` and `q = j` as numbers, is the batch at `(b, r, j)`. -/
theorem flat_at {α : Type} (x : (⟨3, ![16, 2048, 1024]⟩ : Shape).Idx → α)
    (hc : (⟨3, ![16, 2048, 1024]⟩ : Shape).ShapeCasts ⟨2, ![32768, 1024]⟩) (b : Fin 16) (r : Fin 2048) (j : Fin 1024)
    (p : Fin 32768) (q : Fin 1024) (hp : p.val = b.val * 2048 + r.val) (hq : q.val = j.val) :
    shapeCast ⟨2, ![32768, 1024]⟩ x hc (ix2 p q) = x (ix3 b r j) := by
  obtain rfl : j = q := Fin.ext hq.symm
  exact flat_apply x hc b r j p hp

set_option maxHeartbeats 1000000 in
/-- What copy `k` carries at column `j`: the flat view at the row whose number is the base `2048 * k` plus `(w - 1) &&& 2047`,
    where `w` is the length word of sequence `k` — that is, sequence `k`'s selected row at `j`. -/
theorem payload_eq (k : Fin 16) (c : BitVec 32) (hc : c.toNat = 2048 * k.val) (w : BitVec 32) (hw : w = m (lLoc d) (ix1 k))
    (off : Fin 2 → Nat) (hin : ∀ a, off a + S1x1024.size a ≤ S32768x1024.size a)
    (h0 : off 0 = c.toNat + (rowOf w).val) (h1 : off 1 = 0) (j : Fin 1024) :
    ReadAs.same.apply (View.read (Elt F) (((Memref.whole main_v0_scs : Memref sig .scScalar .hbm S32768x1024 .f32).slice
        (Rect.unit (s := S32768x1024) off S1x1024.size hin) (fun _ => rfl)).squeeze
          S1024 Facts₀.squeezes_S1x1024_S1024).view (flatOf m d)) (ix1 j)
      = m (xLoc d) (ix3 k (rowOf (m (lLoc d) (ix1 k))) j) := by
  rw [row_read_apply]
  subst hw
  unfold flatOf
  exact flat_at (m (xLoc d)) _ k (rowOf (m (lLoc d) (ix1 k))) j _ _ (by show off 0 = _; omega) (by show off 1 + j.val = _; omega)

set_option maxHeartbeats 4000000 in
/-- The result array after the sixteen row writes, entry by entry. -/
theorem out_value (fo : Buf (Elt F) (oLoc d)) (p0 p1 p2 p3 p4 p5 p6 p7 p8 p9 p10 p11 p12 p13 p14 p15 : S1024.Idx → Elt F .f32)
    (h0 : ∀ j : Fin 1024, p0 (ix1 j) = m (xLoc d) (ix3 (0 : Fin 16) (rowOf (m (lLoc d) (ix1 (0 : Fin 16)))) j))
    (h1 : ∀ j : Fin 1024, p1 (ix1 j) = m (xLoc d) (ix3 (1 : Fin 16) (rowOf (m (lLoc d) (ix1 (1 : Fin 16)))) j))
    (h2 : ∀ j : Fin 1024, p2 (ix1 j) = m (xLoc d) (ix3 (2 : Fin 16) (rowOf (m (lLoc d) (ix1 (2 : Fin 16)))) j))
    (h3 : ∀ j : Fin 1024, p3 (ix1 j) = m (xLoc d) (ix3 (3 : Fin 16) (rowOf (m (lLoc d) (ix1 (3 : Fin 16)))) j))
    (h4 : ∀ j : Fin 1024, p4 (ix1 j) = m (xLoc d) (ix3 (4 : Fin 16) (rowOf (m (lLoc d) (ix1 (4 : Fin 16)))) j))
    (h5 : ∀ j : Fin 1024, p5 (ix1 j) = m (xLoc d) (ix3 (5 : Fin 16) (rowOf (m (lLoc d) (ix1 (5 : Fin 16)))) j))
    (h6 : ∀ j : Fin 1024, p6 (ix1 j) = m (xLoc d) (ix3 (6 : Fin 16) (rowOf (m (lLoc d) (ix1 (6 : Fin 16)))) j))
    (h7 : ∀ j : Fin 1024, p7 (ix1 j) = m (xLoc d) (ix3 (7 : Fin 16) (rowOf (m (lLoc d) (ix1 (7 : Fin 16)))) j))
    (h8 : ∀ j : Fin 1024, p8 (ix1 j) = m (xLoc d) (ix3 (8 : Fin 16) (rowOf (m (lLoc d) (ix1 (8 : Fin 16)))) j))
    (h9 : ∀ j : Fin 1024, p9 (ix1 j) = m (xLoc d) (ix3 (9 : Fin 16) (rowOf (m (lLoc d) (ix1 (9 : Fin 16)))) j))
    (h10 : ∀ j : Fin 1024, p10 (ix1 j) = m (xLoc d) (ix3 (10 : Fin 16) (rowOf (m (lLoc d) (ix1 (10 : Fin 16)))) j))
    (h11 : ∀ j : Fin 1024, p11 (ix1 j) = m (xLoc d) (ix3 (11 : Fin 16) (rowOf (m (lLoc d) (ix1 (11 : Fin 16)))) j))
    (h12 : ∀ j : Fin 1024, p12 (ix1 j) = m (xLoc d) (ix3 (12 : Fin 16) (rowOf (m (lLoc d) (ix1 (12 : Fin 16)))) j))
    (h13 : ∀ j : Fin 1024, p13 (ix1 j) = m (xLoc d) (ix3 (13 : Fin 16) (rowOf (m (lLoc d) (ix1 (13 : Fin 16)))) j))
    (h14 : ∀ j : Fin 1024, p14 (ix1 j) = m (xLoc d) (ix3 (14 : Fin 16) (rowOf (m (lLoc d) (ix1 (14 : Fin 16)))) j))
    (h15 : ∀ j : Fin 1024, p15 (ix1 j) = m (xLoc d) (ix3 (15 : Fin 16) (rowOf (m (lLoc d) (ix1 (15 : Fin 16)))) j)) :
    (View.write (Elt F) (((Memref.whole main_v1_scs : Memref sig .scScalar .hbm S16x1024 .f32).slice (Rect.unit (s := S16x1024) ![15, 0] S1x1024.size Facts₀.inb_S16x1024_S1x1024_15_0) (fun _ => rfl)).squeeze S1024 Facts₀.squeezes_S1x1024_S1024).view
      (View.write (Elt F) (((Memref.whole main_v1_scs : Memref sig .scScalar .hbm S16x1024 .f32).slice (Rect.unit (s := S16x1024) ![14, 0] S1x1024.size Facts₀.inb_S16x1024_S1x1024_14_0) (fun _ => rfl)).squeeze S1024 Facts₀.squeezes_S1x1024_S1024).view
      (View.write (Elt F) (((Memref.whole main_v1_scs : Memref sig .scScalar .hbm S16x1024 .f32).slice (Rect.unit (s := S16x1024) ![13, 0] S1x1024.size Facts₀.inb_S16x1024_S1x1024_13_0) (fun _ => rfl)).squeeze S1024 Facts₀.squeezes_S1x1024_S1024).view
      (View.write (Elt F) (((Memref.whole main_v1_scs : Memref sig .scScalar .hbm S16x1024 .f32).slice (Rect.unit (s := S16x1024) ![12, 0] S1x1024.size Facts₀.inb_S16x1024_S1x1024_12_0) (fun _ => rfl)).squeeze S1024 Facts₀.squeezes_S1x1024_S1024).view
      (View.write (Elt F) (((Memref.whole main_v1_scs : Memref sig .scScalar .hbm S16x1024 .f32).slice (Rect.unit (s := S16x1024) ![11, 0] S1x1024.size Facts₀.inb_S16x1024_S1x1024_11_0) (fun _ => rfl)).squeeze S1024 Facts₀.squeezes_S1x1024_S1024).view
      (View.write (Elt F) (((Memref.whole main_v1_scs : Memref sig .scScalar .hbm S16x1024 .f32).slice (Rect.unit (s := S16x1024) ![10, 0] S1x1024.size Facts₀.inb_S16x1024_S1x1024_10_0) (fun _ => rfl)).squeeze S1024 Facts₀.squeezes_S1x1024_S1024).view
      (View.write (Elt F) (((Memref.whole main_v1_scs : Memref sig .scScalar .hbm S16x1024 .f32).slice (Rect.unit (s := S16x1024) ![9, 0] S1x1024.size Facts₀.inb_S16x1024_S1x1024_9_0) (fun _ => rfl)).squeeze S1024 Facts₀.squeezes_S1x1024_S1024).view
      (View.write (Elt F) (((Memref.whole main_v1_scs : Memref sig .scScalar .hbm S16x1024 .f32).slice (Rect.unit (s := S16x1024) ![8, 0] S1x1024.size Facts₀.inb_S16x1024_S1x1024_8_0) (fun _ => rfl)).squeeze S1024 Facts₀.squeezes_S1x1024_S1024).view
      (View.write (Elt F) (((Memref.whole main_v1_scs : Memref sig .scScalar .hbm S16x1024 .f32).slice (Rect.unit (s := S16x1024) ![7, 0] S1x1024.size Facts₀.inb_S16x1024_S1x1024_7_0) (fun _ => rfl)).squeeze S1024 Facts₀.squeezes_S1x1024_S1024).view
      (View.write (Elt F) (((Memref.whole main_v1_scs : Memref sig .scScalar .hbm S16x1024 .f32).slice (Rect.unit (s := S16x1024) ![6, 0] S1x1024.size Facts₀.inb_S16x1024_S1x1024_6_0) (fun _ => rfl)).squeeze S1024 Facts₀.squeezes_S1x1024_S1024).view
      (View.write (Elt F) (((Memref.whole main_v1_scs : Memref sig .scScalar .hbm S16x1024 .f32).slice (Rect.unit (s := S16x1024) ![5, 0] S1x1024.size Facts₀.inb_S16x1024_S1x1024_5_0) (fun _ => rfl)).squeeze S1024 Facts₀.squeezes_S1x1024_S1024).view
      (View.write (Elt F) (((Memref.whole main_v1_scs : Memref sig .scScalar .hbm S16x1024 .f32).slice (Rect.unit (s := S16x1024) ![4, 0] S1x1024.size Facts₀.inb_S16x1024_S1x1024_4_0) (fun _ => rfl)).squeeze S1024 Facts₀.squeezes_S1x1024_S1024).view
      (View.write (Elt F) (((Memref.whole main_v1_scs : Memref sig .scScalar .hbm S16x1024 .f32).slice (Rect.unit (s := S16x1024) ![3, 0] S1x1024.size Facts₀.inb_S16x1024_S1x1024_3_0) (fun _ => rfl)).squeeze S1024 Facts₀.squeezes_S1x1024_S1024).view
      (View.write (Elt F) (((Memref.whole main_v1_scs : Memref sig .scScalar .hbm S16x1024 .f32).slice (Rect.unit (s := S16x1024) ![2, 0] S1x1024.size Facts₀.inb_S16x1024_S1x1024_2_0) (fun _ => rfl)).squeeze S1024 Facts₀.squeezes_S1x1024_S1024).view
      (View.write (Elt F) (((Memref.whole main_v1_scs : Memref sig .scScalar .hbm S16x1024 .f32).slice (Rect.unit (s := S16x1024) ![1, 0] S1x1024.size Facts₀.inb_S16x1024_S1x1024_1_0) (fun _ => rfl)).squeeze S1024 Facts₀.squeezes_S1x1024_S1024).view
      (View.write (Elt F) (((Memref.whole main_v1_scs : Memref sig .scScalar .hbm S16x1024 .f32).slice (Rect.unit (s := S16x1024) ![0, 0] S1x1024.size Facts₀.inb_S16x1024_S1x1024_0_0) (fun _ => rfl)).squeeze S1024 Facts₀.squeezes_S1x1024_S1024).view
      fo p0 Finset.univ) p1 Finset.univ) p2 Finset.univ) p3 Finset.univ) p4 Finset.univ) p5 Finset.univ) p6 Finset.univ) p7 Finset.univ) p8 Finset.univ) p9 Finset.univ) p10 Finset.univ) p11 Finset.univ) p12 Finset.univ) p13 Finset.univ) p14 Finset.univ) p15 Finset.univ)
      = outOf m d := by
  funext i
  obtain ⟨b, j, rfl⟩ : ∃ (b : Fin 16) (j : Fin 1024), i = ix2 b j := ⟨i 0, i 1, eq_ix2 i⟩
  rw [row_write_apply]
  by_cases e15 : b.val = 15
  · rw [if_pos e15]
    obtain rfl : b = (15 : Fin 16) := Fin.ext e15
    exact h15 j
  rw [if_neg e15, row_write_apply]
  by_cases e14 : b.val = 14
  · rw [if_pos e14]
    obtain rfl : b = (14 : Fin 16) := Fin.ext e14
    exact h14 j
  rw [if_neg e14, row_write_apply]
  by_cases e13 : b.val = 13
  · rw [if_pos e13]
    obtain rfl : b = (13 : Fin 16) := Fin.ext e13
    exact h13 j
  rw [if_neg e13, row_write_apply]
  by_cases e12 : b.val = 12
  · rw [if_pos e12]
    obtain rfl : b = (12 : Fin 16) := Fin.ext e12
    exact h12 j
  rw [if_neg e12, row_write_apply]
  by_cases e11 : b.val = 11
  · rw [if_pos e11]
    obtain rfl : b = (11 : Fin 16) := Fin.ext e11
    exact h11 j
  rw [if_neg e11, row_write_apply]
  by_cases e10 : b.val = 10
  · rw [if_pos e10]
    obtain rfl : b = (10 : Fin 16) := Fin.ext e10
    exact h10 j
  rw [if_neg e10, row_write_apply]
  by_cases e9 : b.val = 9
  · rw [if_pos e9]
    obtain rfl : b = (9 : Fin 16) := Fin.ext e9
    exact h9 j
  rw [if_neg e9, row_write_apply]
  by_cases e8 : b.val = 8
  · rw [if_pos e8]
    obtain rfl : b = (8 : Fin 16) := Fin.ext e8
    exact h8 j
  rw [if_neg e8, row_write_apply]
  by_cases e7 : b.val = 7
  · rw [if_pos e7]
    obtain rfl : b = (7 : Fin 16) := Fin.ext e7
    exact h7 j
  rw [if_neg e7, row_write_apply]
  by_cases e6 : b.val = 6
  · rw [if_pos e6]
    obtain rfl : b = (6 : Fin 16) := Fin.ext e6
    exact h6 j
  rw [if_neg e6, row_write_apply]
  by_cases e5 : b.val = 5
  · rw [if_pos e5]
    obtain rfl : b = (5 : Fin 16) := Fin.ext e5
    exact h5 j
  rw [if_neg e5, row_write_apply]
  by_cases e4 : b.val = 4
  · rw [if_pos e4]
    obtain rfl : b = (4 : Fin 16) := Fin.ext e4
    exact h4 j
  rw [if_neg e4, row_write_apply]
  by_cases e3 : b.val = 3
  · rw [if_pos e3]
    obtain rfl : b = (3 : Fin 16) := Fin.ext e3
    exact h3 j
  rw [if_neg e3, row_write_apply]
  by_cases e2 : b.val = 2
  · rw [if_pos e2]
    obtain rfl : b = (2 : Fin 16) := Fin.ext e2
    exact h2 j
  rw [if_neg e2, row_write_apply]
  by_cases e1 : b.val = 1
  · rw [if_pos e1]
    obtain rfl : b = (1 : Fin 16) := Fin.ext e1
    exact h1 j
  rw [if_neg e1, row_write_apply]
  by_cases e0 : b.val = 0
  · rw [if_pos e0]
    obtain rfl : b = (0 : Fin 16) := Fin.ext e0
    exact h0 j
  exfalso; have := b.isLt; omega

end Cert.Proof.KB

end
-- ==== Proof.KBBody.lean ====
/-
  The sequencer's body, run: from the flat view and the lengths (read only) and the result array, the sequencer's scalar
  memory and its seventeen transfer semaphores at zero, the body runs to its end, faults nowhere, and leaves the result array
  holding, in row `b`, row `2048 * b + ((len b - 1) &&& 2047)` of the flat view — which is row `(len b - 1) mod 2048` of
  sequence `b`.

  The sixteen row copies are in flight together. Each reads one row of the flat view: the view is held under sixteen read
  shares, one lent to each copy, so no copy waits for another's source. Each writes one row of the result, and the sixteen
  rows are different, so the result array is lent row by row. Each copy completes on its own semaphore, so each wait finds
  exactly its own copy.
-/
import proofs.«219430_g10557029613708_week1_w2_468_10_alg».proof.Proof.KBValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.LastStep Cert.LibFinSep

variable {F : FTy → Type}

local notation "𝕄" => MT nD τ sig (HIx 1) (Elt F) ℕ UU ℕ

local notation "vW" => (Memref.whole Cert.Kernel.main_v0_scs : Memref Cert.Kernel.sig Kind.scScalar Space.hbm Cert.Kernel.S32768x1024 EltTy.f32)
local notation "lW" => (Memref.whole Cert.Kernel.main_arg1_scs : Memref Cert.Kernel.sig Kind.scScalar Space.hbm Cert.Kernel.S16 EltTy.i32)
local notation "oW" => (Memref.whole Cert.Kernel.main_v1_scs : Memref Cert.Kernel.sig Kind.scScalar Space.hbm Cert.Kernel.S16x1024 EltTy.f32)
local notation "sW" => (Memref.whole Cert.Kernel.cc0_scratch0 : Memref Cert.Kernel.sig Kind.scScalar Space.smem Cert.Kernel.S16 EltTy.i32)

/-! ## Every row number is in range, whatever the length word -/

theorem chk1_all (i : grid0.Coords) (v : BitVec 32) : k0_chk1 i v :=
  ⟨fun _ => row_inb 0#32 v (by decide), fun _ => row_inb 0#32 v (by decide)⟩
theorem chk2_all (i : grid0.Coords) (v : BitVec 32) : k0_chk2 i v :=
  ⟨fun _ => row_inb 2048#32 v (by decide), fun _ => row_inb 2048#32 v (by decide)⟩
theorem chk3_all (i : grid0.Coords) (v : BitVec 32) : k0_chk3 i v :=
  ⟨fun _ => row_inb 4096#32 v (by decide), fun _ => row_inb 4096#32 v (by decide)⟩
theorem chk4_all (i : grid0.Coords) (v : BitVec 32) : k0_chk4 i v :=
  ⟨fun _ => row_inb 6144#32 v (by decide), fun _ => row_inb 6144#32 v (by decide)⟩
theorem chk5_all (i : grid0.Coords) (v : BitVec 32) : k0_chk5 i v :=
  ⟨fun _ => row_inb 8192#32 v (by decide), fun _ => row_inb 8192#32 v (by decide)⟩
theorem chk6_all (i : grid0.Coords) (v : BitVec 32) : k0_chk6 i v :=
  ⟨fun _ => row_inb 10240#32 v (by decide), fun _ => row_inb 10240#32 v (by decide)⟩
theorem chk7_all (i : grid0.Coords) (v : BitVec 32) : k0_chk7 i v :=
  ⟨fun _ => row_inb 12288#32 v (by decide), fun _ => row_inb 12288#32 v (by decide)⟩
theorem chk8_all (i : grid0.Coords) (v : BitVec 32) : k0_chk8 i v :=
  ⟨fun _ => row_inb 14336#32 v (by decide), fun _ => row_inb 14336#32 v (by decide)⟩
theorem chk9_all (i : grid0.Coords) (v : BitVec 32) : k0_chk9 i v :=
  ⟨fun _ => row_inb 16384#32 v (by decide), fun _ => row_inb 16384#32 v (by decide)⟩
theorem chk10_all (i : grid0.Coords) (v : BitVec 32) : k0_chk10 i v :=
  ⟨fun _ => row_inb 18432#32 v (by decide), fun _ => row_inb 18432#32 v (by decide)⟩
theorem chk11_all (i : grid0.Coords) (v : BitVec 32) : k0_chk11 i v :=
  ⟨fun _ => row_inb 20480#32 v (by decide), fun _ => row_inb 20480#32 v (by decide)⟩
theorem chk12_all (i : grid0.Coords) (v : BitVec 32) : k0_chk12 i v :=
  ⟨fun _ => row_inb 22528#32 v (by decide), fun _ => row_inb 22528#32 v (by decide)⟩
theorem chk13_all (i : grid0.Coords) (v : BitVec 32) : k0_chk13 i v :=
  ⟨fun _ => row_inb 24576#32 v (by decide), fun _ => row_inb 24576#32 v (by decide)⟩
theorem chk14_all (i : grid0.Coords) (v : BitVec 32) : k0_chk14 i v :=
  ⟨fun _ => row_inb 26624#32 v (by decide), fun _ => row_inb 26624#32 v (by decide)⟩
theorem chk15_all (i : grid0.Coords) (v : BitVec 32) : k0_chk15 i v :=
  ⟨fun _ => row_inb 28672#32 v (by decide), fun _ => row_inb 28672#32 v (by decide)⟩
theorem chk16_all (i : grid0.Coords) (v : BitVec 32) : k0_chk16 i v :=
  fun _ => row_inb 30720#32 v (by decide)

variable (m : (ℓ : Loc nD τ sig) → Buf (Elt F) ℓ)

section Body

variable (d : Dev nD)

def coordsS (c : Fin (grid0.bound 0)) : grid0.Coords := fun | 0 => c | ⟨_ + 1, h⟩ => absurd h (Nat.not_lt.2 (Nat.le_add_left _ _))

/-! ## The sequencer's own semaphores and scalar memory, named one by one -/

abbrev cell (c : Fin τ.nSC) (k : DmaSem sig) : GSem nD τ sig := (S d c, SemLoc.dma k)

def dmaCells (c : Fin τ.nSC) : Finset (GSem nD τ sig) := Finset.univ.image (cell d c)

theorem dmaCells_sub (c : Fin τ.nSC) : dmaCells d c ⊆ ownCells (S d c) := by
  intro g hg
  obtain ⟨k, -, rfl⟩ := Finset.mem_image.mp hg
  exact (mem_ownCells (g := cell d c k)).mpr ⟨rfl, by show (SemLoc.dma k : SemLoc sig).isScoped .scScalar = true; clear hg; revert k; decide⟩

theorem ownSems0_S (c : Fin τ.nSC) :
    (ownSems0 (S d c) : sProp 𝕄)
      = iprop((bigSep (Finset.univ : Finset (Fin 17)) fun k => semVal (cell d c k) 0)
          ∗ bigSep (ownCells (S d c) \ dmaCells d c) fun g => semVal g 0) := by
  unfold SparseCore.Cfg.ownSems0
  rw [SparseCore.bigSep_sdiff_split' (dmaCells_sub d c)]
  unfold dmaCells
  rw [SparseCore.bigSep_image_of_injOn (fun a _ b _ e => by
    have := (Prod.mk.inj e).2; exact SemLoc.dma.inj this)]

/-- The sequencer's scalar memory is among its own buffers. -/
theorem ownBufs_S (c : Fin τ.nSC) :
    (ownBufs (S d c) : sProp 𝕄)
      = iprop((∃ f, (S d c).loc cc0_scratch0 ↦{fullShare} f)
          ∗ bigSep ((ownRefs (τ := τ) (.scScalar c)).erase ((Proc.scScalar c).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scScalar c) (b := (Proc.scScalar c).devRef cc0_scratch0) rfl)

/-- The arrays as the sequencer's memrefs address them are the TensorCore's arrays. -/
theorem pts_v (c : Fin τ.nSC) (q : PosShare TreeShare) (f : Buf (Elt F) (vLoc d)) :
    ((vW).view.loc (S d c) ↦{q} f : sProp 𝕄) = vLoc d ↦{q} f := by
  simp only [Memref.view_whole, View.set_whole]
theorem pts_l (c : Fin τ.nSC) (f : Buf (Elt F) (lLoc d)) :
    ((lW).view.loc (S d c) ↦{fullShare} f : sProp 𝕄) = lLoc d ↦{fullShare} f := by
  simp only [Memref.view_whole, View.set_whole]
theorem pts_o (c : Fin τ.nSC) (f : Buf (Elt F) (oLoc d)) :
    ((oW).view.loc (S d c) ↦{fullShare} f : sProp 𝕄) = oLoc d ↦{fullShare} f := by
  simp only [Memref.view_whole, View.set_whole]
theorem pts_s (c : Fin τ.nSC) (f : Buf (Elt F) ((S d c).loc cc0_scratch0)) :
    ((sW).view.loc (S d c) ↦{fullShare} f : sProp 𝕄) = (S d c).loc cc0_scratch0 ↦{fullShare} f := by
  simp only [Memref.view_whole, View.set_whole]

/-- SparseCore 0's sequencer thread. -/
abbrev S0 (h : 0 < grid0.bound 0) : Thread nD τ := S d ((⟨0, h⟩ : Fin (grid0.bound 0)).castLE hcore0)
abbrev c0 (h : 0 < grid0.bound 0) : Fin τ.nSC := (⟨0, h⟩ : Fin (grid0.bound 0)).castLE hcore0

variable [FloatOps F]

set_option maxHeartbeats 4000000 in
theorem body₀ (hF : (K (F := F)).Facts) (h : 0 < grid0.bound 0) (O : CellTallies nD τ sig (HIx 1)) (W : Waits sig (HIx 1)) (hO : ∀ g, O g none = 0) :
    iprop(levAts (K (F := F)).L (K (F := F)).lev ∗ emp ∗ forCore m d
        ∗ scopedBufs (S0 d h) ∗ scopedSems0 (S0 d h) ∗ owes (S0 d h) O W)
      ⊢ wp frame (wpE (defs₀ (F := F)) 𝒱₀ (S0 d h) none) Set.univ
          (cc0__laststep_body (coordsS ⟨0, h⟩) vW (Memref.isWhole_whole _) lW (Memref.isWhole_whole _) oW (Memref.isWhole_whole _)
            sW (Memref.isWhole_whole _) cc0_scratch1 cc0_scoped0)
          fun _ => iprop(fromCore m d ∗ scopedBufs (S0 d h) ∗ scopedSems0 (S0 d h) ∗ ∃ W', ⌜∀ p ∈ W', p ∈ W ∨ p.2 = none⌝ ∗ owes (S0 d h) O W') := by
  have k0_h1 : k0_cond1 (coordsS ⟨0, h⟩) = 1#1 := by decide +revert
  simp only [cc0__laststep_body_eq_skeleton]; unfold cc0__laststep_body_skel
  unfold forCore
  iintro ⟨#Hlv, -, ⟨Hv, Hl, %fo, Ho⟩, Hsb, Hss, HO⟩
  ihave Hss' := (SparseCore.Cfg.scopedSems0_S_elim (Val := Elt F) d (c0 h)) $$ Hss
  icases Hss' with ⟨Hown, Hsubs⟩
  ihave Hown' := (Entails.of_eq (ownSems0_S (F := F) d (c0 h))) $$ Hown
  icases Hown' with ⟨Hsems, Hrest⟩
  ihave Hsems' := (Entails.of_eq (bigSep_fin17 (fun k => (semVal (cell d (c0 h) k) 0 : sProp 𝕄)))) $$ Hsems
  icases Hsems' with ⟨Hs0, Hs1, Hs2, Hs3, Hs4, Hs5, Hs6, Hs7, Hs8, Hs9, Hs10, Hs11, Hs12, Hs13, Hs14, Hs15, Hs16⟩
  ihave Hsb' := ((K (F := F)).scopedBufs_S_elim hF d (c0 h)) $$ Hsb
  icases Hsb' with ⟨Hob, Hvb⟩
  ihave Hob' := (Entails.of_eq (ownBufs_S (F := F) d (c0 h))) $$ Hob
  icases Hob' with ⟨⟨%fs, Hsm⟩, Hobr⟩
  ihave Hmw := ((K (F := F)).mayWaits_none (thr := S0 d h) hO) $$ Hlv
  ihave Hv' := (Entails.of_eq (pts_v (F := F) d (c0 h) fullShare _).symm) $$ Hv
  ihave Hl' := (Entails.of_eq (pts_l (F := F) d (c0 h) _).symm) $$ Hl
  ihave Ho' := (Entails.of_eq (pts_o (F := F) d (c0 h) _).symm) $$ Ho
  ihave Hsm' := (Entails.of_eq (pts_s (F := F) d (c0 h) _).symm) $$ Hsm
  ihave Hvt := (Transfers.pointsTo_toks_split fullShare 16) $$ Hv'
  icases Hvt with ⟨Hvd, Hvts⟩
  ihave Hvts' := (Entails.of_eq (bigSep_fin16 (fun i : Fin 16 => ((vW).view.loc (S0 d h) ↦{Transfers.shareTok fullShare 16 i} flatOf m d : sProp 𝕄)))) $$ Hvts
  icases Hvts' with ⟨Hv0, Hv1, Hv2, Hv3, Hv4, Hv5, Hv6, Hv7, Hv8, Hv9, Hv10, Hv11, Hv12, Hv13, Hv14, Hv15⟩
  set_option sl_exec.dmaWindow true in
  sl_exec (disch := first | sl_exact chk1_all _ _ | sl_exact chk2_all _ _ | sl_exact chk3_all _ _ | sl_exact chk4_all _ _ | sl_exact chk5_all _ _ | sl_exact chk6_all _ _ | sl_exact chk7_all _ _ | sl_exact chk8_all _ _ | sl_exact chk9_all _ _ | sl_exact chk10_all _ _ | sl_exact chk11_all _ _ | sl_exact chk12_all _ _ | sl_exact chk13_all _ _ | sl_exact chk14_all _ _ | sl_exact chk15_all _ _ | sl_exact chk16_all _ _)
  sl_step
  -- what the sixteen copies wrote is the array of selected rows
  have hval := out_value m d fo (body₀.sl.dma1 m d h k0_h1 fs) (body₀.sl.dma2 m d h k0_h1 fs) (body₀.sl.dma3 m d h k0_h1 fs) (body₀.sl.dma4 m d h k0_h1 fs) (body₀.sl.dma5 m d h k0_h1 fs) (body₀.sl.dma6 m d h k0_h1 fs) (body₀.sl.dma7 m d h k0_h1 fs) (body₀.sl.dma8 m d h k0_h1 fs) (body₀.sl.dma9 m d h k0_h1 fs) (body₀.sl.dma10 m d h k0_h1 fs) (body₀.sl.dma11 m d h k0_h1 fs) (body₀.sl.dma12 m d h k0_h1 fs) (body₀.sl.dma13 m d h k0_h1 fs) (body₀.sl.dma14 m d h k0_h1 fs) (body₀.sl.dma15 m d h k0_h1 fs) (body₀.sl.dma16 m d h k0_h1 fs)
    (fun j => payload_eq m d (0 : Fin 16) 0#32 (by decide) (body₀.sl.r m d h fs) (scratch_word 0 _ fs (m (lLoc d)) _)
      (k0_off1 (body₀.sl.r m d h fs)) _ (rowWord_toNat 0#32 _ (by decide)) rfl j)
    (fun j => payload_eq m d (1 : Fin 16) 2048#32 (by decide) (body₀.sl.r_1 m d h fs) (scratch_word 1 _ fs (m (lLoc d)) _)
      (k0_off2 (body₀.sl.r_1 m d h fs)) _ (rowWord_toNat 2048#32 _ (by decide)) rfl j)
    (fun j => payload_eq m d (2 : Fin 16) 4096#32 (by decide) (body₀.sl.r_2 m d h fs) (scratch_word 2 _ fs (m (lLoc d)) _)
      (k0_off3 (body₀.sl.r_2 m d h fs)) _ (rowWord_toNat 4096#32 _ (by decide)) rfl j)
    (fun j => payload_eq m d (3 : Fin 16) 6144#32 (by decide) (body₀.sl.r_3 m d h fs) (scratch_word 3 _ fs (m (lLoc d)) _)
      (k0_off4 (body₀.sl.r_3 m d h fs)) _ (rowWord_toNat 6144#32 _ (by decide)) rfl j)
    (fun j => payload_eq m d (4 : Fin 16) 8192#32 (by decide) (body₀.sl.r_4 m d h fs) (scratch_word 4 _ fs (m (lLoc d)) _)
      (k0_off5 (body₀.sl.r_4 m d h fs)) _ (rowWord_toNat 8192#32 _ (by decide)) rfl j)
    (fun j => payload_eq m d (5 : Fin 16) 10240#32 (by decide) (body₀.sl.r_5 m d h fs) (scratch_word 5 _ fs (m (lLoc d)) _)
      (k0_off6 (body₀.sl.r_5 m d h fs)) _ (rowWord_toNat 10240#32 _ (by decide)) rfl j)
    (fun j => payload_eq m d (6 : Fin 16) 12288#32 (by decide) (body₀.sl.r_6 m d h fs) (scratch_word 6 _ fs (m (lLoc d)) _)
      (k0_off7 (body₀.sl.r_6 m d h fs)) _ (rowWord_toNat 12288#32 _ (by decide)) rfl j)
    (fun j => payload_eq m d (7 : Fin 16) 14336#32 (by decide) (body₀.sl.r_7 m d h fs) (scratch_word 7 _ fs (m (lLoc d)) _)
      (k0_off8 (body₀.sl.r_7 m d h fs)) _ (rowWord_toNat 14336#32 _ (by decide)) rfl j)
    (fun j => payload_eq m d (8 : Fin 16) 16384#32 (by decide) (body₀.sl.r_8 m d h fs) (scratch_word 8 _ fs (m (lLoc d)) _)
      (k0_off9 (body₀.sl.r_8 m d h fs)) _ (rowWord_toNat 16384#32 _ (by decide)) rfl j)
    (fun j => payload_eq m d (9 : Fin 16) 18432#32 (by decide) (body₀.sl.r_9 m d h fs) (scratch_word 9 _ fs (m (lLoc d)) _)
      (k0_off10 (body₀.sl.r_9 m d h fs)) _ (rowWord_toNat 18432#32 _ (by decide)) rfl j)
    (fun j => payload_eq m d (10 : Fin 16) 20480#32 (by decide) (body₀.sl.r_10 m d h fs) (scratch_word 10 _ fs (m (lLoc d)) _)
      (k0_off11 (body₀.sl.r_10 m d h fs)) _ (rowWord_toNat 20480#32 _ (by decide)) rfl j)
    (fun j => payload_eq m d (11 : Fin 16) 22528#32 (by decide) (body₀.sl.r_11 m d h fs) (scratch_word 11 _ fs (m (lLoc d)) _)
      (k0_off12 (body₀.sl.r_11 m d h fs)) _ (rowWord_toNat 22528#32 _ (by decide)) rfl j)
    (fun j => payload_eq m d (12 : Fin 16) 24576#32 (by decide) (body₀.sl.r_12 m d h fs) (scratch_word 12 _ fs (m (lLoc d)) _)
      (k0_off13 (body₀.sl.r_12 m d h fs)) _ (rowWord_toNat 24576#32 _ (by decide)) rfl j)
    (fun j => payload_eq m d (13 : Fin 16) 26624#32 (by decide) (body₀.sl.r_13 m d h fs) (scratch_word 13 _ fs (m (lLoc d)) _)
      (k0_off14 (body₀.sl.r_13 m d h fs)) _ (rowWord_toNat 26624#32 _ (by decide)) rfl j)
    (fun j => payload_eq m d (14 : Fin 16) 28672#32 (by decide) (body₀.sl.r_14 m d h fs) (scratch_word 14 _ fs (m (lLoc d)) _)
      (k0_off15 (body₀.sl.r_14 m d h fs)) _ (rowWord_toNat 28672#32 _ (by decide)) rfl j)
    (fun j => payload_eq m d (15 : Fin 16) 30720#32 (by decide) (body₀.sl.r_15 m d h fs) (scratch_word 15 _ fs (m (lLoc d)) _)
      (k0_off16 (body₀.sl.r_15 m d h fs)) _ (rowWord_toNat 30720#32 _ (by decide)) rfl j)
  unfold fromCore
  isplitl [Hvd Hv0 Hv1 Hv2 Hv3 Hv4 Hv5 Hv6 Hv7 Hv8 Hv9 Hv10 Hv11 Hv12 Hv13 Hv14 Hv15 Hl' Ho']
  · isplitl [Hvd Hv0 Hv1 Hv2 Hv3 Hv4 Hv5 Hv6 Hv7 Hv8 Hv9 Hv10 Hv11 Hv12 Hv13 Hv14 Hv15]
    · iapply (Entails.of_eq (pts_v (F := F) d (c0 h) fullShare _))
      iapply (Transfers.pointsTo_toks_join fullShare 16)
      isplitl [Hvd]; · iexact Hvd
      iapply (Entails.of_eq (bigSep_fin16 (fun i : Fin 16 => ((vW).view.loc (S0 d h) ↦{Transfers.shareTok fullShare 16 i} flatOf m d : sProp 𝕄))).symm)
      isplitl [Hv0]; · iexact Hv0
      isplitl [Hv1]; · iexact Hv1
      isplitl [Hv2]; · iexact Hv2
      isplitl [Hv3]; · iexact Hv3
      isplitl [Hv4]; · iexact Hv4
      isplitl [Hv5]; · iexact Hv5
      isplitl [Hv6]; · iexact Hv6
      isplitl [Hv7]; · iexact Hv7
      isplitl [Hv8]; · iexact Hv8
      isplitl [Hv9]; · iexact Hv9
      isplitl [Hv10]; · iexact Hv10
      isplitl [Hv11]; · iexact Hv11
      isplitl [Hv12]; · iexact Hv12
      isplitl [Hv13]; · iexact Hv13
      isplitl [Hv14]; · iexact Hv14
      iexact Hv15
    isplitl [Hl']; · iapply (Entails.of_eq (pts_l (F := F) d (c0 h) _)); iexact Hl'
    iapply (Entails.of_eq (pts_o (F := F) d (c0 h) _))
    rw [← hval]
    iexact Ho'
  isplitl [Hsm' Hobr Hvb]
  · iapply ((K (F := F)).scopedBufs_S_intro hF d (c0 h))
    isplitl [Hsm' Hobr]
    · iapply (Entails.of_eq (ownBufs_S (F := F) d (c0 h)).symm)
      isplitl [Hsm']
      · iexists _; iapply (Entails.of_eq (pts_s (F := F) d (c0 h) _)); iexact Hsm'
      · iexact Hobr
    · iexact Hvb
  isplitl [Hs0 Hs1 Hs2 Hs3 Hs4 Hs5 Hs6 Hs7 Hs8 Hs9 Hs10 Hs11 Hs12 Hs13 Hs14 Hs15 Hs16 Hrest Hsubs]
  · iapply (SparseCore.Cfg.scopedSems0_S_intro (Val := Elt F) d (c0 h))
    isplitl [Hs0 Hs1 Hs2 Hs3 Hs4 Hs5 Hs6 Hs7 Hs8 Hs9 Hs10 Hs11 Hs12 Hs13 Hs14 Hs15 Hs16 Hrest]
    · iapply (Entails.of_eq (ownSems0_S (F := F) d (c0 h)).symm)
      isplitl [Hs0 Hs1 Hs2 Hs3 Hs4 Hs5 Hs6 Hs7 Hs8 Hs9 Hs10 Hs11 Hs12 Hs13 Hs14 Hs15 Hs16]
      · iapply (Entails.of_eq (bigSep_fin17 (fun k => (semVal (cell d (c0 h) k) 0 : sProp 𝕄))).symm)
        isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        isplitl [Hs6]; · iexact Hs6
        isplitl [Hs7]; · iexact Hs7
        isplitl [Hs8]; · iexact Hs8
        isplitl [Hs9]; · iexact Hs9
        isplitl [Hs10]; · iexact Hs10
        isplitl [Hs11]; · iexact Hs11
        isplitl [Hs12]; · iexact Hs12
        isplitl [Hs13]; · iexact Hs13
        isplitl [Hs14]; · iexact Hs14
        isplitl [Hs15]; · iexact Hs15
        iexact Hs16
      · iexact Hrest
    · iexact Hsubs
  iexists _; isplitr
  swap
  · iexact HO
  · ipureintro
    have key : ∀ (W₁ : Waits sig (HIx 1)) (a : SemLoc sig), (∀ p ∈ W₁, p ∈ W ∨ p.2 = none) →
        ∀ p ∈ insert (a, (default : HIx 1)) W₁, p ∈ W ∨ p.2 = none := by
      intro W₁ a hW₁ p hp
      rcases Finset.mem_insert.mp hp with rfl | hp
      · exact .inr rfl
      · exact hW₁ p hp
    repeat refine key _ _ ?_
    exact fun p hp => .inl hp

end Body

end Cert.Proof.KB

end
-- ==== Proof.KBLaunch.lean ====
/-
  The kernel's run at the word level, whole: the TensorCore's @main reshapes the batch into its flat `[32768, 1024]` view, starts the
  SparseCore call and waits for it; the call hands the one sequencer of its grid the flat view and the lengths and the result
  array, and takes them back with the result array filled. Every weakly fair execution of all the device's threads ends,
  faults nowhere, leaves the batch and the lengths as they were, and leaves in the result array, for each sequence `b`, row
  `(len b - 1) mod 2048` of that sequence.
-/
import proofs.«219430_g10557029613708_week1_w2_468_10_alg».proof.Proof.KBBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx
open Cert.LastStep Cert.LibFinSep

variable {F : FTy → Type}

local notation "𝕄" => MT nD τ sig (HIx 1) (Elt F) ℕ UU ℕ

local notation "vW" => (Memref.whole Cert.Kernel.main_v0_scs : Memref Cert.Kernel.sig Kind.scScalar Space.hbm Cert.Kernel.S32768x1024 EltTy.f32)
local notation "lW" => (Memref.whole Cert.Kernel.main_arg1_scs : Memref Cert.Kernel.sig Kind.scScalar Space.hbm Cert.Kernel.S16 EltTy.i32)
local notation "oW" => (Memref.whole Cert.Kernel.main_v1_scs : Memref Cert.Kernel.sig Kind.scScalar Space.hbm Cert.Kernel.S16x1024 EltTy.f32)
local notation "sW" => (Memref.whole Cert.Kernel.cc0_scratch0 : Memref Cert.Kernel.sig Kind.scScalar Space.smem Cert.Kernel.S16 EltTy.i32)

variable (m : (ℓ : Loc nD τ sig) → Buf (Elt F) ℓ) (ρ : Dev nD → PrngReg)

variable [FloatOps F]

/-! ## The launch theorem's obligation -/

theorem defs₀_scalar (c : Fin τ.nSC) :
    defs₀ (F := F) (.scScalar c) 0 ()
      = SparseCore.onCore hcore0 (fun c => cc0__laststep_body (coordsS c) vW (Memref.isWhole_whole _) lW (Memref.isWhole_whole _)
          oW (Memref.isWhole_whole _) sW (Memref.isWhole_whole _) cc0_scratch1 cc0_scoped0) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The call's one sequencer runs the body. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ forCore m d ∗ _) ⊢ wp _ _ _ _ (fun _ => iprop(fromCore m d ∗ _))
  match c with
  | ⟨0, h⟩ => exact (body₀ m d facts h O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev x' : DevRef τ sig := Proc.devRef .tc (main_arg0 : Ref sig .tc)
abbrev l' : DevRef τ sig := Proc.devRef .tc (main_arg1 : Ref sig .tc)
abbrev v' : DevRef τ sig := Proc.devRef .tc (main_v0 : Ref sig .tc)
abbrev o' : DevRef τ sig := Proc.devRef .tc (main_v1 : Ref sig .tc)
abbrev opRe : HloOp τ sig (Elt F) := StableHlo.reshape main_arg0 main_v0 rfl Facts₀.shapeCasts_S16x2048x1024_S32768x1024

/-- The TensorCore's arrays, all unscoped: the batch, the lengths, the flat view, the result. -/
abbrev S4 : Finset (DevRef τ sig) := {x', l', v', o'}

omit [FloatOps F] in
theorem held_S4 (d : Dev nD) (W : Valuation τ sig (Elt F)) :
    (held (T d) S4 W : sProp 𝕄) = iprop((xLoc d ↦{fullShare} W x') ∗ (lLoc d ↦{fullShare} W l') ∗ (vLoc d ↦{fullShare} W v') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (lLoc d ↦{fullShare} W main_arg1) ∗ (vLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem hRe : (opRe (F := F)).bufs ⊆ S4 := show ({x', v'} : Finset (DevRef τ sig)) ⊆ S4 by decide

/-- After the reshape: the flat view holds the batch's elements in row-major order, everything else what it held. -/
theorem held_V1 (d : Dev nD) :
    (held (T d) S4 ((opRe (F := F)).result (V0 m d)) : sProp 𝕄)
      = iprop((xLoc d ↦{fullShare} m (xLoc d)) ∗ (lLoc d ↦{fullShare} m (lLoc d)) ∗ (vLoc d ↦{fullShare} flatOf m d) ∗ oLoc d ↦{fullShare} m (oLoc d)) := by
  rw [held_S4,
    (opRe (F := F)).result_of_not_mem (V0 m d) (b := x') (show x' ∉ ({v'} : Finset (DevRef τ sig)) by decide),
    (opRe (F := F)).result_of_not_mem (V0 m d) (b := l') (show l' ∉ ({v'} : Finset (DevRef τ sig)) by decide),
    (opRe (F := F)).result_of_not_mem (V0 m d) (b := o') (show o' ∉ ({v'} : Finset (DevRef τ sig)) by decide),
    show (opRe (F := F)).result (V0 m d) v' = flatOf m d from
      StableHlo.reshape_result main_arg0 main_v0 rfl Facts₀.shapeCasts_S16x2048x1024_S32768x1024 ⟨by decide, rfl⟩ ⟨by decide, rfl⟩ (V0 m d)]
  rfl

/-- What the call takes for its one SparseCore, and what it hands back. -/
theorem st0_eq (d : Dev nD) : (bigSep Finset.univ fun c : Fin ((K (F := F)).nCore 0) => (P m).st 0 d c) = forCore m d := by
  show (bigSep (Finset.univ : Finset (Fin 1)) fun _ => forCore m d) = _
  rw [show (Finset.univ : Finset (Fin 1)) = {0} by decide, bigSep_singleton]
theorem dn0_eq (d : Dev nD) : (bigSep Finset.univ fun c : Fin ((K (F := F)).nCore 0) => (P m).dn 0 d c) = fromCore m d := by
  show (bigSep (Finset.univ : Finset (Fin 1)) fun _ => fromCore m d) = _
  rw [show (Finset.univ : Finset (Fin 1)) = {0} by decide, bigSep_singleton]

/-- What @main leaves the claim: the batch and the lengths at their launch contents, the result at the selected rows. -/
abbrev FIN (d : Dev nD) : sProp 𝕄 :=
  iprop((xLoc d ↦{fullShare} m (xLoc d)) ∗ (lLoc d ↦{fullShare} m (lLoc d)) ∗ oLoc d ↦{fullShare} outOf m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape: the flat view written from the batch
  iapply (wp_hlo_within 𝒱 (SparseCore.T d) none Set.univ (op := opRe) (S := S4) hRe (V := V0 m d)) $$ [Hb Hheld]
  · isplitl [Hb]; · iexact Hb
    iexact Hheld
  iintro ⟨Hb, Hheld⟩
  ihave Hh := (Entails.of_eq (held_V1 (F := F) m d)) $$ Hheld
  icases Hh with ⟨Hx, Hl, Hv, Ho⟩
  rw [wp_ret]; imodintro
  -- the call: the flat view, the lengths and the result array to the sequencer and back
  iapply ((K (F := F)).wp_run (D (F := F)) 𝒱 (EH := EH) (P := P m) κ d 0) $$ [Hst Hl Hv Ho Hx Hb]
  isplitr; · iexact Hctx
  isplitl [Hst]; · iexact Hst
  isplitl [Hl Hv Ho]
  · rw [st0_eq]; unfold forCore
    isplitl [Hv]; · iexact Hv
    isplitl [Hl]; · iexact Hl
    iexists _; iexact Ho
  iintro ⟨Hst, Hdn⟩
  ihave Hdn' := (Entails.of_eq (dn0_eq m d)) $$ Hdn
  unfold fromCore
  icases Hdn' with ⟨-, Hl, Ho⟩
  imodintro
  isplitl [Hst]; · iexact Hst
  isplitl [Hx]; · iexact Hx
  isplitl [Hl]; · iexact Hl
  iexact Ho

def fq (d : Dev nD) (s' : Phys nD τ sig (Elt F)) : Prop :=
  s'.mem.mem (oLoc d) = outOf m d ∧ s'.mem.mem (xLoc d) = m (xLoc d) ∧ s'.mem.mem (lLoc d) = m (lLoc d)

theorem hfin (d : Dev nD) (s' : Phys nD τ sig (Elt F)) : iprop(FIN m d ∗ SI s') ⊢ (⌜fq m d s'⌝ : sProp 𝕄) := by
  iintro ⟨⟨Hx, Hl, Ho⟩, HSI⟩
  icombine HSI Hx gives %hx
  icombine HSI Hl gives %hl
  icombine HSI Ho gives %ho
  ipureintro
  exact ⟨funext fun i => ho i (Finset.mem_univ i), funext fun i => hx i (Finset.mem_univ i), funext fun i => hl i (Finset.mem_univ i)⟩

/-! ## The program's run -/

def QC : PUnit × MemSt nD τ sig (Elt F) → Prop := fun r => ∀ c : Dev nD,
  r.2.mem (oLoc c) = outOf m c ∧ r.2.mem (xLoc c) = m (xLoc c) ∧ r.2.mem (lLoc c) = m (lLoc c)

theorem run_main [∀ e, Nonempty (Elt F e)] : θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h => h)

end Cert.Proof.KB

end
-- ==== Proof.KISetup.lean ====
/-
  The idealized kernel on the SparseCore sequencer: what the sequencer's body does to memory.

  The body first copies the sixteen length words into the sequencer's scalar memory and waits for that copy. Then, for each
  sequence `b`, it reads the word `len b`, forms the flat row number `2048 * b + ((len b - 1) &&& 2047)`, and starts a copy of
  that row of the flat `[32768, 1024]` array into row `b` of the `[16, 1024]` result, each copy completing on a semaphore of
  its own. Only after all sixteen copies are started does it wait for them, one by one. No copy's source or destination is
  touched between its start and its wait: the sources are rows of an array nobody writes, the destinations are sixteen
  different rows of the result. So when the body ends, row `b` of the result holds the selected row of sequence `b`, the flat
  array and the lengths are as they were.

  Every row number is in range whatever the length word is (the mask keeps it below 2048), so the body needs nothing of the
  precondition to run.
-/
import Idealize.ShloMosaic.Lib.SparseCore.Launch
import Idealize.ShloMosaic.Lib.StableHlo.Run
import Idealize.ShloMosaic.Lib.Pipeline.Kit
import Idealize.ShloMosaic.Lib.Tactic
import proofs.«219430_g10557029613708_week1_w2_468_10_alg».proof.KernelIdeal
import proofs.«219430_g10557029613708_week1_w2_468_10_alg».proof.Proof.Gen.KernelIdeal
import proofs.«219430_g10557029613708_week1_w2_468_10_alg».proof.Proof.Gen.KernelIdeal.Skeleton
import proofs.«219430_g10557029613708_week1_w2_468_10_alg».proof.Proof.RowWord
import proofs.«219430_g10557029613708_week1_w2_468_10_alg».proof.Proof.LibFinSep

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx
open Cert.LastStep

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

-- the kernel's memrefs, spelt as the body table passes them
local notation "vW" => (Memref.whole Cert.KernelIdeal.main_v0_scs : Memref Cert.KernelIdeal.sig Kind.scScalar Space.hbm Cert.KernelIdeal.S32768x1024 EltTy.f32)
local notation "lW" => (Memref.whole Cert.KernelIdeal.main_arg1_scs : Memref Cert.KernelIdeal.sig Kind.scScalar Space.hbm Cert.KernelIdeal.S16 EltTy.i32)
local notation "oW" => (Memref.whole Cert.KernelIdeal.main_v1_scs : Memref Cert.KernelIdeal.sig Kind.scScalar Space.hbm Cert.KernelIdeal.S16x1024 EltTy.f32)
local notation "sW" => (Memref.whole Cert.KernelIdeal.cc0_scratch0 : Memref Cert.KernelIdeal.sig Kind.scScalar Space.smem Cert.KernelIdeal.S16 EltTy.i32)

/-- The batch, the lengths, the flat view and the result, as the TensorCore names them. -/
abbrev xLoc (d : Dev nD) : Loc nD τ sig := (SparseCore.T d).loc main_arg0
abbrev lLoc (d : Dev nD) : Loc nD τ sig := (SparseCore.T d).loc main_arg1
abbrev vLoc (d : Dev nD) : Loc nD τ sig := (SparseCore.T d).loc main_v0
abbrev oLoc (d : Dev nD) : Loc nD τ sig := (SparseCore.T d).loc main_v1

/-- The flat `[32768, 1024]` view of the batch: what the host's reshape leaves in its result. -/
def flatOf (d : Dev nD) : Buf (Elt F) (vLoc d) :=
  shapeCast S32768x1024 (m (xLoc d)) Facts₀.shapeCasts_S16x2048x1024_S32768x1024

/-- The result: for each sequence the row its length word selects. -/
def outOf (d : Dev nD) : Buf (Elt F) (oLoc d) := lastRows (m (xLoc d)) (m (lLoc d))

variable [FloatOps F]

abbrev vPts (d : Dev nD) : sProp 𝕄 := vLoc d ↦{fullShare} flatOf m d
abbrev lPts (d : Dev nD) : sProp 𝕄 := lLoc d ↦{fullShare} m (lLoc d)
abbrev oPts (d : Dev nD) (f : Buf (Elt F) (oLoc d)) : sProp 𝕄 := oLoc d ↦{fullShare} f

/-- What the call hands the one SparseCore of its grid: the flat view and the lengths, and the result array at whatever it
    holds; and what it takes back: the same two, and the result at the selected rows. -/
def forCore (d : Dev nD) : sProp 𝕄 := iprop(vPts m d ∗ lPts m d ∗ ∃ f, oPts d f)
def fromCore (d : Dev nD) : sProp 𝕄 := iprop(vPts m d ∗ lPts m d ∗ oPts d (outOf m d))

instance forCore_storable (d : Dev nD) : BI.Storable (upEmb : UEmb _ 𝕄) (forCore m d) := by
  unfold forCore; infer_instance
instance fromCore_storable (d : Dev nD) : BI.Storable (upEmb : UEmb _ 𝕄) (fromCore m d) := by
  unfold fromCore; infer_instance

def P : (K (F := F)).Pay (nD := nD) (Val := Elt F) (Name := ℕ) (U := UU) where
  st := fun _ d _ => forCore m d
  dn := fun _ d _ => fromCore m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.Proof.KI

end
-- ==== Proof.KIRows.lean ====
/-
  Where one row of a matrix sits, for the three places the sequencer's body touches memory through a window.
  The result's window number k is row k of the [16, 1024] result, as a vector of 1024 entries: writing a vector
  through it replaces row k and nothing else. A source window at (r, c) of the flat [32768, 1024] array, squeezed
  to a vector, reads entry j at (r, c + j). The scalar memory's one-word window at k, after the sixteen length words
  were copied in whole, reads length word k.
-/
import proofs.«219430_g10557029613708_week1_w2_468_10_alg».proof.Proof.KISetup
import proofs.«219430_g10557029613708_week1_w2_468_10_alg».proof.Proof.LibRowView

noncomputable section

namespace Cert.Proof.KI

open Cert.KernelIdeal Cert.KernelIdeal.Gen Idealize.ShloMosaic Idealize.ShloMosaic.ValueIdx

variable {F : FTy → Type}

/-- Window k of the result places its entry j at row k, column j. -/
theorem out_row_emb (k : Nat) (hk : ∀ a, (![k, 0] : Fin 2 → Nat) a + S1x1024.size a ≤ S16x1024.size a)
    (hr : ∀ a, (Rect.unit (s := S16x1024) ![k, 0] S1x1024.size hk).stride a = 1) (hs : S1x1024.Squeezes S1024)
    (hk' : k < 16) (j : Fin 1024) :
    (((Memref.whole main_v1_scs : Memref sig .scScalar .hbm S16x1024 .f32).slice (Rect.unit (s := S16x1024) ![k, 0] S1x1024.size hk) hr).squeeze S1024 hs).view.emb (ix1 j) = ix2 (⟨k, hk'⟩ : Fin 16) j := by
  show (Rect.unit (s := S16x1024) ![k, 0] S1x1024.size hk).emb (Shape.reshapeEquiv hs.numel_eq (ix1 j)) = _
  refine (congrArg _ (Cert.LibRowView.reshape_row (C := 1024) hs.numel_eq j)).trans ?_
  refine (Cert.LibRowView.unit_emb_row (R := 16) (C := 1024) ![k, 0] hk j hk'
      (by show 0 + j.val < 1024; have := j.isLt; omega)).trans ?_
  exact congrArg (ix2 (⟨k, hk'⟩ : Fin 16)) (Fin.ext (Nat.zero_add _))

/-- Writing a vector p through window k of the result: row k becomes p, every other row is kept. -/
theorem row_write_apply (k : Nat) (hk : ∀ a, (![k, 0] : Fin 2 → Nat) a + S1x1024.size a ≤ S16x1024.size a)
    {hr : ∀ a, (Rect.unit (s := S16x1024) ![k, 0] S1x1024.size hk).stride a = 1} {hs : S1x1024.Squeezes S1024}
    (g : S16x1024.Idx → Elt F .f32) (p : S1024.Idx → Elt F .f32) (b : Fin 16) (j : Fin 1024) :
    View.write (Elt F) (((Memref.whole main_v1_scs : Memref sig .scScalar .hbm S16x1024 .f32).slice (Rect.unit (s := S16x1024) ![k, 0] S1x1024.size hk) hr).squeeze S1024 hs).view g p Finset.univ (ix2 b j) = if b.val = k then p (ix1 j) else g (ix2 b j) := by
  have hk' : k < 16 := by have := hk 0; exact this
  by_cases hb : b.val = k
  · rw [if_pos hb]
    have e : (ix2 b j : S16x1024.Idx) = (((Memref.whole main_v1_scs : Memref sig .scScalar .hbm S16x1024 .f32).slice (Rect.unit (s := S16x1024) ![k, 0] S1x1024.size hk) hr).squeeze S1024 hs).view.emb (ix1 j) := by
      rw [out_row_emb k hk hr hs hk']
      exact congrArg (fun t => ix2 t j) (Fin.ext hb)
    rw [e, View.write_emb_of_mem _ _ (Finset.mem_univ _)]
    exact cast_eq _ _
  · rw [if_neg hb]
    refine View.write_of_not_mem _ _ _ ?_
    intro hm
    obtain ⟨y, -, hy⟩ := Finset.mem_map.mp hm
    obtain ⟨j', rfl⟩ : ∃ j' : Fin 1024, y = ix1 j' := ⟨y 0, eq_ix1 y⟩
    rw [out_row_emb k hk hr hs hk'] at hy
    exact hb (congrArg (fun i : S16x1024.Idx => (i 0).val) hy).symm

/-- A source window at (off 0, off 1) of the flat array, squeezed to a vector, places its entry j at row off 0,
    column off 1 + j. -/
theorem src_row_emb (off : Fin 2 → Nat) (hin : ∀ a, off a + S1x1024.size a ≤ S32768x1024.size a)
    (hr : ∀ a, (Rect.unit (s := S32768x1024) off S1x1024.size hin).stride a = 1) (hs : S1x1024.Squeezes S1024)
    (j : Fin 1024) (h0 : off 0 < 32768) (h1 : off 1 + j.val < 1024) :
    (((Memref.whole main_v0_scs : Memref sig .scScalar .hbm S32768x1024 .f32).slice (Rect.unit (s := S32768x1024) off S1x1024.size hin) hr).squeeze S1024 hs).view.emb (ix1 j) = ix2 (⟨off 0, h0⟩ : Fin 32768) (⟨off 1 + j.val, h1⟩ : Fin 1024) := by
  show (Rect.unit (s := S32768x1024) off S1x1024.size hin).emb (Shape.reshapeEquiv hs.numel_eq (ix1 j)) = _
  refine (congrArg _ (Cert.LibRowView.reshape_row (C := 1024) hs.numel_eq j)).trans ?_
  exact Cert.LibRowView.unit_emb_row (R := 32768) (C := 1024) off hin j h0 h1

/-- What a transfer reads through such a source window: entry j is the flat array's at (off 0, off 1 + j). -/
theorem row_read_apply (off : Fin 2 → Nat) (hin : ∀ a, off a + S1x1024.size a ≤ S32768x1024.size a)
    {hr : ∀ a, (Rect.unit (s := S32768x1024) off S1x1024.size hin).stride a = 1} {hs : S1x1024.Squeezes S1024}
    (f : S32768x1024.Idx → Elt F .f32) (j : Fin 1024) :
    (ReadAs.same : ReadAs (Elt F) S1024 .f32 S1024 .f32).apply (View.read (Elt F) (((Memref.whole main_v0_scs : Memref sig .scScalar .hbm S32768x1024 .f32).slice (Rect.unit (s := S32768x1024) off S1x1024.size hin) hr).squeeze S1024 hs).view f) (ix1 j)
      = f (ix2 (⟨off 0, by have h : off 0 + 1 ≤ 32768 := hin 0; omega⟩ : Fin 32768)
            (⟨off 1 + j.val, by have h : off 1 + 1024 ≤ 1024 := hin 1; have := j.isLt; omega⟩ : Fin 1024)) := by
  show View.read (Elt F) (((Memref.whole main_v0_scs : Memref sig .scScalar .hbm S32768x1024 .f32).slice (Rect.unit (s := S32768x1024) off S1x1024.size hin) hr).squeeze S1024 hs).view f (ix1 j) = _
  rw [View.read_apply]
  refine (cast_eq _ _).trans ?_
  exact congrArg f (src_row_emb off hin hr hs j _ _)

/-- The scalar memory after the sixteen length words were copied in whole, read through its one-word window at k:
    length word k. -/
theorem scratch_word (k : Nat) (hk : ∀ a, (![k] : Fin 1 → Nat) a + S1.size a ≤ S16.size a)
    (fs : S16.Idx → Elt F .i32) (l : S16.Idx → Elt F .i32)
    (x : (Rect.unit (s := S16) ![k] S1.size hk).toLoadRect.shape.Idx) :
    View.readAt (Elt F) (Memref.whole cc0_scratch0 : Memref sig .scScalar .smem S16 .i32).view (Rect.unit (s := S16) ![k] S1.size hk).toLoadRect
        (View.write (Elt F) (Memref.whole cc0_scratch0 : Memref sig .scScalar .smem S16 .i32).view fs
          ((ReadAs.same : ReadAs (Elt F) S16 .i32 S16 .i32).apply (View.read (Elt F) (Memref.whole main_arg1_scs : Memref sig .scScalar .hbm S16 .i32).view l)) Finset.univ) x
      = l (ix1 (⟨k, by have h : k + 1 ≤ 16 := hk 0; omega⟩ : Fin 16)) := by
  rw [View.readAt_apply]
  show View.read (Elt F) (View.whole cc0_scratch0) (View.write (Elt F) (View.whole cc0_scratch0) fs l Finset.univ) _ = _
  rw [View.write_whole_univ]
  show l _ = _
  exact congrArg l (Cert.LibRowView.unit_idx_one (N := 16) k hk _ x)

end Cert.Proof.KI

end
-- ==== Proof.KIValue.lean ====
/-
  What the sixteen row copies leave in the result array. Copy `k` reads, from the flat view, the row numbered
  `2048 * k + ((len k - 1) &&& 2047)` — the word `len k` is what the sequencer's scalar memory holds at `k` after the lengths
  were copied in — and that row of the flat view is row `(len k - 1) mod 2048` of sequence `k`. The copies write the sixteen
  rows of the result, one each, so entry `(b, j)` of the result is what copy `b` wrote at `j`: the later copies' rows are other
  rows and leave it alone.
-/
import proofs.«219430_g10557029613708_week1_w2_468_10_alg».proof.Proof.KIRows

noncomputable section

namespace Cert.Proof.KI

open Cert.KernelIdeal Cert.KernelIdeal.Gen
open Idealize.ShloMosaic Idealize.ShloMosaic.ValueIdx
open Cert.LastStep

variable {F : FTy → Type}
variable (m : (ℓ : Loc nD τ sig) → Buf (Elt F) ℓ) (d : Dev nD)

/-- The flat view at row `p`, column `q`, when `p = 2048 * b + r` and `q = j` as numbers, is the batch at `(b, r, j)`. -/
theorem flat_at {α : Type} (x : (⟨3, ![16, 2048, 1024]⟩ : Shape).Idx → α)
    (hc : (⟨3, ![16, 2048, 1024]⟩ : Shape).ShapeCasts ⟨2, ![32768, 1024]⟩) (b : Fin 16) (r : Fin 2048) (j : Fin 1024)
    (p : Fin 32768) (q : Fin 1024) (hp : p.val = b.val * 2048 + r.val) (hq : q.val = j.val) :
    shapeCast ⟨2, ![32768, 1024]⟩ x hc (ix2 p q) = x (ix3 b r j) := by
  obtain rfl : j = q := Fin.ext hq.symm
  exact flat_apply x hc b r j p hp

set_option maxHeartbeats 1000000 in
/-- What copy `k` carries at column `j`: the flat view at the row whose number is the base `2048 * k` plus `(w - 1) &&& 2047`,
    where `w` is the length word of sequence `k` — that is, sequence `k`'s selected row at `j`. -/
theorem payload_eq (k : Fin 16) (c : BitVec 32) (hc : c.toNat = 2048 * k.val) (w : BitVec 32) (hw : w = m (lLoc d) (ix1 k))
    (off : Fin 2 → Nat) (hin : ∀ a, off a + S1x1024.size a ≤ S32768x1024.size a)
    (h0 : off 0 = c.toNat + (rowOf w).val) (h1 : off 1 = 0) (j : Fin 1024) :
    ReadAs.same.apply (View.read (Elt F) (((Memref.whole main_v0_scs : Memref sig .scScalar .hbm S32768x1024 .f32).slice
        (Rect.unit (s := S32768x1024) off S1x1024.size hin) (fun _ => rfl)).squeeze
          S1024 Facts₀.squeezes_S1x1024_S1024).view (flatOf m d)) (ix1 j)
      = m (xLoc d) (ix3 k (rowOf (m (lLoc d) (ix1 k))) j) := by
  rw [row_read_apply]
  subst hw
  unfold flatOf
  exact flat_at (m (xLoc d)) _ k (rowOf (m (lLoc d) (ix1 k))) j _ _ (by show off 0 = _; omega) (by show off 1 + j.val = _; omega)

set_option maxHeartbeats 4000000 in
/-- The result array after the sixteen row writes, entry by entry. -/
theorem out_value (fo : Buf (Elt F) (oLoc d)) (p0 p1 p2 p3 p4 p5 p6 p7 p8 p9 p10 p11 p12 p13 p14 p15 : S1024.Idx → Elt F .f32)
    (h0 : ∀ j : Fin 1024, p0 (ix1 j) = m (xLoc d) (ix3 (0 : Fin 16) (rowOf (m (lLoc d) (ix1 (0 : Fin 16)))) j))
    (h1 : ∀ j : Fin 1024, p1 (ix1 j) = m (xLoc d) (ix3 (1 : Fin 16) (rowOf (m (lLoc d) (ix1 (1 : Fin 16)))) j))
    (h2 : ∀ j : Fin 1024, p2 (ix1 j) = m (xLoc d) (ix3 (2 : Fin 16) (rowOf (m (lLoc d) (ix1 (2 : Fin 16)))) j))
    (h3 : ∀ j : Fin 1024, p3 (ix1 j) = m (xLoc d) (ix3 (3 : Fin 16) (rowOf (m (lLoc d) (ix1 (3 : Fin 16)))) j))
    (h4 : ∀ j : Fin 1024, p4 (ix1 j) = m (xLoc d) (ix3 (4 : Fin 16) (rowOf (m (lLoc d) (ix1 (4 : Fin 16)))) j))
    (h5 : ∀ j : Fin 1024, p5 (ix1 j) = m (xLoc d) (ix3 (5 : Fin 16) (rowOf (m (lLoc d) (ix1 (5 : Fin 16)))) j))
    (h6 : ∀ j : Fin 1024, p6 (ix1 j) = m (xLoc d) (ix3 (6 : Fin 16) (rowOf (m (lLoc d) (ix1 (6 : Fin 16)))) j))
    (h7 : ∀ j : Fin 1024, p7 (ix1 j) = m (xLoc d) (ix3 (7 : Fin 16) (rowOf (m (lLoc d) (ix1 (7 : Fin 16)))) j))
    (h8 : ∀ j : Fin 1024, p8 (ix1 j) = m (xLoc d) (ix3 (8 : Fin 16) (rowOf (m (lLoc d) (ix1 (8 : Fin 16)))) j))
    (h9 : ∀ j : Fin 1024, p9 (ix1 j) = m (xLoc d) (ix3 (9 : Fin 16) (rowOf (m (lLoc d) (ix1 (9 : Fin 16)))) j))
    (h10 : ∀ j : Fin 1024, p10 (ix1 j) = m (xLoc d) (ix3 (10 : Fin 16) (rowOf (m (lLoc d) (ix1 (10 : Fin 16)))) j))
    (h11 : ∀ j : Fin 1024, p11 (ix1 j) = m (xLoc d) (ix3 (11 : Fin 16) (rowOf (m (lLoc d) (ix1 (11 : Fin 16)))) j))
    (h12 : ∀ j : Fin 1024, p12 (ix1 j) = m (xLoc d) (ix3 (12 : Fin 16) (rowOf (m (lLoc d) (ix1 (12 : Fin 16)))) j))
    (h13 : ∀ j : Fin 1024, p13 (ix1 j) = m (xLoc d) (ix3 (13 : Fin 16) (rowOf (m (lLoc d) (ix1 (13 : Fin 16)))) j))
    (h14 : ∀ j : Fin 1024, p14 (ix1 j) = m (xLoc d) (ix3 (14 : Fin 16) (rowOf (m (lLoc d) (ix1 (14 : Fin 16)))) j))
    (h15 : ∀ j : Fin 1024, p15 (ix1 j) = m (xLoc d) (ix3 (15 : Fin 16) (rowOf (m (lLoc d) (ix1 (15 : Fin 16)))) j)) :
    (View.write (Elt F) (((Memref.whole main_v1_scs : Memref sig .scScalar .hbm S16x1024 .f32).slice (Rect.unit (s := S16x1024) ![15, 0] S1x1024.size Facts₀.inb_S16x1024_S1x1024_15_0) (fun _ => rfl)).squeeze S1024 Facts₀.squeezes_S1x1024_S1024).view
      (View.write (Elt F) (((Memref.whole main_v1_scs : Memref sig .scScalar .hbm S16x1024 .f32).slice (Rect.unit (s := S16x1024) ![14, 0] S1x1024.size Facts₀.inb_S16x1024_S1x1024_14_0) (fun _ => rfl)).squeeze S1024 Facts₀.squeezes_S1x1024_S1024).view
      (View.write (Elt F) (((Memref.whole main_v1_scs : Memref sig .scScalar .hbm S16x1024 .f32).slice (Rect.unit (s := S16x1024) ![13, 0] S1x1024.size Facts₀.inb_S16x1024_S1x1024_13_0) (fun _ => rfl)).squeeze S1024 Facts₀.squeezes_S1x1024_S1024).view
      (View.write (Elt F) (((Memref.whole main_v1_scs : Memref sig .scScalar .hbm S16x1024 .f32).slice (Rect.unit (s := S16x1024) ![12, 0] S1x1024.size Facts₀.inb_S16x1024_S1x1024_12_0) (fun _ => rfl)).squeeze S1024 Facts₀.squeezes_S1x1024_S1024).view
      (View.write (Elt F) (((Memref.whole main_v1_scs : Memref sig .scScalar .hbm S16x1024 .f32).slice (Rect.unit (s := S16x1024) ![11, 0] S1x1024.size Facts₀.inb_S16x1024_S1x1024_11_0) (fun _ => rfl)).squeeze S1024 Facts₀.squeezes_S1x1024_S1024).view
      (View.write (Elt F) (((Memref.whole main_v1_scs : Memref sig .scScalar .hbm S16x1024 .f32).slice (Rect.unit (s := S16x1024) ![10, 0] S1x1024.size Facts₀.inb_S16x1024_S1x1024_10_0) (fun _ => rfl)).squeeze S1024 Facts₀.squeezes_S1x1024_S1024).view
      (View.write (Elt F) (((Memref.whole main_v1_scs : Memref sig .scScalar .hbm S16x1024 .f32).slice (Rect.unit (s := S16x1024) ![9, 0] S1x1024.size Facts₀.inb_S16x1024_S1x1024_9_0) (fun _ => rfl)).squeeze S1024 Facts₀.squeezes_S1x1024_S1024).view
      (View.write (Elt F) (((Memref.whole main_v1_scs : Memref sig .scScalar .hbm S16x1024 .f32).slice (Rect.unit (s := S16x1024) ![8, 0] S1x1024.size Facts₀.inb_S16x1024_S1x1024_8_0) (fun _ => rfl)).squeeze S1024 Facts₀.squeezes_S1x1024_S1024).view
      (View.write (Elt F) (((Memref.whole main_v1_scs : Memref sig .scScalar .hbm S16x1024 .f32).slice (Rect.unit (s := S16x1024) ![7, 0] S1x1024.size Facts₀.inb_S16x1024_S1x1024_7_0) (fun _ => rfl)).squeeze S1024 Facts₀.squeezes_S1x1024_S1024).view
      (View.write (Elt F) (((Memref.whole main_v1_scs : Memref sig .scScalar .hbm S16x1024 .f32).slice (Rect.unit (s := S16x1024) ![6, 0] S1x1024.size Facts₀.inb_S16x1024_S1x1024_6_0) (fun _ => rfl)).squeeze S1024 Facts₀.squeezes_S1x1024_S1024).view
      (View.write (Elt F) (((Memref.whole main_v1_scs : Memref sig .scScalar .hbm S16x1024 .f32).slice (Rect.unit (s := S16x1024) ![5, 0] S1x1024.size Facts₀.inb_S16x1024_S1x1024_5_0) (fun _ => rfl)).squeeze S1024 Facts₀.squeezes_S1x1024_S1024).view
      (View.write (Elt F) (((Memref.whole main_v1_scs : Memref sig .scScalar .hbm S16x1024 .f32).slice (Rect.unit (s := S16x1024) ![4, 0] S1x1024.size Facts₀.inb_S16x1024_S1x1024_4_0) (fun _ => rfl)).squeeze S1024 Facts₀.squeezes_S1x1024_S1024).view
      (View.write (Elt F) (((Memref.whole main_v1_scs : Memref sig .scScalar .hbm S16x1024 .f32).slice (Rect.unit (s := S16x1024) ![3, 0] S1x1024.size Facts₀.inb_S16x1024_S1x1024_3_0) (fun _ => rfl)).squeeze S1024 Facts₀.squeezes_S1x1024_S1024).view
      (View.write (Elt F) (((Memref.whole main_v1_scs : Memref sig .scScalar .hbm S16x1024 .f32).slice (Rect.unit (s := S16x1024) ![2, 0] S1x1024.size Facts₀.inb_S16x1024_S1x1024_2_0) (fun _ => rfl)).squeeze S1024 Facts₀.squeezes_S1x1024_S1024).view
      (View.write (Elt F) (((Memref.whole main_v1_scs : Memref sig .scScalar .hbm S16x1024 .f32).slice (Rect.unit (s := S16x1024) ![1, 0] S1x1024.size Facts₀.inb_S16x1024_S1x1024_1_0) (fun _ => rfl)).squeeze S1024 Facts₀.squeezes_S1x1024_S1024).view
      (View.write (Elt F) (((Memref.whole main_v1_scs : Memref sig .scScalar .hbm S16x1024 .f32).slice (Rect.unit (s := S16x1024) ![0, 0] S1x1024.size Facts₀.inb_S16x1024_S1x1024_0_0) (fun _ => rfl)).squeeze S1024 Facts₀.squeezes_S1x1024_S1024).view
      fo p0 Finset.univ) p1 Finset.univ) p2 Finset.univ) p3 Finset.univ) p4 Finset.univ) p5 Finset.univ) p6 Finset.univ) p7 Finset.univ) p8 Finset.univ) p9 Finset.univ) p10 Finset.univ) p11 Finset.univ) p12 Finset.univ) p13 Finset.univ) p14 Finset.univ) p15 Finset.univ)
      = outOf m d := by
  funext i
  obtain ⟨b, j, rfl⟩ : ∃ (b : Fin 16) (j : Fin 1024), i = ix2 b j := ⟨i 0, i 1, eq_ix2 i⟩
  rw [row_write_apply]
  by_cases e15 : b.val = 15
  · rw [if_pos e15]
    obtain rfl : b = (15 : Fin 16) := Fin.ext e15
    exact h15 j
  rw [if_neg e15, row_write_apply]
  by_cases e14 : b.val = 14
  · rw [if_pos e14]
    obtain rfl : b = (14 : Fin 16) := Fin.ext e14
    exact h14 j
  rw [if_neg e14, row_write_apply]
  by_cases e13 : b.val = 13
  · rw [if_pos e13]
    obtain rfl : b = (13 : Fin 16) := Fin.ext e13
    exact h13 j
  rw [if_neg e13, row_write_apply]
  by_cases e12 : b.val = 12
  · rw [if_pos e12]
    obtain rfl : b = (12 : Fin 16) := Fin.ext e12
    exact h12 j
  rw [if_neg e12, row_write_apply]
  by_cases e11 : b.val = 11
  · rw [if_pos e11]
    obtain rfl : b = (11 : Fin 16) := Fin.ext e11
    exact h11 j
  rw [if_neg e11, row_write_apply]
  by_cases e10 : b.val = 10
  · rw [if_pos e10]
    obtain rfl : b = (10 : Fin 16) := Fin.ext e10
    exact h10 j
  rw [if_neg e10, row_write_apply]
  by_cases e9 : b.val = 9
  · rw [if_pos e9]
    obtain rfl : b = (9 : Fin 16) := Fin.ext e9
    exact h9 j
  rw [if_neg e9, row_write_apply]
  by_cases e8 : b.val = 8
  · rw [if_pos e8]
    obtain rfl : b = (8 : Fin 16) := Fin.ext e8
    exact h8 j
  rw [if_neg e8, row_write_apply]
  by_cases e7 : b.val = 7
  · rw [if_pos e7]
    obtain rfl : b = (7 : Fin 16) := Fin.ext e7
    exact h7 j
  rw [if_neg e7, row_write_apply]
  by_cases e6 : b.val = 6
  · rw [if_pos e6]
    obtain rfl : b = (6 : Fin 16) := Fin.ext e6
    exact h6 j
  rw [if_neg e6, row_write_apply]
  by_cases e5 : b.val = 5
  · rw [if_pos e5]
    obtain rfl : b = (5 : Fin 16) := Fin.ext e5
    exact h5 j
  rw [if_neg e5, row_write_apply]
  by_cases e4 : b.val = 4
  · rw [if_pos e4]
    obtain rfl : b = (4 : Fin 16) := Fin.ext e4
    exact h4 j
  rw [if_neg e4, row_write_apply]
  by_cases e3 : b.val = 3
  · rw [if_pos e3]
    obtain rfl : b = (3 : Fin 16) := Fin.ext e3
    exact h3 j
  rw [if_neg e3, row_write_apply]
  by_cases e2 : b.val = 2
  · rw [if_pos e2]
    obtain rfl : b = (2 : Fin 16) := Fin.ext e2
    exact h2 j
  rw [if_neg e2, row_write_apply]
  by_cases e1 : b.val = 1
  · rw [if_pos e1]
    obtain rfl : b = (1 : Fin 16) := Fin.ext e1
    exact h1 j
  rw [if_neg e1, row_write_apply]
  by_cases e0 : b.val = 0
  · rw [if_pos e0]
    obtain rfl : b = (0 : Fin 16) := Fin.ext e0
    exact h0 j
  exfalso; have := b.isLt; omega

end Cert.Proof.KI

end
-- ==== Proof.KIBody.lean ====
/-
  The sequencer's body, run: from the flat view and the lengths (read only) and the result array, the sequencer's scalar
  memory and its seventeen transfer semaphores at zero, the body runs to its end, faults nowhere, and leaves the result array
  holding, in row `b`, row `2048 * b + ((len b - 1) &&& 2047)` of the flat view — which is row `(len b - 1) mod 2048` of
  sequence `b`.

  The sixteen row copies are in flight together. Each reads one row of the flat view: the view is held under sixteen read
  shares, one lent to each copy, so no copy waits for another's source. Each writes one row of the result, and the sixteen
  rows are different, so the result array is lent row by row. Each copy completes on its own semaphore, so each wait finds
  exactly its own copy.
-/
import proofs.«219430_g10557029613708_week1_w2_468_10_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.LastStep Cert.LibFinSep

variable {F : FTy → Type}

local notation "𝕄" => MT nD τ sig (HIx 1) (Elt F) ℕ UU ℕ

local notation "vW" => (Memref.whole Cert.KernelIdeal.main_v0_scs : Memref Cert.KernelIdeal.sig Kind.scScalar Space.hbm Cert.KernelIdeal.S32768x1024 EltTy.f32)
local notation "lW" => (Memref.whole Cert.KernelIdeal.main_arg1_scs : Memref Cert.KernelIdeal.sig Kind.scScalar Space.hbm Cert.KernelIdeal.S16 EltTy.i32)
local notation "oW" => (Memref.whole Cert.KernelIdeal.main_v1_scs : Memref Cert.KernelIdeal.sig Kind.scScalar Space.hbm Cert.KernelIdeal.S16x1024 EltTy.f32)
local notation "sW" => (Memref.whole Cert.KernelIdeal.cc0_scratch0 : Memref Cert.KernelIdeal.sig Kind.scScalar Space.smem Cert.KernelIdeal.S16 EltTy.i32)

/-! ## Every row number is in range, whatever the length word -/

theorem chk1_all (i : grid0.Coords) (v : BitVec 32) : k0_chk1 i v :=
  ⟨fun _ => row_inb 0#32 v (by decide), fun _ => row_inb 0#32 v (by decide)⟩
theorem chk2_all (i : grid0.Coords) (v : BitVec 32) : k0_chk2 i v :=
  ⟨fun _ => row_inb 2048#32 v (by decide), fun _ => row_inb 2048#32 v (by decide)⟩
theorem chk3_all (i : grid0.Coords) (v : BitVec 32) : k0_chk3 i v :=
  ⟨fun _ => row_inb 4096#32 v (by decide), fun _ => row_inb 4096#32 v (by decide)⟩
theorem chk4_all (i : grid0.Coords) (v : BitVec 32) : k0_chk4 i v :=
  ⟨fun _ => row_inb 6144#32 v (by decide), fun _ => row_inb 6144#32 v (by decide)⟩
theorem chk5_all (i : grid0.Coords) (v : BitVec 32) : k0_chk5 i v :=
  ⟨fun _ => row_inb 8192#32 v (by decide), fun _ => row_inb 8192#32 v (by decide)⟩
theorem chk6_all (i : grid0.Coords) (v : BitVec 32) : k0_chk6 i v :=
  ⟨fun _ => row_inb 10240#32 v (by decide), fun _ => row_inb 10240#32 v (by decide)⟩
theorem chk7_all (i : grid0.Coords) (v : BitVec 32) : k0_chk7 i v :=
  ⟨fun _ => row_inb 12288#32 v (by decide), fun _ => row_inb 12288#32 v (by decide)⟩
theorem chk8_all (i : grid0.Coords) (v : BitVec 32) : k0_chk8 i v :=
  ⟨fun _ => row_inb 14336#32 v (by decide), fun _ => row_inb 14336#32 v (by decide)⟩
theorem chk9_all (i : grid0.Coords) (v : BitVec 32) : k0_chk9 i v :=
  ⟨fun _ => row_inb 16384#32 v (by decide), fun _ => row_inb 16384#32 v (by decide)⟩
theorem chk10_all (i : grid0.Coords) (v : BitVec 32) : k0_chk10 i v :=
  ⟨fun _ => row_inb 18432#32 v (by decide), fun _ => row_inb 18432#32 v (by decide)⟩
theorem chk11_all (i : grid0.Coords) (v : BitVec 32) : k0_chk11 i v :=
  ⟨fun _ => row_inb 20480#32 v (by decide), fun _ => row_inb 20480#32 v (by decide)⟩
theorem chk12_all (i : grid0.Coords) (v : BitVec 32) : k0_chk12 i v :=
  ⟨fun _ => row_inb 22528#32 v (by decide), fun _ => row_inb 22528#32 v (by decide)⟩
theorem chk13_all (i : grid0.Coords) (v : BitVec 32) : k0_chk13 i v :=
  ⟨fun _ => row_inb 24576#32 v (by decide), fun _ => row_inb 24576#32 v (by decide)⟩
theorem chk14_all (i : grid0.Coords) (v : BitVec 32) : k0_chk14 i v :=
  ⟨fun _ => row_inb 26624#32 v (by decide), fun _ => row_inb 26624#32 v (by decide)⟩
theorem chk15_all (i : grid0.Coords) (v : BitVec 32) : k0_chk15 i v :=
  ⟨fun _ => row_inb 28672#32 v (by decide), fun _ => row_inb 28672#32 v (by decide)⟩
theorem chk16_all (i : grid0.Coords) (v : BitVec 32) : k0_chk16 i v :=
  fun _ => row_inb 30720#32 v (by decide)

variable (m : (ℓ : Loc nD τ sig) → Buf (Elt F) ℓ)

section Body

variable (d : Dev nD)

def coordsS (c : Fin (grid0.bound 0)) : grid0.Coords := fun | 0 => c | ⟨_ + 1, h⟩ => absurd h (Nat.not_lt.2 (Nat.le_add_left _ _))

/-! ## The sequencer's own semaphores and scalar memory, named one by one -/

abbrev cell (c : Fin τ.nSC) (k : DmaSem sig) : GSem nD τ sig := (S d c, SemLoc.dma k)

def dmaCells (c : Fin τ.nSC) : Finset (GSem nD τ sig) := Finset.univ.image (cell d c)

theorem dmaCells_sub (c : Fin τ.nSC) : dmaCells d c ⊆ ownCells (S d c) := by
  intro g hg
  obtain ⟨k, -, rfl⟩ := Finset.mem_image.mp hg
  exact (mem_ownCells (g := cell d c k)).mpr ⟨rfl, by show (SemLoc.dma k : SemLoc sig).isScoped .scScalar = true; clear hg; revert k; decide⟩

theorem ownSems0_S (c : Fin τ.nSC) :
    (ownSems0 (S d c) : sProp 𝕄)
      = iprop((bigSep (Finset.univ : Finset (Fin 17)) fun k => semVal (cell d c k) 0)
          ∗ bigSep (ownCells (S d c) \ dmaCells d c) fun g => semVal g 0) := by
  unfold SparseCore.Cfg.ownSems0
  rw [SparseCore.bigSep_sdiff_split' (dmaCells_sub d c)]
  unfold dmaCells
  rw [SparseCore.bigSep_image_of_injOn (fun a _ b _ e => by
    have := (Prod.mk.inj e).2; exact SemLoc.dma.inj this)]

/-- The sequencer's scalar memory is among its own buffers. -/
theorem ownBufs_S (c : Fin τ.nSC) :
    (ownBufs (S d c) : sProp 𝕄)
      = iprop((∃ f, (S d c).loc cc0_scratch0 ↦{fullShare} f)
          ∗ bigSep ((ownRefs (τ := τ) (.scScalar c)).erase ((Proc.scScalar c).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scScalar c) (b := (Proc.scScalar c).devRef cc0_scratch0) rfl)

/-- The arrays as the sequencer's memrefs address them are the TensorCore's arrays. -/
theorem pts_v (c : Fin τ.nSC) (q : PosShare TreeShare) (f : Buf (Elt F) (vLoc d)) :
    ((vW).view.loc (S d c) ↦{q} f : sProp 𝕄) = vLoc d ↦{q} f := by
  simp only [Memref.view_whole, View.set_whole]
theorem pts_l (c : Fin τ.nSC) (f : Buf (Elt F) (lLoc d)) :
    ((lW).view.loc (S d c) ↦{fullShare} f : sProp 𝕄) = lLoc d ↦{fullShare} f := by
  simp only [Memref.view_whole, View.set_whole]
theorem pts_o (c : Fin τ.nSC) (f : Buf (Elt F) (oLoc d)) :
    ((oW).view.loc (S d c) ↦{fullShare} f : sProp 𝕄) = oLoc d ↦{fullShare} f := by
  simp only [Memref.view_whole, View.set_whole]
theorem pts_s (c : Fin τ.nSC) (f : Buf (Elt F) ((S d c).loc cc0_scratch0)) :
    ((sW).view.loc (S d c) ↦{fullShare} f : sProp 𝕄) = (S d c).loc cc0_scratch0 ↦{fullShare} f := by
  simp only [Memref.view_whole, View.set_whole]

/-- SparseCore 0's sequencer thread. -/
abbrev S0 (h : 0 < grid0.bound 0) : Thread nD τ := S d ((⟨0, h⟩ : Fin (grid0.bound 0)).castLE hcore0)
abbrev c0 (h : 0 < grid0.bound 0) : Fin τ.nSC := (⟨0, h⟩ : Fin (grid0.bound 0)).castLE hcore0

variable [FloatOps F]

set_option maxHeartbeats 4000000 in
theorem body₀ (hF : (K (F := F)).Facts) (h : 0 < grid0.bound 0) (O : CellTallies nD τ sig (HIx 1)) (W : Waits sig (HIx 1)) (hO : ∀ g, O g none = 0) :
    iprop(levAts (K (F := F)).L (K (F := F)).lev ∗ emp ∗ forCore m d
        ∗ scopedBufs (S0 d h) ∗ scopedSems0 (S0 d h) ∗ owes (S0 d h) O W)
      ⊢ wp frame (wpE (defs₀ (F := F)) 𝒱₀ (S0 d h) none) Set.univ
          (cc0__laststep_body (coordsS ⟨0, h⟩) vW (Memref.isWhole_whole _) lW (Memref.isWhole_whole _) oW (Memref.isWhole_whole _)
            sW (Memref.isWhole_whole _) cc0_scratch1 cc0_scoped0)
          fun _ => iprop(fromCore m d ∗ scopedBufs (S0 d h) ∗ scopedSems0 (S0 d h) ∗ ∃ W', ⌜∀ p ∈ W', p ∈ W ∨ p.2 = none⌝ ∗ owes (S0 d h) O W') := by
  have k0_h1 : k0_cond1 (coordsS ⟨0, h⟩) = 1#1 := by decide +revert
  simp only [cc0__laststep_body_eq_skeleton]; unfold cc0__laststep_body_skel
  unfold forCore
  iintro ⟨#Hlv, -, ⟨Hv, Hl, %fo, Ho⟩, Hsb, Hss, HO⟩
  ihave Hss' := (SparseCore.Cfg.scopedSems0_S_elim (Val := Elt F) d (c0 h)) $$ Hss
  icases Hss' with ⟨Hown, Hsubs⟩
  ihave Hown' := (Entails.of_eq (ownSems0_S (F := F) d (c0 h))) $$ Hown
  icases Hown' with ⟨Hsems, Hrest⟩
  ihave Hsems' := (Entails.of_eq (bigSep_fin17 (fun k => (semVal (cell d (c0 h) k) 0 : sProp 𝕄)))) $$ Hsems
  icases Hsems' with ⟨Hs0, Hs1, Hs2, Hs3, Hs4, Hs5, Hs6, Hs7, Hs8, Hs9, Hs10, Hs11, Hs12, Hs13, Hs14, Hs15, Hs16⟩
  ihave Hsb' := ((K (F := F)).scopedBufs_S_elim hF d (c0 h)) $$ Hsb
  icases Hsb' with ⟨Hob, Hvb⟩
  ihave Hob' := (Entails.of_eq (ownBufs_S (F := F) d (c0 h))) $$ Hob
  icases Hob' with ⟨⟨%fs, Hsm⟩, Hobr⟩
  ihave Hmw := ((K (F := F)).mayWaits_none (thr := S0 d h) hO) $$ Hlv
  ihave Hv' := (Entails.of_eq (pts_v (F := F) d (c0 h) fullShare _).symm) $$ Hv
  ihave Hl' := (Entails.of_eq (pts_l (F := F) d (c0 h) _).symm) $$ Hl
  ihave Ho' := (Entails.of_eq (pts_o (F := F) d (c0 h) _).symm) $$ Ho
  ihave Hsm' := (Entails.of_eq (pts_s (F := F) d (c0 h) _).symm) $$ Hsm
  ihave Hvt := (Transfers.pointsTo_toks_split fullShare 16) $$ Hv'
  icases Hvt with ⟨Hvd, Hvts⟩
  ihave Hvts' := (Entails.of_eq (bigSep_fin16 (fun i : Fin 16 => ((vW).view.loc (S0 d h) ↦{Transfers.shareTok fullShare 16 i} flatOf m d : sProp 𝕄)))) $$ Hvts
  icases Hvts' with ⟨Hv0, Hv1, Hv2, Hv3, Hv4, Hv5, Hv6, Hv7, Hv8, Hv9, Hv10, Hv11, Hv12, Hv13, Hv14, Hv15⟩
  set_option sl_exec.dmaWindow true in
  sl_exec (disch := first | sl_exact chk1_all _ _ | sl_exact chk2_all _ _ | sl_exact chk3_all _ _ | sl_exact chk4_all _ _ | sl_exact chk5_all _ _ | sl_exact chk6_all _ _ | sl_exact chk7_all _ _ | sl_exact chk8_all _ _ | sl_exact chk9_all _ _ | sl_exact chk10_all _ _ | sl_exact chk11_all _ _ | sl_exact chk12_all _ _ | sl_exact chk13_all _ _ | sl_exact chk14_all _ _ | sl_exact chk15_all _ _ | sl_exact chk16_all _ _)
  sl_step
  -- what the sixteen copies wrote is the array of selected rows
  have hval := out_value m d fo (body₀.sl.dma1 m d h k0_h1 fs) (body₀.sl.dma2 m d h k0_h1 fs) (body₀.sl.dma3 m d h k0_h1 fs) (body₀.sl.dma4 m d h k0_h1 fs) (body₀.sl.dma5 m d h k0_h1 fs) (body₀.sl.dma6 m d h k0_h1 fs) (body₀.sl.dma7 m d h k0_h1 fs) (body₀.sl.dma8 m d h k0_h1 fs) (body₀.sl.dma9 m d h k0_h1 fs) (body₀.sl.dma10 m d h k0_h1 fs) (body₀.sl.dma11 m d h k0_h1 fs) (body₀.sl.dma12 m d h k0_h1 fs) (body₀.sl.dma13 m d h k0_h1 fs) (body₀.sl.dma14 m d h k0_h1 fs) (body₀.sl.dma15 m d h k0_h1 fs) (body₀.sl.dma16 m d h k0_h1 fs)
    (fun j => payload_eq m d (0 : Fin 16) 0#32 (by decide) (body₀.sl.r m d h fs) (scratch_word 0 _ fs (m (lLoc d)) _)
      (k0_off1 (body₀.sl.r m d h fs)) _ (rowWord_toNat 0#32 _ (by decide)) rfl j)
    (fun j => payload_eq m d (1 : Fin 16) 2048#32 (by decide) (body₀.sl.r_1 m d h fs) (scratch_word 1 _ fs (m (lLoc d)) _)
      (k0_off2 (body₀.sl.r_1 m d h fs)) _ (rowWord_toNat 2048#32 _ (by decide)) rfl j)
    (fun j => payload_eq m d (2 : Fin 16) 4096#32 (by decide) (body₀.sl.r_2 m d h fs) (scratch_word 2 _ fs (m (lLoc d)) _)
      (k0_off3 (body₀.sl.r_2 m d h fs)) _ (rowWord_toNat 4096#32 _ (by decide)) rfl j)
    (fun j => payload_eq m d (3 : Fin 16) 6144#32 (by decide) (body₀.sl.r_3 m d h fs) (scratch_word 3 _ fs (m (lLoc d)) _)
      (k0_off4 (body₀.sl.r_3 m d h fs)) _ (rowWord_toNat 6144#32 _ (by decide)) rfl j)
    (fun j => payload_eq m d (4 : Fin 16) 8192#32 (by decide) (body₀.sl.r_4 m d h fs) (scratch_word 4 _ fs (m (lLoc d)) _)
      (k0_off5 (body₀.sl.r_4 m d h fs)) _ (rowWord_toNat 8192#32 _ (by decide)) rfl j)
    (fun j => payload_eq m d (5 : Fin 16) 10240#32 (by decide) (body₀.sl.r_5 m d h fs) (scratch_word 5 _ fs (m (lLoc d)) _)
      (k0_off6 (body₀.sl.r_5 m d h fs)) _ (rowWord_toNat 10240#32 _ (by decide)) rfl j)
    (fun j => payload_eq m d (6 : Fin 16) 12288#32 (by decide) (body₀.sl.r_6 m d h fs) (scratch_word 6 _ fs (m (lLoc d)) _)
      (k0_off7 (body₀.sl.r_6 m d h fs)) _ (rowWord_toNat 12288#32 _ (by decide)) rfl j)
    (fun j => payload_eq m d (7 : Fin 16) 14336#32 (by decide) (body₀.sl.r_7 m d h fs) (scratch_word 7 _ fs (m (lLoc d)) _)
      (k0_off8 (body₀.sl.r_7 m d h fs)) _ (rowWord_toNat 14336#32 _ (by decide)) rfl j)
    (fun j => payload_eq m d (8 : Fin 16) 16384#32 (by decide) (body₀.sl.r_8 m d h fs) (scratch_word 8 _ fs (m (lLoc d)) _)
      (k0_off9 (body₀.sl.r_8 m d h fs)) _ (rowWord_toNat 16384#32 _ (by decide)) rfl j)
    (fun j => payload_eq m d (9 : Fin 16) 18432#32 (by decide) (body₀.sl.r_9 m d h fs) (scratch_word 9 _ fs (m (lLoc d)) _)
      (k0_off10 (body₀.sl.r_9 m d h fs)) _ (rowWord_toNat 18432#32 _ (by decide)) rfl j)
    (fun j => payload_eq m d (10 : Fin 16) 20480#32 (by decide) (body₀.sl.r_10 m d h fs) (scratch_word 10 _ fs (m (lLoc d)) _)
      (k0_off11 (body₀.sl.r_10 m d h fs)) _ (rowWord_toNat 20480#32 _ (by decide)) rfl j)
    (fun j => payload_eq m d (11 : Fin 16) 22528#32 (by decide) (body₀.sl.r_11 m d h fs) (scratch_word 11 _ fs (m (lLoc d)) _)
      (k0_off12 (body₀.sl.r_11 m d h fs)) _ (rowWord_toNat 22528#32 _ (by decide)) rfl j)
    (fun j => payload_eq m d (12 : Fin 16) 24576#32 (by decide) (body₀.sl.r_12 m d h fs) (scratch_word 12 _ fs (m (lLoc d)) _)
      (k0_off13 (body₀.sl.r_12 m d h fs)) _ (rowWord_toNat 24576#32 _ (by decide)) rfl j)
    (fun j => payload_eq m d (13 : Fin 16) 26624#32 (by decide) (body₀.sl.r_13 m d h fs) (scratch_word 13 _ fs (m (lLoc d)) _)
      (k0_off14 (body₀.sl.r_13 m d h fs)) _ (rowWord_toNat 26624#32 _ (by decide)) rfl j)
    (fun j => payload_eq m d (14 : Fin 16) 28672#32 (by decide) (body₀.sl.r_14 m d h fs) (scratch_word 14 _ fs (m (lLoc d)) _)
      (k0_off15 (body₀.sl.r_14 m d h fs)) _ (rowWord_toNat 28672#32 _ (by decide)) rfl j)
    (fun j => payload_eq m d (15 : Fin 16) 30720#32 (by decide) (body₀.sl.r_15 m d h fs) (scratch_word 15 _ fs (m (lLoc d)) _)
      (k0_off16 (body₀.sl.r_15 m d h fs)) _ (rowWord_toNat 30720#32 _ (by decide)) rfl j)
  unfold fromCore
  isplitl [Hvd Hv0 Hv1 Hv2 Hv3 Hv4 Hv5 Hv6 Hv7 Hv8 Hv9 Hv10 Hv11 Hv12 Hv13 Hv14 Hv15 Hl' Ho']
  · isplitl [Hvd Hv0 Hv1 Hv2 Hv3 Hv4 Hv5 Hv6 Hv7 Hv8 Hv9 Hv10 Hv11 Hv12 Hv13 Hv14 Hv15]
    · iapply (Entails.of_eq (pts_v (F := F) d (c0 h) fullShare _))
      iapply (Transfers.pointsTo_toks_join fullShare 16)
      isplitl [Hvd]; · iexact Hvd
      iapply (Entails.of_eq (bigSep_fin16 (fun i : Fin 16 => ((vW).view.loc (S0 d h) ↦{Transfers.shareTok fullShare 16 i} flatOf m d : sProp 𝕄))).symm)
      isplitl [Hv0]; · iexact Hv0
      isplitl [Hv1]; · iexact Hv1
      isplitl [Hv2]; · iexact Hv2
      isplitl [Hv3]; · iexact Hv3
      isplitl [Hv4]; · iexact Hv4
      isplitl [Hv5]; · iexact Hv5
      isplitl [Hv6]; · iexact Hv6
      isplitl [Hv7]; · iexact Hv7
      isplitl [Hv8]; · iexact Hv8
      isplitl [Hv9]; · iexact Hv9
      isplitl [Hv10]; · iexact Hv10
      isplitl [Hv11]; · iexact Hv11
      isplitl [Hv12]; · iexact Hv12
      isplitl [Hv13]; · iexact Hv13
      isplitl [Hv14]; · iexact Hv14
      iexact Hv15
    isplitl [Hl']; · iapply (Entails.of_eq (pts_l (F := F) d (c0 h) _)); iexact Hl'
    iapply (Entails.of_eq (pts_o (F := F) d (c0 h) _))
    rw [← hval]
    iexact Ho'
  isplitl [Hsm' Hobr Hvb]
  · iapply ((K (F := F)).scopedBufs_S_intro hF d (c0 h))
    isplitl [Hsm' Hobr]
    · iapply (Entails.of_eq (ownBufs_S (F := F) d (c0 h)).symm)
      isplitl [Hsm']
      · iexists _; iapply (Entails.of_eq (pts_s (F := F) d (c0 h) _)); iexact Hsm'
      · iexact Hobr
    · iexact Hvb
  isplitl [Hs0 Hs1 Hs2 Hs3 Hs4 Hs5 Hs6 Hs7 Hs8 Hs9 Hs10 Hs11 Hs12 Hs13 Hs14 Hs15 Hs16 Hrest Hsubs]
  · iapply (SparseCore.Cfg.scopedSems0_S_intro (Val := Elt F) d (c0 h))
    isplitl [Hs0 Hs1 Hs2 Hs3 Hs4 Hs5 Hs6 Hs7 Hs8 Hs9 Hs10 Hs11 Hs12 Hs13 Hs14 Hs15 Hs16 Hrest]
    · iapply (Entails.of_eq (ownSems0_S (F := F) d (c0 h)).symm)
      isplitl [Hs0 Hs1 Hs2 Hs3 Hs4 Hs5 Hs6 Hs7 Hs8 Hs9 Hs10 Hs11 Hs12 Hs13 Hs14 Hs15 Hs16]
      · iapply (Entails.of_eq (bigSep_fin17 (fun k => (semVal (cell d (c0 h) k) 0 : sProp 𝕄))).symm)
        isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        isplitl [Hs6]; · iexact Hs6
        isplitl [Hs7]; · iexact Hs7
        isplitl [Hs8]; · iexact Hs8
        isplitl [Hs9]; · iexact Hs9
        isplitl [Hs10]; · iexact Hs10
        isplitl [Hs11]; · iexact Hs11
        isplitl [Hs12]; · iexact Hs12
        isplitl [Hs13]; · iexact Hs13
        isplitl [Hs14]; · iexact Hs14
        isplitl [Hs15]; · iexact Hs15
        iexact Hs16
      · iexact Hrest
    · iexact Hsubs
  iexists _; isplitr
  swap
  · iexact HO
  · ipureintro
    have key : ∀ (W₁ : Waits sig (HIx 1)) (a : SemLoc sig), (∀ p ∈ W₁, p ∈ W ∨ p.2 = none) →
        ∀ p ∈ insert (a, (default : HIx 1)) W₁, p ∈ W ∨ p.2 = none := by
      intro W₁ a hW₁ p hp
      rcases Finset.mem_insert.mp hp with rfl | hp
      · exact .inr rfl
      · exact hW₁ p hp
    repeat refine key _ _ ?_
    exact fun p hp => .inl hp

end Body

end Cert.Proof.KI

end
-- ==== Proof.KILaunch.lean ====
/-
  The idealized kernel's run, whole: the TensorCore's @main reshapes the batch into its flat `[32768, 1024]` view, starts the
  SparseCore call and waits for it; the call hands the one sequencer of its grid the flat view and the lengths and the result
  array, and takes them back with the result array filled. Every weakly fair execution of all the device's threads ends,
  faults nowhere, leaves the batch and the lengths as they were, and leaves in the result array, for each sequence `b`, row
  `(len b - 1) mod 2048` of that sequence.
-/
import proofs.«219430_g10557029613708_week1_w2_468_10_alg».proof.Proof.KIBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx
open Cert.LastStep Cert.LibFinSep

variable {F : FTy → Type}

local notation "𝕄" => MT nD τ sig (HIx 1) (Elt F) ℕ UU ℕ

local notation "vW" => (Memref.whole Cert.KernelIdeal.main_v0_scs : Memref Cert.KernelIdeal.sig Kind.scScalar Space.hbm Cert.KernelIdeal.S32768x1024 EltTy.f32)
local notation "lW" => (Memref.whole Cert.KernelIdeal.main_arg1_scs : Memref Cert.KernelIdeal.sig Kind.scScalar Space.hbm Cert.KernelIdeal.S16 EltTy.i32)
local notation "oW" => (Memref.whole Cert.KernelIdeal.main_v1_scs : Memref Cert.KernelIdeal.sig Kind.scScalar Space.hbm Cert.KernelIdeal.S16x1024 EltTy.f32)
local notation "sW" => (Memref.whole Cert.KernelIdeal.cc0_scratch0 : Memref Cert.KernelIdeal.sig Kind.scScalar Space.smem Cert.KernelIdeal.S16 EltTy.i32)

variable (m : (ℓ : Loc nD τ sig) → Buf (Elt F) ℓ) (ρ : Dev nD → PrngReg)

variable [FloatOps F]

/-! ## The launch theorem's obligation -/

theorem defs₀_scalar (c : Fin τ.nSC) :
    defs₀ (F := F) (.scScalar c) 0 ()
      = SparseCore.onCore hcore0 (fun c => cc0__laststep_body (coordsS c) vW (Memref.isWhole_whole _) lW (Memref.isWhole_whole _)
          oW (Memref.isWhole_whole _) sW (Memref.isWhole_whole _) cc0_scratch1 cc0_scoped0) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The call's one sequencer runs the body. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ forCore m d ∗ _) ⊢ wp _ _ _ _ (fun _ => iprop(fromCore m d ∗ _))
  match c with
  | ⟨0, h⟩ => exact (body₀ m d facts h O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev x' : DevRef τ sig := Proc.devRef .tc (main_arg0 : Ref sig .tc)
abbrev l' : DevRef τ sig := Proc.devRef .tc (main_arg1 : Ref sig .tc)
abbrev v' : DevRef τ sig := Proc.devRef .tc (main_v0 : Ref sig .tc)
abbrev o' : DevRef τ sig := Proc.devRef .tc (main_v1 : Ref sig .tc)
abbrev opRe : HloOp τ sig (Elt F) := StableHlo.reshape main_arg0 main_v0 rfl Facts₀.shapeCasts_S16x2048x1024_S32768x1024

/-- The TensorCore's arrays, all unscoped: the batch, the lengths, the flat view, the result. -/
abbrev S4 : Finset (DevRef τ sig) := {x', l', v', o'}

omit [FloatOps F] in
theorem held_S4 (d : Dev nD) (W : Valuation τ sig (Elt F)) :
    (held (T d) S4 W : sProp 𝕄) = iprop((xLoc d ↦{fullShare} W x') ∗ (lLoc d ↦{fullShare} W l') ∗ (vLoc d ↦{fullShare} W v') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (lLoc d ↦{fullShare} W main_arg1) ∗ (vLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem hRe : (opRe (F := F)).bufs ⊆ S4 := show ({x', v'} : Finset (DevRef τ sig)) ⊆ S4 by decide

/-- After the reshape: the flat view holds the batch's elements in row-major order, everything else what it held. -/
theorem held_V1 (d : Dev nD) :
    (held (T d) S4 ((opRe (F := F)).result (V0 m d)) : sProp 𝕄)
      = iprop((xLoc d ↦{fullShare} m (xLoc d)) ∗ (lLoc d ↦{fullShare} m (lLoc d)) ∗ (vLoc d ↦{fullShare} flatOf m d) ∗ oLoc d ↦{fullShare} m (oLoc d)) := by
  rw [held_S4,
    (opRe (F := F)).result_of_not_mem (V0 m d) (b := x') (show x' ∉ ({v'} : Finset (DevRef τ sig)) by decide),
    (opRe (F := F)).result_of_not_mem (V0 m d) (b := l') (show l' ∉ ({v'} : Finset (DevRef τ sig)) by decide),
    (opRe (F := F)).result_of_not_mem (V0 m d) (b := o') (show o' ∉ ({v'} : Finset (DevRef τ sig)) by decide),
    show (opRe (F := F)).result (V0 m d) v' = flatOf m d from
      StableHlo.reshape_result main_arg0 main_v0 rfl Facts₀.shapeCasts_S16x2048x1024_S32768x1024 ⟨by decide, rfl⟩ ⟨by decide, rfl⟩ (V0 m d)]
  rfl

/-- What the call takes for its one SparseCore, and what it hands back. -/
theorem st0_eq (d : Dev nD) : (bigSep Finset.univ fun c : Fin ((K (F := F)).nCore 0) => (P m).st 0 d c) = forCore m d := by
  show (bigSep (Finset.univ : Finset (Fin 1)) fun _ => forCore m d) = _
  rw [show (Finset.univ : Finset (Fin 1)) = {0} by decide, bigSep_singleton]
theorem dn0_eq (d : Dev nD) : (bigSep Finset.univ fun c : Fin ((K (F := F)).nCore 0) => (P m).dn 0 d c) = fromCore m d := by
  show (bigSep (Finset.univ : Finset (Fin 1)) fun _ => fromCore m d) = _
  rw [show (Finset.univ : Finset (Fin 1)) = {0} by decide, bigSep_singleton]

/-- What @main leaves the claim: the batch and the lengths at their launch contents, the result at the selected rows. -/
abbrev FIN (d : Dev nD) : sProp 𝕄 :=
  iprop((xLoc d ↦{fullShare} m (xLoc d)) ∗ (lLoc d ↦{fullShare} m (lLoc d)) ∗ oLoc d ↦{fullShare} outOf m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape: the flat view written from the batch
  iapply (wp_hlo_within 𝒱 (SparseCore.T d) none Set.univ (op := opRe) (S := S4) hRe (V := V0 m d)) $$ [Hb Hheld]
  · isplitl [Hb]; · iexact Hb
    iexact Hheld
  iintro ⟨Hb, Hheld⟩
  ihave Hh := (Entails.of_eq (held_V1 (F := F) m d)) $$ Hheld
  icases Hh with ⟨Hx, Hl, Hv, Ho⟩
  rw [wp_ret]; imodintro
  -- the call: the flat view, the lengths and the result array to the sequencer and back
  iapply ((K (F := F)).wp_run (D (F := F)) 𝒱 (EH := EH) (P := P m) κ d 0) $$ [Hst Hl Hv Ho Hx Hb]
  isplitr; · iexact Hctx
  isplitl [Hst]; · iexact Hst
  isplitl [Hl Hv Ho]
  · rw [st0_eq]; unfold forCore
    isplitl [Hv]; · iexact Hv
    isplitl [Hl]; · iexact Hl
    iexists _; iexact Ho
  iintro ⟨Hst, Hdn⟩
  ihave Hdn' := (Entails.of_eq (dn0_eq m d)) $$ Hdn
  unfold fromCore
  icases Hdn' with ⟨-, Hl, Ho⟩
  imodintro
  isplitl [Hst]; · iexact Hst
  isplitl [Hx]; · iexact Hx
  isplitl [Hl]; · iexact Hl
  iexact Ho

def fq (d : Dev nD) (s' : Phys nD τ sig (Elt F)) : Prop :=
  s'.mem.mem (oLoc d) = outOf m d ∧ s'.mem.mem (xLoc d) = m (xLoc d) ∧ s'.mem.mem (lLoc d) = m (lLoc d)

theorem hfin (d : Dev nD) (s' : Phys nD τ sig (Elt F)) : iprop(FIN m d ∗ SI s') ⊢ (⌜fq m d s'⌝ : sProp 𝕄) := by
  iintro ⟨⟨Hx, Hl, Ho⟩, HSI⟩
  icombine HSI Hx gives %hx
  icombine HSI Hl gives %hl
  icombine HSI Ho gives %ho
  ipureintro
  exact ⟨funext fun i => ho i (Finset.mem_univ i), funext fun i => hx i (Finset.mem_univ i), funext fun i => hl i (Finset.mem_univ i)⟩

/-! ## The program's run -/

def QC : PUnit × MemSt nD τ sig (Elt F) → Prop := fun r => ∀ c : Dev nD,
  r.2.mem (oLoc c) = outOf m c ∧ r.2.mem (xLoc c) = m (xLoc c) ∧ r.2.mem (lLoc c) = m (lLoc c)

theorem run_main [∀ e, Nonempty (Elt F e)] : θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h => h)

end Cert.Proof.KI

end
-- ==== Proof.RefGather.lean ====
/-
  The reference's one gather read at an index.
-/
import proofs.«219430_g10557029613708_week1_w2_468_10_alg».proof.Proof.Gen.ReferenceIdeal
import Idealize.ShloMosaic.Lib.ValueIdx

noncomputable section

namespace Cert.Proof.Ref

open Idealize.ShloMosaic Idealize.ShloMosaic.ValueIdx

open Cert.ReferenceIdeal

local notation "gd" => gather_S16x2048x1024_S16x2_S16x1024_1_01_n_n_01_1_111024

/-- Where the gather looks up the start position of the operand's first axis (the sequence): column 0 of the index
    array, in the row of the result's own first coordinate. -/
theorem siIdx_zero (y : S16x1024.Idx) (h : List.idxOf (0 : Fin 3) (GatherDims.startIndexMap gd) < (GatherDims.startIndexMap gd).length) :
    GatherDims.siIdx gd y ⟨List.idxOf (0 : Fin 3) (GatherDims.startIndexMap gd), h⟩ = ix2 (y 0) (0 : Fin 2) := by
  funext c; refine Fin.ext ?_
  match c with
  | ⟨0, _⟩ => rfl
  | ⟨1, _⟩ => rfl

/-- Where it looks up the start position of the second axis (the row): column 1 of the same row. -/
theorem siIdx_one (y : S16x1024.Idx) (h : List.idxOf (1 : Fin 3) (GatherDims.startIndexMap gd) < (GatherDims.startIndexMap gd).length) :
    GatherDims.siIdx gd y ⟨List.idxOf (1 : Fin 3) (GatherDims.startIndexMap gd), h⟩ = ix2 (y 0) (1 : Fin 2) := by
  funext c; refine Fin.ext ?_
  match c with
  | ⟨0, _⟩ => rfl
  | ⟨1, _⟩ => rfl

/-- The reference's gather, read at result index (b, j). Its dimension numbers collapse the operand's first two
    axes and take both of their start positions from the index array: position (b, 0) of the index array gives
    the sequence and position (b, 1) the row, each read as a signed number and clamped so that the slice of one
    sequence, one row and all 1024 columns fits; the third axis is the slice's own and is read at j. -/
theorem gather_apply {α : Type} (x : S16x2048x1024.Idx → α) (idx : IVec S16x2 32) (b : Fin 16) (j : Fin 1024) :
    Host.gather gd x idx (ix2 b j)
      = x (ix3 (⟨min (idx (ix2 b 0)).toInt.toNat 15, by omega⟩ : Fin 16)
              (⟨min (idx (ix2 b 1)).toInt.toNat 2047, by omega⟩ : Fin 2048) j) := by
  unfold Host.gather
  refine congrArg x (funext fun a => Fin.ext ?_)
  have hm0 : (0 : Fin 3) ∈ GatherDims.startIndexMap gd := List.mem_cons_self
  have hm1 : (1 : Fin 3) ∈ GatherDims.startIndexMap gd := List.mem_cons_of_mem _ List.mem_cons_self
  have hm2 : (2 : Fin 3) ∉ GatherDims.startIndexMap gd := by decide
  match a with
  | ⟨0, _⟩ =>
    show GatherDims.start gd (ix2 b j) idx 0 + GatherDims.batchCoord gd (ix2 b j) 0 + GatherDims.offCoord gd (ix2 b j) 0 = _
    rw [GatherDims.batchCoord_eq_zero _ _ _ List.not_mem_nil,
      GatherDims.offCoord_eq_zero _ _ _ (fun h => ((GatherDims.mem_sKept _ _).mp h).1 List.mem_cons_self)]
    unfold GatherDims.start
    rw [dif_pos hm0, siIdx_zero]
    rfl
  | ⟨1, _⟩ =>
    show GatherDims.start gd (ix2 b j) idx 1 + GatherDims.batchCoord gd (ix2 b j) 1 + GatherDims.offCoord gd (ix2 b j) 1 = _
    rw [GatherDims.batchCoord_eq_zero _ _ _ List.not_mem_nil,
      GatherDims.offCoord_eq_zero _ _ _ (fun h => ((GatherDims.mem_sKept _ _).mp h).1 (List.mem_cons_of_mem _ List.mem_cons_self))]
    unfold GatherDims.start
    rw [dif_pos hm1, siIdx_one]
    rfl
  | ⟨2, _⟩ =>
    show GatherDims.start gd (ix2 b j) idx 2 + GatherDims.batchCoord gd (ix2 b j) 2 + GatherDims.offCoord gd (ix2 b j) 2 = _
    rw [GatherDims.batchCoord_eq_zero _ _ _ List.not_mem_nil]
    unfold GatherDims.start
    rw [dif_neg hm2]
    show 0 + 0 + GatherDims.offCoord gd (ix2 b j) 2 = j.val
    rw [Nat.zero_add]
    rfl

/-- The same with the two clamped positions named: when the clamped sequence word is p and the clamped row word is r,
    the gathered element is the operand's at (p, r, j). -/
theorem gather_apply_of_eq {α : Type} (x : S16x2048x1024.Idx → α) (idx : IVec S16x2 32) (b : Fin 16) (j : Fin 1024)
    (p : Fin 16) (r : Fin 2048) (hp : min (idx (ix2 b 0)).toInt.toNat 15 = p.val)
    (hr : min (idx (ix2 b 1)).toInt.toNat 2047 = r.val) :
    Host.gather gd x idx (ix2 b j) = x (ix3 p r j) := by
  rw [gather_apply]
  exact congrArg x (by rw [show (⟨min (idx (ix2 b 0)).toInt.toNat 15, by omega⟩ : Fin 16) = p from Fin.ext hp,
    show (⟨min (idx (ix2 b 1)).toInt.toNat 2047, by omega⟩ : Fin 2048) = r from Fin.ext hr])

end Cert.Proof.Ref

end
-- ==== Proof.RefIndex.lean ====
/-
  The index array the reference hands to its gather, read entry by entry: column 0 holds the sequence's number,
  column 1 the row to take.
-/
import proofs.«219430_g10557029613708_week1_w2_468_10_alg».proof.Proof.Gen.ReferenceIdeal.Read
import Idealize.ShloMosaic.Lib.ValueIdx
import Idealize.ShloMosaic.Lib.Pipeline.Value

noncomputable section

namespace Cert.Proof.Ref

open Idealize.ShloMosaic Idealize.ShloMosaic.ValueIdx

open Cert.ReferenceIdeal Cert.ReferenceIdeal.Gen Cert.ReferenceIdeal.Read

variable {F : FTy → Type} [FloatOps F]

/-- Row b of the one-column array read by the broadcast that makes a [16] array a [16, 1] one is entry b. -/
theorem idx_v13 (b : Fin 16) : idx_main_v13 (ix2 b (0 : Fin 1)) = ix1 b :=
  funext fun a => Fin.ext (by match a with | ⟨0, _⟩ => rfl)

theorem idx_v14 (b : Fin 16) : idx_main_v14 (ix2 b (0 : Fin 1)) = ix1 b :=
  funext fun a => Fin.ext (by match a with | ⟨0, _⟩ => rfl)

/-- A number below 16, as a 32-bit word, is not negative, so the wrap of a negative index leaves it alone. -/
theorem batch_word (b : Fin 16) :
    Scalar.select (IntOp.cmpi .slt (BitVec.ofNat 32 b.val) 0#32) (IntOp.addi (BitVec.ofNat 32 b.val) 16#32)
      (BitVec.ofNat 32 b.val) = BitVec.ofNat 32 b.val := by
  revert b; decide

/-- Column 0 of the index array: in row b, the sequence's own number b. -/
theorem index_batch (l : (⟨S16, .i32⟩ : BufTy).Contents (Elt F)) (b : Fin 16) :
    val_main_v15 (F := F) l (ix2 b (0 : Fin 2)) = BitVec.ofNat 32 b.val := by
  unfold val_main_v15
  rw [concatenate_pair_apply_left (t := S16x2) (s₁ := S16x1) (s₂ := S16x1) (1 : Fin 2) _ _ concatenates_S16x1_S16x1_S16x2_d1
    (ix2 b (0 : Fin 2)) (rfl : S16x1.rank = S16x2.rank)
    (ix2 b (0 : Fin 1)) (fun a => by match a with | ⟨0, _⟩ => rfl | ⟨1, _⟩ => rfl)]
  rw [val_main_v13_apply, idx_v13, val_main_v7_apply, val_main_v4_apply, val_main_v6_apply, val_main_v2_apply,
    val_main_v3_apply, val_main_c_0_apply, val_main_v5_apply, val_main_c_1_apply]
  exact batch_word b

/-- Column 1 of the index array: in row b, the length word less one, with 2048 added when that is negative. -/
theorem index_row (l : (⟨S16, .i32⟩ : BufTy).Contents (Elt F)) (b : Fin 16) :
    val_main_v15 (F := F) l (ix2 b (1 : Fin 2))
      = Scalar.select (IntOp.cmpi .slt (IntOp.subi (l (ix1 b)) 1#32) 0#32)
          (IntOp.addi (IntOp.subi (l (ix1 b)) 1#32) 2048#32) (IntOp.subi (l (ix1 b)) 1#32) := by
  unfold val_main_v15
  rw [concatenate_pair_apply_right (t := S16x2) (s₁ := S16x1) (s₂ := S16x1) (1 : Fin 2) _ _ concatenates_S16x1_S16x1_S16x2_d1
    (ix2 b (1 : Fin 2)) (rfl : S16x1.rank = S16x2.rank) (rfl : S16x1.rank = S16x2.rank)
    (ix2 b (0 : Fin 1)) (fun a ha => by match a, ha with | ⟨0, _⟩, _ => rfl | ⟨1, _⟩, ha => exact absurd rfl ha) rfl]
  rw [val_main_v14_apply, idx_v14, val_main_v12_apply, val_main_v9_apply, val_main_v11_apply, val_main_v1_apply,
    val_main_v8_apply, val_main_c_2_apply, val_main_v10_apply, val_main_c_3_apply, val_main_v0_apply, val_main_c_apply]

end Cert.Proof.Ref

end
-- ==== Proof.RefWords.lean ====
/-
  The two index words of the reference's gather, as numbers: the sequence's number is kept, and the row word of a
  length between 0 and 2047 is the specification's row.
-/
import proofs.«219430_g10557029613708_week1_w2_468_10_alg».proof.Proof.Spec
import Idealize.ShloMosaic.Lib.Affine

noncomputable section

namespace Cert.Proof.Ref

open Idealize.ShloMosaic Idealize.ShloMosaic.ValueIdx

/-- A number below 16, read back from its 32-bit word as a signed number and clamped to 15, is itself. -/
theorem batch_clamp (b : Fin 16) : min (BitVec.ofNat 32 b.val).toInt.toNat 15 = b.val := by
  revert b; decide

/-- Subtracting one from a word between 0 and 2047 does not wrap as a signed number. -/
theorem sub_one_toInt (w : BitVec 32) (h0 : 0 ≤ w.toInt) (h1 : w.toInt ≤ 2047) :
    (IntOp.subi w 1#32).toInt = w.toInt - 1 := by
  unfold IntOp.subi
  rw [BitVec.toInt_sub, BitVec.toInt_one (by decide)]
  exact Int.bmod_eq_of_le (by simp only [Nat.reducePow]; omega) (by simp only [Nat.reducePow]; omega)

/-- The row the reference takes for a length word between 0 and 2047 — the word less one, 2048 added when that is
    negative, then read signed and clamped to 2047 — is the row of the specification, (len - 1) mod 2048. -/
theorem row_clamp (w : BitVec 32) (h0 : 0 ≤ w.toInt) (h1 : w.toInt ≤ 2047) :
    min (Scalar.select (IntOp.cmpi .slt (IntOp.subi w 1#32) 0#32) (IntOp.addi (IntOp.subi w 1#32) 2048#32)
        (IntOp.subi w 1#32)).toInt.toNat 2047 = (Cert.LastStep.rowOf w).val := by
  have hr := Cert.LastStep.rowOf_of_range w h0 h1
  have hd := sub_one_toInt w h0 h1
  by_cases hz : w.toInt = 0
  · have hw : w = 0#32 := BitVec.eq_of_toInt_eq (by rw [hz]; rfl)
    subst hw; decide
  · have hnot : ¬ IntOp.cmpi .slt (IntOp.subi w 1#32) 0#32 = 1#1 := by
      rw [IntOp.cmpi_slt, hd]
      show ¬ w.toInt - 1 < 0
      omega
    rw [eq_zero_of_ne_one hnot, select_zero, hd]
    rw [if_neg (by omega)] at hr
    omega

end Cert.Proof.Ref

end
-- ==== Proof.RefPre.lean ====
/-
  The range of the length words, read out of the precondition.
-/
import proofs.«219430_g10557029613708_week1_w2_468_10_alg».proof.Proof.Gen.Pre_input_domain
import Idealize.ShloMosaic.Lib.ValueIdx
import Idealize.ShloMosaic.Lib.ReduceAll

noncomputable section

namespace Cert.Proof.Ref

open Idealize.ShloMosaic Idealize.ShloMosaic.ValueIdx

open Cert.Pre_input_domain

instance : Subsingleton S_.Idx := ⟨fun a b => funext fun d => d.elim0⟩

/-- What the precondition says of the length words: it is the conjunction, over all entries, of a finiteness test of
    the payload and of the two signed comparisons 0 ≤ len and len ≤ 2047 of each length word, so when it is all ones
    every length word lies between 0 and 2047. The payload's half of the conjunction is not used, and the float
    instance plays no part. -/
theorem pre_range {F : FTy → Type} [FloatOps F] (x : FVec F S16x2048x1024 .f32) (l : IVec S16 32)
    (h : Cert.Pre_input_domain.fn (F := F) x l = (fun _ => 1#1)) :
    ∀ b : Fin 16, 0 ≤ (l (ix1 b)).toInt ∧ (l (ix1 b)).toInt ≤ 2047 := by
  intro b
  have h0 := congrFun h ix0
  dsimp only [Cert.Pre_input_domain.fn] at h0
  obtain ⟨_, h9⟩ := IntOp.andi_eq_one.1 h0
  have h8 := Host.reduce_andi_all _ _ _ _ _ h9 (ix1 b)
  obtain ⟨hge, hle⟩ := IntOp.andi_eq_one.1 h8
  have h1 := IntOp.cmpi_sge.1 hge
  have h2 := IntOp.cmpi_sle.1 hle
  exact ⟨h1, h2⟩

end Cert.Proof.Ref

end
-- ==== Proof.RefValue.lean ====
/-
  The reference program's result, read as a function of its two arguments: for each sequence b it gathers
  row (len b - 1), a negative number wrapped by adding 2048, of sequence b. With every length word between 0 and 2047,
  as the precondition says, that is the specification's row (len b - 1) mod 2048.
-/
import proofs.«219430_g10557029613708_week1_w2_468_10_alg».proof.Defs
import proofs.«219430_g10557029613708_week1_w2_468_10_alg».proof.Proof.Gen.ReferenceIdeal
import proofs.«219430_g10557029613708_week1_w2_468_10_alg».proof.Proof.Gen.Pre_input_domain
import proofs.«219430_g10557029613708_week1_w2_468_10_alg».proof.Proof.Gen.ReferenceIdeal.Read
import proofs.«219430_g10557029613708_week1_w2_468_10_alg».proof.Proof.Spec
import proofs.«219430_g10557029613708_week1_w2_468_10_alg».proof.Proof.RefGather
import proofs.«219430_g10557029613708_week1_w2_468_10_alg».proof.Proof.RefIndex
import proofs.«219430_g10557029613708_week1_w2_468_10_alg».proof.Proof.RefWords
import proofs.«219430_g10557029613708_week1_w2_468_10_alg».proof.Proof.RefPre

noncomputable section

namespace Cert.Proof.Ref

open Idealize.ShloMosaic Idealize.ShloMosaic.ValueIdx

open Idealize.SL.Sem
open Cert.ReferenceIdeal Cert.ReferenceIdeal.Read

/-- The reference's result is the specification's function of its two arguments, whatever the float values are,
    once every length word lies between 0 and 2047: entry (b, j) of the gather reads the operand at the clamped
    sequence word, which is b, at the clamped row word, which is the specification's row, and at column j. -/
theorem val_eq {F : FTy → Type} [FloatOps F] (x : (⟨S16x2048x1024, .f32⟩ : BufTy).Contents (Elt F))
    (l : (⟨S16, .i32⟩ : BufTy).Contents (Elt F))
    (hl : ∀ b : Fin 16, 0 ≤ (l (ix1 b)).toInt ∧ (l (ix1 b)).toInt ≤ 2047) :
    val_main_v16 (F := F) x l = Cert.LastStep.lastRows x l := by
  funext i
  obtain ⟨b, j, rfl⟩ : ∃ (b : Fin 16) (j : Fin 1024), i = ix2 b j := ⟨i 0, i 1, eq_ix2 i⟩
  unfold val_main_v16
  rw [Cert.LastStep.lastRows_apply]
  exact gather_apply_of_eq x _ b j b (Cert.LastStep.rowOf (l (ix1 b)))
    (by rw [index_batch]; exact batch_clamp b)
    (by rw [index_row]; exact row_clamp _ (hl b).1 (hl b).2)

/-- The reference's run, from any memory whose length words all lie between 0 and 2047: it terminates with its
    result the specification's function of the two argument arrays as the memory held them, and the arguments
    unchanged. -/
theorem run_value_of_range (m' : (ℓ : Loc Cert.ReferenceIdeal.nD Cert.ReferenceIdeal.τ Cert.ReferenceIdeal.sig) → Buf (Elt Ideal) ℓ)
    (g' : Dev Cert.ReferenceIdeal.nD → PrngReg)
    (hl : ∀ (c : Dev Cert.ReferenceIdeal.nD) (b : Fin 16),
      0 ≤ (m' ((c.tc : Thread Cert.ReferenceIdeal.nD Cert.ReferenceIdeal.τ).loc Cert.ReferenceIdeal.main_arg1) (ix1 b)).toInt ∧ (m' ((c.tc : Thread Cert.ReferenceIdeal.nD Cert.ReferenceIdeal.τ).loc Cert.ReferenceIdeal.main_arg1) (ix1 b)).toInt ≤ 2047) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = Cert.LastStep.lastRows (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run Cert.ReferenceIdeal.defs _ _).mono
    (fun _ h c => ⟨by rw [(h c).1, Read.val_main_v16_eq, val_eq _ _ (hl c)], (h c).2⟩)
    (Cert.ReferenceIdeal.Value.run (F := Ideal) m' g')

/-- The same from any memory of which the precondition holds: the precondition gives the range of the length words. -/
theorem run_value (m' : (ℓ : Loc Cert.ReferenceIdeal.nD Cert.ReferenceIdeal.τ Cert.ReferenceIdeal.sig) → Buf (Elt Ideal) ℓ)
    (g' : Dev Cert.ReferenceIdeal.nD → PrngReg) (hpre : Cert.Pre_ReferenceIdeal m') :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = Cert.LastStep.lastRows (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  run_value_of_range m' g' (fun c => pre_range _ _ (hpre c))

/-- The reference runs and leaves its arguments as they were: the run above with the result's value dropped. -/
theorem frame : Cert.frame_ReferenceIdeal :=
  fun m g _ => (θ_run Cert.ReferenceIdeal.defs _ _).mono (fun _ h c => (h c).2)
    (Cert.ReferenceIdeal.Value.run (F := Ideal) m g)

end Cert.Proof.Ref

end
-- ==== Proof.lean ====
/-
  The claim, assembled. Both programs compute, for each of the sixteen sequences, the row numbered `(len - 1) mod 2048` of
  that sequence: the kernel by masking `len - 1` to eleven bits and copying that row of the flat view of the batch; the
  reference by indexing the batch at `len - 1`, a negative index counting from the end. For lengths between 0 and 2047 — what
  the precondition says — the two rows are the same row, so the two results are equal entry by entry.

  The kernel's run (at the word-level instance and at the ideal one alike: the kernel only moves rows, it computes nothing on
  them) ends with the batch and the lengths unchanged and the result array at the selected rows; each frame claim is that run
  with the result dropped. The idealization rewrote nothing, so the kernel's idealization is the kernel's own text. The
  reference's run ends at the same array of selected rows; that is the equivalence.
-/
import proofs.«219430_g10557029613708_week1_w2_468_10_alg».proof.Defs
import proofs.«219430_g10557029613708_week1_w2_468_10_alg».proof.Proof.Gen.Kernel
import proofs.«219430_g10557029613708_week1_w2_468_10_alg».proof.Proof.Gen.Kernel.Skeleton
import proofs.«219430_g10557029613708_week1_w2_468_10_alg».proof.Proof.Gen.KernelIdeal
import proofs.«219430_g10557029613708_week1_w2_468_10_alg».proof.Proof.Gen.KernelIdeal.Skeleton
import proofs.«219430_g10557029613708_week1_w2_468_10_alg».proof.Proof.Gen.ReferenceIdeal
import proofs.«219430_g10557029613708_week1_w2_468_10_alg».proof.Proof.Gen.Pre_input_domain
import proofs.«219430_g10557029613708_week1_w2_468_10_alg».proof.Proof.KBLaunch
import proofs.«219430_g10557029613708_week1_w2_468_10_alg».proof.Proof.KILaunch
import proofs.«219430_g10557029613708_week1_w2_468_10_alg».proof.Proof.RefValue
import Idealize.ShloMosaic.Adequacy
import Idealize.ShloMosaic.Init

noncomputable section

namespace Cert.Proof

open Idealize.ShloMosaic Idealize.SL.Sem

/-- The kernel as printed runs, and its arguments end unchanged. -/
theorem frame_kernel : Cert.frame_Kernel := fun m g _ =>
  (θ_run Cert.Kernel.defs _ _).mono (fun _ h c => ⟨(h c).2.1, (h c).2.2⟩) (Cert.Proof.KB.run_main (F := Bits) m g)

/-- The idealized kernel runs, and its arguments end unchanged. -/
theorem frame_kernelIdeal : Cert.frame_KernelIdeal := fun m g _ =>
  (θ_run Cert.KernelIdeal.defs _ _).mono (fun _ h c => ⟨(h c).2.1, (h c).2.2⟩) (Cert.Proof.KI.run_main (F := Ideal) m g)

/-- Both idealized programs end at the array of selected rows. -/
theorem algebraic : Cert.algebraic_KernelIdeal_ReferenceIdeal := by
  intro m g m' g' hpre hagree
  refine ⟨fun c => Cert.LastStep.lastRows (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono (fun _ h c => ⟨(h c).1, (h c).2.1, (h c).2.2⟩) (Cert.Proof.KI.run_main (F := Ideal) m g)
  · have hpre' : Cert.Pre_ReferenceIdeal m' := fun c => by
      have := hpre c
      rw [← (hagree c).1, ← (hagree c).2] at this
      exact this
    refine (θ_run Cert.ReferenceIdeal.defs _ _).mono (fun _ h c => ⟨(h c).1.trans ?_, (h c).2⟩) (Cert.Proof.Ref.run_value m' g' hpre')
    rw [(hagree c).1, (hagree c).2]

theorem claim : Cert.Claim := ⟨Cert.Kernel.Gen.facts, Cert.KernelIdeal.Gen.facts, Cert.ReferenceIdeal.Gen.facts, Cert.Pre_input_domain.Gen.facts,
  frame_kernel, frame_kernelIdeal, Cert.Proof.Ref.frame, trivial, algebraic⟩

end Cert.Proof

end
